-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v219)) (v1 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_v198) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_v351) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3x256x256 : Shape := ⟨4, ![2, 3, 256, 256]⟩
abbrev S2x3x256 : Shape := ⟨3, ![2, 3, 256]⟩
abbrev S2x2x256 : Shape := ⟨3, ![2, 2, 256]⟩
abbrev S2x400000 : Shape := ⟨2, ![2, 400000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S2x3x256x256 : S_.BroadcastsInDim S2x3x256x256 (![] : Fin 0 → Fin S2x3x256x256.rank)
  reducesTo_S2x3x256x256_S_d0_1_2_3 : S2x3x256x256.ReducesTo [0, 1, 2, 3] S_
  bcast_S_S2x3x256 : S_.BroadcastsInDim S2x3x256 (![] : Fin 0 → Fin S2x3x256.rank)
  reducesTo_S2x3x256_S_d0_1_2 : S2x3x256.ReducesTo [0, 1, 2] S_
  bcast_S_S2x2x256 : S_.BroadcastsInDim S2x2x256 (![] : Fin 0 → Fin S2x2x256.rank)
  reducesTo_S2x2x256_S_d0_1_2 : S2x2x256.ReducesTo [0, 1, 2] S_

variable [Facts]

def fn_part1 {F : FTy → Type} [FloatOps F] (main_arg4 : FVec F S2x3x256x256 .f32) (main_arg5 : FVec F S2x2x256 .f32) (main_arg6 : FVec F S2x2x256 .f32) (main_v13 : IVec S_ 1) (main_v16 : IVec S2x3x256 1) : IVec S_ 1 :=
  let main_c_5 : IVec S_ 1 := constantI S_ 1 1#1
  let main_v17 : IVec S_ 1 := (fun x v => Host.reduce IntOp.andi x v reducesTo_S2x3x256_S_d0_1_2 h_S_) main_v16 main_c_5
  let main_v18 : IVec S_ 1 := andi main_v13 main_v17
  let main_v19 : FVec F S2x3x256x256 .f32 := Host.absf main_arg4
  let main_cst_6 : FVec F S_ .f32 := constant S_ .f32 0x7F800000#32
  let main_v20 : FVec F S2x3x256x256 .f32 := broadcastInDim S2x3x256x256 ![] bcast_S_S2x3x256x256 main_cst_6
  let main_v21 : IVec S2x3x256x256 1 := cmpf .olt main_v19 main_v20
  let main_c_7 : IVec S_ 1 := constantI S_ 1 1#1
  let main_v22 : IVec S_ 1 := (fun x v => Host.reduce IntOp.andi x v reducesTo_S2x3x256x256_S_d0_1_2_3 h_S_) main_v21 main_c_7
  let main_v23 : IVec S_ 1 := andi main_v18 main_v22
  let main_v24 : FVec F S2x2x256 .f32 := Host.absf main_arg5
  let main_cst_8 : FVec F S_ .f32 := constant S_ .f32 0x7F800000#32
  let main_v25 : FVec F S2x2x256 .f32 := broadcastInDim S2x2x256 ![] bcast_S_S2x2x256 main_cst_8
  let main_v26 : IVec S2x2x256 1 := cmpf .olt main_v24 main_v25
  let main_c_9 : IVec S_ 1 := constantI S_ 1 1#1
  let main_v27 : IVec S_ 1 := (fun x v => Host.reduce IntOp.andi x v reducesTo_S2x2x256_S_d0_1_2 h_S_) main_v26 main_c_9
  let main_v28 : IVec S_ 1 := andi main_v23 main_v27
  let main_v29 : FVec F S2x2x256 .f32 := Host.absf main_arg6
  let main_cst_10 : FVec F S_ .f32 := constant S_ .f32 0x7F800000#32
  let main_v30 : FVec F S2x2x256 .f32 := broadcastInDim S2x2x256 ![] bcast_S_S2x2x256 main_cst_10
  let main_v31 : IVec S2x2x256 1 := cmpf .olt main_v29 main_v30
  let main_c_11 : IVec S_ 1 := constantI S_ 1 1#1
  let main_v32 : IVec S_ 1 := (fun x v => Host.reduce IntOp.andi x v reducesTo_S2x2x256_S_d0_1_2 h_S_) main_v31 main_c_11
  let main_v33 : IVec S_ 1 := andi main_v28 main_v32
  main_v33

def fn {F : FTy → Type} [FloatOps F] (main_arg0 : FVec F S100000x256 .f32) (main_arg1 : FVec F S100000x256 .f32) (main_arg2 : FVec F S2x3x256x256 .f32) (main_arg3 : FVec F S2x3x256 .f32) (main_arg4 : FVec F S2x3x256x256 .f32) (main_arg5 : FVec F S2x2x256 .f32) (main_arg6 : FVec F S2x2x256 .f32) (main_arg7 : IVec S2x400000 32) (main_arg8 : IVec S2x400000 32) (main_arg9 : IVec S2x400000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S2x3x256x256 .f32 := Host.absf main_arg2
  let main_cst_2 : FVec F S_ .f32 := constant S_ .f32 0x7F800000#32
  let main_v10 : FVec F S2x3x256x256 .f32 := broadcastInDim S2x3x256x256 ![] bcast_S_S2x3x256x256 main_cst_2
  let main_v11 : IVec S2x3x256x256 1 := cmpf .olt main_v9 main_v10
  let main_c_3 : IVec S_ 1 := constantI S_ 1 1#1
  let main_v12 : IVec S_ 1 := (fun x v => Host.reduce IntOp.andi x v reducesTo_S2x3x256x256_S_d0_1_2_3 h_S_) main_v11 main_c_3
  let main_v13 : IVec S_ 1 := andi main_v8 main_v12
  let main_v14 : FVec F S2x3x256 .f32 := Host.absf main_arg3
  let main_cst_4 : FVec F S_ .f32 := constant S_ .f32 0x7F800000#32
  let main_v15 : FVec F S2x3x256 .f32 := broadcastInDim S2x3x256 ![] bcast_S_S2x3x256 main_cst_4
  let main_v16 : IVec S2x3x256 1 := cmpf .olt main_v14 main_v15
  fn_part1 (F := F) main_arg4 main_arg5 main_arg6 main_v13 main_v16
-- ==== Kernel.lean ====
abbrev S100000x256 : Shape := ⟨2, ![100000, 256]⟩
abbrev S2x3x256x256 : Shape := ⟨4, ![2, 3, 256, 256]⟩
abbrev S2x3x256 : Shape := ⟨3, ![2, 3, 256]⟩
abbrev S2x2x256 : Shape := ⟨3, ![2, 2, 256]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S100000 : Shape := ⟨1, ![100000]⟩
abbrev S100000x1 : Shape := ⟨2, ![100000, 1]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S1x256 : Shape := ⟨2, ![1, 256]⟩
abbrev S1000x256 : Shape := ⟨2, ![1000, 256]⟩
abbrev S1000 : Shape := ⟨1, ![1000]⟩
abbrev S1000x1 : Shape := ⟨2, ![1000, 1]⟩

abbrev nBuf : Space → Nat
  | .hbm => 266
  | .vmem => 54
  | .smem => 0
  | _ => 0

abbrev hbmTy0_0 (i : Nat) : BufTy := match i % 128 with
  | 0 => ⟨S100000x256, .f32⟩
  | 1 => ⟨S100000x256, .f32⟩
  | 2 => ⟨S2x3x256x256, .f32⟩
  | 3 => ⟨S2x3x256, .f32⟩
  | 4 => ⟨S2x3x256x256, .f32⟩
  | 5 => ⟨S2x2x256, .f32⟩
  | 6 => ⟨S2x2x256, .f32⟩
  | 7 => ⟨S2x400000, .i32⟩
  | 8 => ⟨S2x400000, .i32⟩
  | 9 => ⟨S2x400000, .i32⟩
  | 10 => ⟨S1x400000, .i32⟩
  | 11 => ⟨S400000, .i32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x256, .f32⟩
  | 21 => ⟨S1x400000, .i32⟩
  | 22 => ⟨S400000, .i32⟩
  | 23 => ⟨S_, .f32⟩
  | 24 => ⟨S100000x256, .f32⟩
  | 25 => ⟨S400000x1, .i32⟩
  | 26 => ⟨S100000x256, .f32⟩
  | 27 => ⟨S_, .f32⟩
  | 28 => ⟨S400000, .f32⟩
  | 29 => ⟨S1x400000, .i32⟩
  | 30 => ⟨S400000, .i32⟩
  | 31 => ⟨S_, .f32⟩
  | 32 => ⟨S100000, .f32⟩
  | 33 => ⟨S400000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x256, .f32⟩
  | 40 => ⟨S100000x256, .f32⟩
  | 41 => ⟨S1x400000, .i32⟩
  | 42 => ⟨S400000, .i32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x256, .f32⟩
  | 52 => ⟨S1x400000, .i32⟩
  | 53 => ⟨S400000, .i32⟩
  | 54 => ⟨S_, .f32⟩
  | 55 => ⟨S100000x256, .f32⟩
  | 56 => ⟨S400000x1, .i32⟩
  | 57 => ⟨S100000x256, .f32⟩
  | 58 => ⟨S_, .f32⟩
  | 59 => ⟨S400000, .f32⟩
  | 60 => ⟨S1x400000, .i32⟩
  | 61 => ⟨S400000, .i32⟩
  | 62 => ⟨S_, .f32⟩
  | 63 => ⟨S100000, .f32⟩
  | 64 => ⟨S400000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x256, .f32⟩
  | 71 => ⟨S100000x256, .f32⟩
  | 72 => ⟨S1x400000, .i32⟩
  | 73 => ⟨S400000, .i32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x256, .f32⟩
  | 83 => ⟨S1x400000, .i32⟩
  | 84 => ⟨S400000, .i32⟩
  | 85 => ⟨S_, .f32⟩
  | 86 => ⟨S100000x256, .f32⟩
  | 87 => ⟨S400000x1, .i32⟩
  | 88 => ⟨S100000x256, .f32⟩
  | 89 => ⟨S_, .f32⟩
  | 90 => ⟨S400000, .f32⟩
  | 91 => ⟨S1x400000, .i32⟩
  | 92 => ⟨S400000, .i32⟩
  | 93 => ⟨S_, .f32⟩
  | 94 => ⟨S100000, .f32⟩
  | 95 => ⟨S400000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x256, .f32⟩
  | 102 => ⟨S100000x256, .f32⟩
  | 103 => ⟨S1x1x256x256, .f32⟩
  | 104 => ⟨S256x256, .f32⟩
  | 105 => ⟨S1x1x256, .f32⟩
  | 106 => ⟨S256, .f32⟩
  | 107 => ⟨S1x256, .f32⟩
  | 108 => ⟨S1x1x256x256, .f32⟩
  | 109 => ⟨S256x256, .f32⟩
  | 110 => ⟨S1x1x256, .f32⟩
  | 111 => ⟨S256, .f32⟩
  | 112 => ⟨S1x256, .f32⟩
  | 113 => ⟨S1x1x256, .f32⟩
  | 114 => ⟨S256, .f32⟩
  | 115 => ⟨S1x256, .f32⟩
  | 116 => ⟨S100000x256, .f32⟩
  | 117 => ⟨S1x1x256x256, .f32⟩
  | 118 => ⟨S256x256, .f32⟩
  | 119 => ⟨S1x1x256, .f32⟩
  | 120 => ⟨S256, .f32⟩
  | 121 => ⟨S1x256, .f32⟩
  | 122 => ⟨S1x1x256x256, .f32⟩
  | 123 => ⟨S256x256, .f32⟩
  | 124 => ⟨S1x1x256x256, .f32⟩
  | 125 => ⟨S256x256, .f32⟩
  | 126 => ⟨S1x1x256, .f32⟩
  | 127 => ⟨S256, .f32⟩
  | _ => ⟨S100000x256, .f32⟩

abbrev hbmTy0_1 (i : Nat) : BufTy := match i % 128 with
  | 0 => ⟨S1x256, .f32⟩
  | 1 => ⟨S1x1x256x256, .f32⟩
  | 2 => ⟨S256x256, .f32⟩
  | 3 => ⟨S1x1x256, .f32⟩
  | 4 => ⟨S256, .f32⟩
  | 5 => ⟨S1x256, .f32⟩
  | 6 => ⟨S1x1x256, .f32⟩
  | 7 => ⟨S256, .f32⟩
  | 8 => ⟨S1x256, .f32⟩
  | 9 => ⟨S100000x256, .f32⟩
  | 10 => ⟨S1x400000, .i32⟩
  | 11 => ⟨S400000, .i32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x256, .f32⟩
  | 21 => ⟨S1x400000, .i32⟩
  | 22 => ⟨S400000, .i32⟩
  | 23 => ⟨S_, .f32⟩
  | 24 => ⟨S100000x256, .f32⟩
  | 25 => ⟨S400000x1, .i32⟩
  | 26 => ⟨S100000x256, .f32⟩
  | 27 => ⟨S_, .f32⟩
  | 28 => ⟨S400000, .f32⟩
  | 29 => ⟨S1x400000, .i32⟩
  | 30 => ⟨S400000, .i32⟩
  | 31 => ⟨S_, .f32⟩
  | 32 => ⟨S100000, .f32⟩
  | 33 => ⟨S400000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x256, .f32⟩
  | 40 => ⟨S100000x256, .f32⟩
  | 41 => ⟨S1x400000, .i32⟩
  | 42 => ⟨S400000, .i32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x256, .f32⟩
  | 52 => ⟨S1x400000, .i32⟩
  | 53 => ⟨S400000, .i32⟩
  | 54 => ⟨S_, .f32⟩
  | 55 => ⟨S100000x256, .f32⟩
  | 56 => ⟨S400000x1, .i32⟩
  | 57 => ⟨S100000x256, .f32⟩
  | 58 => ⟨S_, .f32⟩
  | 59 => ⟨S400000, .f32⟩
  | 60 => ⟨S1x400000, .i32⟩
  | 61 => ⟨S400000, .i32⟩
  | 62 => ⟨S_, .f32⟩
  | 63 => ⟨S100000, .f32⟩
  | 64 => ⟨S400000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x256, .f32⟩
  | 71 => ⟨S100000x256, .f32⟩
  | 72 => ⟨S1x400000, .i32⟩
  | 73 => ⟨S400000, .i32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x256, .f32⟩
  | 83 => ⟨S1x400000, .i32⟩
  | 84 => ⟨S400000, .i32⟩
  | 85 => ⟨S_, .f32⟩
  | 86 => ⟨S100000x256, .f32⟩
  | 87 => ⟨S400000x1, .i32⟩
  | 88 => ⟨S100000x256, .f32⟩
  | 89 => ⟨S_, .f32⟩
  | 90 => ⟨S400000, .f32⟩
  | 91 => ⟨S1x400000, .i32⟩
  | 92 => ⟨S400000, .i32⟩
  | 93 => ⟨S_, .f32⟩
  | 94 => ⟨S100000, .f32⟩
  | 95 => ⟨S400000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x256, .f32⟩
  | 102 => ⟨S100000x256, .f32⟩
  | 103 => ⟨S1x1x256x256, .f32⟩
  | 104 => ⟨S256x256, .f32⟩
  | 105 => ⟨S1x1x256, .f32⟩
  | 106 => ⟨S256, .f32⟩
  | 107 => ⟨S1x256, .f32⟩
  | 108 => ⟨S1x1x256x256, .f32⟩
  | 109 => ⟨S256x256, .f32⟩
  | 110 => ⟨S1x1x256, .f32⟩
  | 111 => ⟨S256, .f32⟩
  | 112 => ⟨S1x256, .f32⟩
  | 113 => ⟨S1x1x256, .f32⟩
  | 114 => ⟨S256, .f32⟩
  | 115 => ⟨S1x256, .f32⟩
  | 116 => ⟨S100000x256, .f32⟩
  | 117 => ⟨S1x1x256x256, .f32⟩
  | 118 => ⟨S256x256, .f32⟩
  | 119 => ⟨S1x1x256, .f32⟩
  | 120 => ⟨S256, .f32⟩
  | 121 => ⟨S1x256, .f32⟩
  | 122 => ⟨S1x1x256x256, .f32⟩
  | 123 => ⟨S256x256, .f32⟩
  | 124 => ⟨S1x1x256x256, .f32⟩
  | 125 => ⟨S256x256, .f32⟩
  | 126 => ⟨S1x1x256, .f32⟩
  | 127 => ⟨S256, .f32⟩
  | _ => ⟨S100000x256, .f32⟩

abbrev hbmTy0_2 (i : Nat) : BufTy := match i % 128 with
  | 0 => ⟨S1x256, .f32⟩
  | 1 => ⟨S1x1x256x256, .f32⟩
  | 2 => ⟨S256x256, .f32⟩
  | 3 => ⟨S1x1x256, .f32⟩
  | 4 => ⟨S256, .f32⟩
  | 5 => ⟨S1x256, .f32⟩
  | 6 => ⟨S1x1x256, .f32⟩
  | 7 => ⟨S256, .f32⟩
  | 8 => ⟨S1x256, .f32⟩
  | 9 => ⟨S100000x256, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S1x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S1x256, .f32⟩
  | .local _ .vmem, ⟨35, _⟩ => ⟨S1x256, .f32⟩
  | .local _ .vmem, ⟨36, _⟩ => ⟨S1000x256, .f32⟩
  | .local _ .vmem, ⟨37, _⟩ => ⟨S1000x256, .f32⟩
  | .local _ .vmem, ⟨38, _⟩ => ⟨S1000x256, .f32⟩
  | .local _ .vmem, ⟨39, _⟩ => ⟨S1000x256, .f32⟩
  | .local _ .vmem, ⟨40, _⟩ => ⟨S1000x256, .f32⟩
  | .local _ .vmem, ⟨41, _⟩ => ⟨S1000x256, .f32⟩
  | .local _ .vmem, ⟨42, _⟩ => ⟨S1000x256, .f32⟩
  | .local _ .vmem, ⟨43, _⟩ => ⟨S1000x256, .f32⟩
  | .local _ .vmem, ⟨44, _⟩ => ⟨S256x256, .f32⟩
  | .local _ .vmem, ⟨45, _⟩ => ⟨S1x256, .f32⟩
  | .local _ .vmem, ⟨46, _⟩ => ⟨S256x256, .f32⟩
  | .local _ .vmem, ⟨47, _⟩ => ⟨S256x256, .f32⟩
  | .local _ .vmem, ⟨48, _⟩ => ⟨S1x256, .f32⟩
  | .local _ .vmem, ⟨49, _⟩ => ⟨S256x256, .f32⟩
  | .local _ .vmem, ⟨50, _⟩ => ⟨S1x256, .f32⟩
  | .local _ .vmem, ⟨51, _⟩ => ⟨S1x256, .f32⟩
  | .local _ .vmem, ⟨52, _⟩ => ⟨S1000x256, .f32⟩
  | .local _ .vmem, ⟨53, _⟩ => ⟨S1000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_c_16 : Ref sig .tc := ⟨.hbm, 140, rfl⟩
abbrev main_v112 : Ref sig .tc := ⟨.hbm, 141, rfl⟩
abbrev main_v113 : Ref sig .tc := ⟨.hbm, 142, rfl⟩
abbrev main_c_17 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_18 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_19 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_20 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_21 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_c_22 : Ref sig .tc := ⟨.hbm, 171, rfl⟩
abbrev main_v137 : Ref sig .tc := ⟨.hbm, 172, rfl⟩
abbrev main_v138 : Ref sig .tc := ⟨.hbm, 173, rfl⟩
abbrev main_c_23 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_24 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_25 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_26 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_27 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_c_28 : Ref sig .tc := ⟨.hbm, 202, rfl⟩
abbrev main_v162 : Ref sig .tc := ⟨.hbm, 203, rfl⟩
abbrev main_v163 : Ref sig .tc := ⟨.hbm, 204, rfl⟩
abbrev main_c_29 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_30 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_31 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_32 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_33 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg11_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg10_0 : Ref sig .tc := ⟨.vmem, 51, rfl⟩
abbrev cc3_stg11_0 : Ref sig .tc := ⟨.vmem, 52, rfl⟩
abbrev cc3_stg11_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem11_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem10_0 : DmaSem sig := 51
abbrev cc3_sem11_0 : DmaSem sig := 52
abbrev cc3_sem11_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S1000x256 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  bcast_S256_S1x256_1 : S256.BroadcastsInDim S1x256 (![1] : Fin 1 → Fin S1x256.rank)
  slices_S2x2x256_S1x1x256_0_1_0 : S2x2x256.Slices ![0, 1, 0] S1x1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  slices_S2x3x256x256_S1x1x256x256_0_1_0_0 : S2x3x256x256.Slices ![0, 1, 0, 0] S1x1x256x256
  slices_S2x3x256_S1x1x256_0_1_0 : S2x3x256.Slices ![0, 1, 0] S1x1x256
  slices_S2x3x256x256_S1x1x256x256_0_2_0_0 : S2x3x256x256.Slices ![0, 2, 0, 0] S1x1x256x256
  slices_S2x3x256_S1x1x256_0_2_0 : S2x3x256.Slices ![0, 2, 0] S1x1x256
  slices_S2x2x256_S1x1x256_0_0_0 : S2x2x256.Slices ![0, 0, 0] S1x1x256
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x2x256_S1x1x256_1_1_0 : S2x2x256.Slices ![1, 1, 0] S1x1x256
  slices_S2x3x256x256_S1x1x256x256_1_1_0_0 : S2x3x256x256.Slices ![1, 1, 0, 0] S1x1x256x256
  slices_S2x3x256_S1x1x256_1_1_0 : S2x3x256.Slices ![1, 1, 0] S1x1x256
  slices_S2x3x256x256_S1x1x256x256_1_2_0_0 : S2x3x256x256.Slices ![1, 2, 0, 0] S1x1x256x256
  slices_S2x3x256_S1x1x256_1_2_0 : S2x3x256.Slices ![1, 2, 0] S1x1x256
  slices_S2x2x256_S1x1x256_1_0_0 : S2x2x256.Slices ![1, 0, 0] S1x1x256
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S100000_S400000x1_S400000_n_0_0_1_wf : ScatterDims.WF S100000 S400000x1 S400000 [] [0] [0] 1
  dot_S1000x256_S256x256_S1000x256_1_1_0_0_n_n_wf : DotDims.WF S1000x256 S256x256 S1000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S100000x256.size a
  hwx0_1 : ∀ i : grid0.Coords, EltTy.bits .f32 = 32 ∨ (Rect.block (s := S100000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S100000x256.size a
  hwx0_7 : ∀ i : grid0.Coords, EltTy.bits .f32 = 32 ∨ (Rect.block (s := S100000x256) S1000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S100000x256.size a
  hwx1_0 : ∀ i : grid1.Coords, EltTy.bits .f32 = 32 ∨ (Rect.block (s := S100000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S100000x256.size a
  hwx1_1 : ∀ i : grid1.Coords, EltTy.bits .f32 = 32 ∨ (Rect.block (s := S100000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S100000x256.size a
  hwx1_2 : ∀ i : grid1.Coords, EltTy.bits .f32 = 32 ∨ (Rect.block (s := S100000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x256.size a ≤ S100000x256.size a
  hwx1_11 : ∀ i : grid1.Coords, EltTy.bits .f32 = 32 ∨ (Rect.block (s := S100000x256) S1000x256.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S100000x256.size a
  hwx2_0 : ∀ i : grid2.Coords, EltTy.bits .f32 = 32 ∨ (Rect.block (s := S100000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S100000x256.size a
  hwx2_1 : ∀ i : grid2.Coords, EltTy.bits .f32 = 32 ∨ (Rect.block (s := S100000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x256.size a ≤ S100000x256.size a
  hwx2_7 : ∀ i : grid2.Coords, EltTy.bits .f32 = 32 ∨ (Rect.block (s := S100000x256) S1000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S100000x256.size a
  hwx3_0 : ∀ i : grid3.Coords, EltTy.bits .f32 = 32 ∨ (Rect.block (s := S100000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S100000x256.size a
  hwx3_1 : ∀ i : grid3.Coords, EltTy.bits .f32 = 32 ∨ (Rect.block (s := S100000x256) S1000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S100000x256.size a
  hwx3_2 : ∀ i : grid3.Coords, EltTy.bits .f32 = 32 ∨ (Rect.block (s := S100000x256) S1000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S256x256.size a
  hwx3_8 : ∀ i : grid3.Coords, EltTy.bits .f32 = 32 ∨ (Rect.block (s := S256x256) S256x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1000x256.size a ≤ S100000x256.size a
  hwx3_11 : ∀ i : grid3.Coords, EltTy.bits .f32 = 32 ∨ (Rect.block (s := S100000x256) S1000x256.size (cc3_transform_11 i) (hinb3_11 i)).WholeWords (EltTy.packing .f32)

variable [Facts₀]

def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf

abbrev win0_0 : Pipeline.Window sig grid0 :=
  Pipeline.Window.ofSpec (Memref.whole main_v24) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v76) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v79) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v84) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v87) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v88) S1000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v49) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v90) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v93) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v97) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v100) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v102) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v105) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v108) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v109) S1000x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v134) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v186) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v189) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v191) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v194) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v197) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v198) S1000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v159) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v184) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v109) S1000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v200) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v203) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v205) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v207) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v210) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v212) S256x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v215) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v218) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v219) S1000x256.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3x256x256 : Shape := ⟨4, ![2, 3, 256, 256]⟩
abbrev S2x3x256 : Shape := ⟨3, ![2, 3, 256]⟩
abbrev S2x2x256 : Shape := ⟨3, ![2, 2, 256]⟩
abbrev S2x400000 : Shape := ⟨2, ![2, 400000]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S100000 : Shape := ⟨1, ![100000]⟩
abbrev S100000x1 : Shape := ⟨2, ![100000, 1]⟩
abbrev S1x256 : Shape := ⟨2, ![1, 256]⟩

abbrev nBuf : Space → Nat
  | .hbm => 426
  | .vmem => 0
  | .smem => 0
  | _ => 0

abbrev hbmTy0_0 (i : Nat) : BufTy := match i % 128 with
  | 0 => ⟨S100000x256, .f32⟩
  | 1 => ⟨S100000x256, .f32⟩
  | 2 => ⟨S2x3x256x256, .f32⟩
  | 3 => ⟨S2x3x256, .f32⟩
  | 4 => ⟨S2x3x256x256, .f32⟩
  | 5 => ⟨S2x2x256, .f32⟩
  | 6 => ⟨S2x2x256, .f32⟩
  | 7 => ⟨S2x400000, .i32⟩
  | 8 => ⟨S2x400000, .i32⟩
  | 9 => ⟨S2x400000, .i32⟩
  | 10 => ⟨S1x1x256x256, .f32⟩
  | 11 => ⟨S256x256, .f32⟩
  | 12 => ⟨S1x1x256, .f32⟩
  | 13 => ⟨S256, .f32⟩
  | 14 => ⟨S1x1x256x256, .f32⟩
  | 15 => ⟨S256x256, .f32⟩
  | 16 => ⟨S1x400000, .i32⟩
  | 17 => ⟨S400000, .i32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x256, .f32⟩
  | 27 => ⟨S1x400000, .i32⟩
  | 28 => ⟨S400000, .i32⟩
  | 29 => ⟨S_, .f32⟩
  | 30 => ⟨S100000x256, .f32⟩
  | 31 => ⟨S400000x1, .i32⟩
  | 32 => ⟨S100000x256, .f32⟩
  | 33 => ⟨S_, .f32⟩
  | 34 => ⟨S400000, .f32⟩
  | 35 => ⟨S1x400000, .i32⟩
  | 36 => ⟨S400000, .i32⟩
  | 37 => ⟨S_, .f32⟩
  | 38 => ⟨S100000, .f32⟩
  | 39 => ⟨S400000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x256, .f32⟩
  | 46 => ⟨S100000x256, .f32⟩
  | 47 => ⟨S256x256, .f32⟩
  | 48 => ⟨S100000x256, .f32⟩
  | 49 => ⟨S1x256, .f32⟩
  | 50 => ⟨S100000x256, .f32⟩
  | 51 => ⟨S100000x256, .f32⟩
  | 52 => ⟨S256x256, .f32⟩
  | 53 => ⟨S100000x256, .f32⟩
  | 54 => ⟨S100000x256, .f32⟩
  | 55 => ⟨S1x1x256x256, .f32⟩
  | 56 => ⟨S256x256, .f32⟩
  | 57 => ⟨S1x1x256, .f32⟩
  | 58 => ⟨S256, .f32⟩
  | 59 => ⟨S1x1x256x256, .f32⟩
  | 60 => ⟨S256x256, .f32⟩
  | 61 => ⟨S1x400000, .i32⟩
  | 62 => ⟨S400000, .i32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x256, .f32⟩
  | 72 => ⟨S1x400000, .i32⟩
  | 73 => ⟨S400000, .i32⟩
  | 74 => ⟨S_, .f32⟩
  | 75 => ⟨S100000x256, .f32⟩
  | 76 => ⟨S400000x1, .i32⟩
  | 77 => ⟨S100000x256, .f32⟩
  | 78 => ⟨S_, .f32⟩
  | 79 => ⟨S400000, .f32⟩
  | 80 => ⟨S1x400000, .i32⟩
  | 81 => ⟨S400000, .i32⟩
  | 82 => ⟨S_, .f32⟩
  | 83 => ⟨S100000, .f32⟩
  | 84 => ⟨S400000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x256, .f32⟩
  | 91 => ⟨S100000x256, .f32⟩
  | 92 => ⟨S256x256, .f32⟩
  | 93 => ⟨S100000x256, .f32⟩
  | 94 => ⟨S1x256, .f32⟩
  | 95 => ⟨S100000x256, .f32⟩
  | 96 => ⟨S100000x256, .f32⟩
  | 97 => ⟨S256x256, .f32⟩
  | 98 => ⟨S100000x256, .f32⟩
  | 99 => ⟨S100000x256, .f32⟩
  | 100 => ⟨S1x1x256x256, .f32⟩
  | 101 => ⟨S256x256, .f32⟩
  | 102 => ⟨S1x1x256, .f32⟩
  | 103 => ⟨S256, .f32⟩
  | 104 => ⟨S1x1x256x256, .f32⟩
  | 105 => ⟨S256x256, .f32⟩
  | 106 => ⟨S1x400000, .i32⟩
  | 107 => ⟨S400000, .i32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x256, .f32⟩
  | 117 => ⟨S1x400000, .i32⟩
  | 118 => ⟨S400000, .i32⟩
  | 119 => ⟨S_, .f32⟩
  | 120 => ⟨S100000x256, .f32⟩
  | 121 => ⟨S400000x1, .i32⟩
  | 122 => ⟨S100000x256, .f32⟩
  | 123 => ⟨S_, .f32⟩
  | 124 => ⟨S400000, .f32⟩
  | 125 => ⟨S1x400000, .i32⟩
  | 126 => ⟨S400000, .i32⟩
  | 127 => ⟨S_, .f32⟩
  | _ => ⟨S100000x256, .f32⟩

abbrev hbmTy0_1 (i : Nat) : BufTy := match i % 128 with
  | 0 => ⟨S100000, .f32⟩
  | 1 => ⟨S400000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x256, .f32⟩
  | 8 => ⟨S100000x256, .f32⟩
  | 9 => ⟨S256x256, .f32⟩
  | 10 => ⟨S100000x256, .f32⟩
  | 11 => ⟨S1x256, .f32⟩
  | 12 => ⟨S100000x256, .f32⟩
  | 13 => ⟨S100000x256, .f32⟩
  | 14 => ⟨S256x256, .f32⟩
  | 15 => ⟨S100000x256, .f32⟩
  | 16 => ⟨S100000x256, .f32⟩
  | 17 => ⟨S100000x256, .f32⟩
  | 18 => ⟨S1x1x256, .f32⟩
  | 19 => ⟨S256, .f32⟩
  | 20 => ⟨S1x1x256, .f32⟩
  | 21 => ⟨S256, .f32⟩
  | 22 => ⟨S_, .f32⟩
  | 23 => ⟨S100000, .f32⟩
  | 24 => ⟨S100000x1, .f32⟩
  | 25 => ⟨S_, .f32⟩
  | 26 => ⟨S100000x1, .f32⟩
  | 27 => ⟨S100000x1, .f32⟩
  | 28 => ⟨S100000x256, .f32⟩
  | 29 => ⟨S100000x256, .f32⟩
  | 30 => ⟨S100000x256, .f32⟩
  | 31 => ⟨S_, .f32⟩
  | 32 => ⟨S100000, .f32⟩
  | 33 => ⟨S100000x1, .f32⟩
  | 34 => ⟨S_, .f32⟩
  | 35 => ⟨S100000x1, .f32⟩
  | 36 => ⟨S100000x1, .f32⟩
  | 37 => ⟨S100000x256, .f32⟩
  | 38 => ⟨S100000x256, .f32⟩
  | 39 => ⟨S_, .f32⟩
  | 40 => ⟨S100000x1, .f32⟩
  | 41 => ⟨S100000x1, .f32⟩
  | 42 => ⟨S100000x1, .f32⟩
  | 43 => ⟨S100000x256, .f32⟩
  | 44 => ⟨S100000x256, .f32⟩
  | 45 => ⟨S1x256, .f32⟩
  | 46 => ⟨S100000x256, .f32⟩
  | 47 => ⟨S100000x256, .f32⟩
  | 48 => ⟨S1x256, .f32⟩
  | 49 => ⟨S100000x256, .f32⟩
  | 50 => ⟨S100000x256, .f32⟩
  | 51 => ⟨S_, .f32⟩
  | 52 => ⟨S100000x256, .f32⟩
  | 53 => ⟨S100000x256, .f32⟩
  | 54 => ⟨S1x1x256, .f32⟩
  | 55 => ⟨S256, .f32⟩
  | 56 => ⟨S1x1x256, .f32⟩
  | 57 => ⟨S256, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x256, .f32⟩
  | 65 => ⟨S100000x256, .f32⟩
  | 66 => ⟨S100000x256, .f32⟩
  | 67 => ⟨S_, .f32⟩
  | 68 => ⟨S100000, .f32⟩
  | 69 => ⟨S100000x1, .f32⟩
  | 70 => ⟨S_, .f32⟩
  | 71 => ⟨S100000x1, .f32⟩
  | 72 => ⟨S100000x1, .f32⟩
  | 73 => ⟨S100000x256, .f32⟩
  | 74 => ⟨S100000x256, .f32⟩
  | 75 => ⟨S_, .f32⟩
  | 76 => ⟨S100000x1, .f32⟩
  | 77 => ⟨S100000x1, .f32⟩
  | 78 => ⟨S100000x1, .f32⟩
  | 79 => ⟨S100000x256, .f32⟩
  | 80 => ⟨S100000x256, .f32⟩
  | 81 => ⟨S1x256, .f32⟩
  | 82 => ⟨S100000x256, .f32⟩
  | 83 => ⟨S100000x256, .f32⟩
  | 84 => ⟨S1x256, .f32⟩
  | 85 => ⟨S100000x256, .f32⟩
  | 86 => ⟨S100000x256, .f32⟩
  | 87 => ⟨S_, .f32⟩
  | 88 => ⟨S100000x256, .f32⟩
  | 89 => ⟨S100000x256, .f32⟩
  | 90 => ⟨S1x1x256x256, .f32⟩
  | 91 => ⟨S256x256, .f32⟩
  | 92 => ⟨S1x1x256, .f32⟩
  | 93 => ⟨S256, .f32⟩
  | 94 => ⟨S1x1x256x256, .f32⟩
  | 95 => ⟨S256x256, .f32⟩
  | 96 => ⟨S1x400000, .i32⟩
  | 97 => ⟨S400000, .i32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x256, .f32⟩
  | 107 => ⟨S1x400000, .i32⟩
  | 108 => ⟨S400000, .i32⟩
  | 109 => ⟨S_, .f32⟩
  | 110 => ⟨S100000x256, .f32⟩
  | 111 => ⟨S400000x1, .i32⟩
  | 112 => ⟨S100000x256, .f32⟩
  | 113 => ⟨S_, .f32⟩
  | 114 => ⟨S400000, .f32⟩
  | 115 => ⟨S1x400000, .i32⟩
  | 116 => ⟨S400000, .i32⟩
  | 117 => ⟨S_, .f32⟩
  | 118 => ⟨S100000, .f32⟩
  | 119 => ⟨S400000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x256, .f32⟩
  | 126 => ⟨S100000x256, .f32⟩
  | 127 => ⟨S256x256, .f32⟩
  | _ => ⟨S100000x256, .f32⟩

abbrev hbmTy0_2 (i : Nat) : BufTy := match i % 128 with
  | 0 => ⟨S100000x256, .f32⟩
  | 1 => ⟨S1x256, .f32⟩
  | 2 => ⟨S100000x256, .f32⟩
  | 3 => ⟨S100000x256, .f32⟩
  | 4 => ⟨S256x256, .f32⟩
  | 5 => ⟨S100000x256, .f32⟩
  | 6 => ⟨S100000x256, .f32⟩
  | 7 => ⟨S1x1x256x256, .f32⟩
  | 8 => ⟨S256x256, .f32⟩
  | 9 => ⟨S1x1x256, .f32⟩
  | 10 => ⟨S256, .f32⟩
  | 11 => ⟨S1x1x256x256, .f32⟩
  | 12 => ⟨S256x256, .f32⟩
  | 13 => ⟨S1x400000, .i32⟩
  | 14 => ⟨S400000, .i32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x256, .f32⟩
  | 24 => ⟨S1x400000, .i32⟩
  | 25 => ⟨S400000, .i32⟩
  | 26 => ⟨S_, .f32⟩
  | 27 => ⟨S100000x256, .f32⟩
  | 28 => ⟨S400000x1, .i32⟩
  | 29 => ⟨S100000x256, .f32⟩
  | 30 => ⟨S_, .f32⟩
  | 31 => ⟨S400000, .f32⟩
  | 32 => ⟨S1x400000, .i32⟩
  | 33 => ⟨S400000, .i32⟩
  | 34 => ⟨S_, .f32⟩
  | 35 => ⟨S100000, .f32⟩
  | 36 => ⟨S400000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x256, .f32⟩
  | 43 => ⟨S100000x256, .f32⟩
  | 44 => ⟨S256x256, .f32⟩
  | 45 => ⟨S100000x256, .f32⟩
  | 46 => ⟨S1x256, .f32⟩
  | 47 => ⟨S100000x256, .f32⟩
  | 48 => ⟨S100000x256, .f32⟩
  | 49 => ⟨S256x256, .f32⟩
  | 50 => ⟨S100000x256, .f32⟩
  | 51 => ⟨S100000x256, .f32⟩
  | 52 => ⟨S1x1x256x256, .f32⟩
  | 53 => ⟨S256x256, .f32⟩
  | 54 => ⟨S1x1x256, .f32⟩
  | 55 => ⟨S256, .f32⟩
  | 56 => ⟨S1x1x256x256, .f32⟩
  | 57 => ⟨S256x256, .f32⟩
  | 58 => ⟨S1x400000, .i32⟩
  | 59 => ⟨S400000, .i32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x256, .f32⟩
  | 69 => ⟨S1x400000, .i32⟩
  | 70 => ⟨S400000, .i32⟩
  | 71 => ⟨S_, .f32⟩
  | 72 => ⟨S100000x256, .f32⟩
  | 73 => ⟨S400000x1, .i32⟩
  | 74 => ⟨S100000x256, .f32⟩
  | 75 => ⟨S_, .f32⟩
  | 76 => ⟨S400000, .f32⟩
  | 77 => ⟨S1x400000, .i32⟩
  | 78 => ⟨S400000, .i32⟩
  | 79 => ⟨S_, .f32⟩
  | 80 => ⟨S100000, .f32⟩
  | 81 => ⟨S400000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x256, .f32⟩
  | 88 => ⟨S100000x256, .f32⟩
  | 89 => ⟨S256x256, .f32⟩
  | 90 => ⟨S100000x256, .f32⟩
  | 91 => ⟨S1x256, .f32⟩
  | 92 => ⟨S100000x256, .f32⟩
  | 93 => ⟨S100000x256, .f32⟩
  | 94 => ⟨S256x256, .f32⟩
  | 95 => ⟨S100000x256, .f32⟩
  | 96 => ⟨S100000x256, .f32⟩
  | 97 => ⟨S100000x256, .f32⟩
  | 98 => ⟨S1x1x256, .f32⟩
  | 99 => ⟨S256, .f32⟩
  | 100 => ⟨S1x1x256, .f32⟩
  | 101 => ⟨S256, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x256, .f32⟩
  | 109 => ⟨S100000x256, .f32⟩
  | 110 => ⟨S100000x256, .f32⟩
  | 111 => ⟨S_, .f32⟩
  | 112 => ⟨S100000, .f32⟩
  | 113 => ⟨S100000x1, .f32⟩
  | 114 => ⟨S_, .f32⟩
  | 115 => ⟨S100000x1, .f32⟩
  | 116 => ⟨S100000x1, .f32⟩
  | 117 => ⟨S100000x256, .f32⟩
  | 118 => ⟨S100000x256, .f32⟩
  | 119 => ⟨S_, .f32⟩
  | 120 => ⟨S100000x1, .f32⟩
  | 121 => ⟨S100000x1, .f32⟩
  | 122 => ⟨S100000x1, .f32⟩
  | 123 => ⟨S100000x256, .f32⟩
  | 124 => ⟨S100000x256, .f32⟩
  | 125 => ⟨S1x256, .f32⟩
  | 126 => ⟨S100000x256, .f32⟩
  | 127 => ⟨S100000x256, .f32⟩
  | _ => ⟨S100000x256, .f32⟩

abbrev hbmTy0_3 (i : Nat) : BufTy := match i % 128 with
  | 0 => ⟨S1x256, .f32⟩
  | 1 => ⟨S100000x256, .f32⟩
  | 2 => ⟨S100000x256, .f32⟩
  | 3 => ⟨S_, .f32⟩
  | 4 => ⟨S100000x256, .f32⟩
  | 5 => ⟨S100000x256, .f32⟩
  | 6 => ⟨S1x1x256, .f32⟩
  | 7 => ⟨S256, .f32⟩
  | 8 => ⟨S1x1x256, .f32⟩
  | 9 => ⟨S256, .f32⟩
  | 10 => ⟨S_, .f32⟩
  | 11 => ⟨S100000, .f32⟩
  | 12 => ⟨S100000x1, .f32⟩
  | 13 => ⟨S_, .f32⟩
  | 14 => ⟨S100000x1, .f32⟩
  | 15 => ⟨S100000x1, .f32⟩
  | 16 => ⟨S100000x256, .f32⟩
  | 17 => ⟨S100000x256, .f32⟩
  | 18 => ⟨S100000x256, .f32⟩
  | 19 => ⟨S_, .f32⟩
  | 20 => ⟨S100000, .f32⟩
  | 21 => ⟨S100000x1, .f32⟩
  | 22 => ⟨S_, .f32⟩
  | 23 => ⟨S100000x1, .f32⟩
  | 24 => ⟨S100000x1, .f32⟩
  | 25 => ⟨S100000x256, .f32⟩
  | 26 => ⟨S100000x256, .f32⟩
  | 27 => ⟨S_, .f32⟩
  | 28 => ⟨S100000x1, .f32⟩
  | 29 => ⟨S100000x1, .f32⟩
  | 30 => ⟨S100000x1, .f32⟩
  | 31 => ⟨S100000x256, .f32⟩
  | 32 => ⟨S100000x256, .f32⟩
  | 33 => ⟨S1x256, .f32⟩
  | 34 => ⟨S100000x256, .f32⟩
  | 35 => ⟨S100000x256, .f32⟩
  | 36 => ⟨S1x256, .f32⟩
  | 37 => ⟨S100000x256, .f32⟩
  | 38 => ⟨S100000x256, .f32⟩
  | 39 => ⟨S_, .f32⟩
  | 40 => ⟨S100000x256, .f32⟩
  | 41 => ⟨S100000x256, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_4 : Ref sig .tc := ⟨.hbm, 63, rfl⟩
abbrev main_v47 : Ref sig .tc := ⟨.hbm, 64, rfl⟩
abbrev main_v48 : Ref sig .tc := ⟨.hbm, 65, rfl⟩
abbrev main_c_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_10 : Ref sig .tc := ⟨.hbm, 108, rfl⟩
abbrev main_v86 : Ref sig .tc := ⟨.hbm, 109, rfl⟩
abbrev main_v87 : Ref sig .tc := ⟨.hbm, 110, rfl⟩
abbrev main_c_11 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_12 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_13 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_14 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_15 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_16 : Ref sig .tc := ⟨.hbm, 150, rfl⟩
abbrev main_v122 : Ref sig .tc := ⟨.hbm, 151, rfl⟩
abbrev main_v123 : Ref sig .tc := ⟨.hbm, 152, rfl⟩
abbrev main_cst_17 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_18 : Ref sig .tc := ⟨.hbm, 159, rfl⟩
abbrev main_v129 : Ref sig .tc := ⟨.hbm, 160, rfl⟩
abbrev main_v130 : Ref sig .tc := ⟨.hbm, 161, rfl⟩
abbrev main_cst_19 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_20 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_call0_cst : Ref sig .tc := ⟨.hbm, 179, rfl⟩
abbrev main_call0_v0 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_21 : Ref sig .tc := ⟨.hbm, 186, rfl⟩
abbrev main_v151 : Ref sig .tc := ⟨.hbm, 187, rfl⟩
abbrev main_v152 : Ref sig .tc := ⟨.hbm, 188, rfl⟩
abbrev main_cst_22 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_23 : Ref sig .tc := ⟨.hbm, 195, rfl⟩
abbrev main_v158 : Ref sig .tc := ⟨.hbm, 196, rfl⟩
abbrev main_v159 : Ref sig .tc := ⟨.hbm, 197, rfl⟩
abbrev main_cst_24 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_cst_25 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_call1_cst : Ref sig .tc := ⟨.hbm, 215, rfl⟩
abbrev main_call1_v0 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_c_26 : Ref sig .tc := ⟨.hbm, 226, rfl⟩
abbrev main_v184 : Ref sig .tc := ⟨.hbm, 227, rfl⟩
abbrev main_v185 : Ref sig .tc := ⟨.hbm, 228, rfl⟩
abbrev main_c_27 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_cst_28 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_cst_29 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_30 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_cst_31 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_c_32 : Ref sig .tc := ⟨.hbm, 271, rfl⟩
abbrev main_v223 : Ref sig .tc := ⟨.hbm, 272, rfl⟩
abbrev main_v224 : Ref sig .tc := ⟨.hbm, 273, rfl⟩
abbrev main_c_33 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_cst_34 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_cst_35 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_cst_36 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_cst_37 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_c_38 : Ref sig .tc := ⟨.hbm, 316, rfl⟩
abbrev main_v262 : Ref sig .tc := ⟨.hbm, 317, rfl⟩
abbrev main_v263 : Ref sig .tc := ⟨.hbm, 318, rfl⟩
abbrev main_c_39 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_cst_40 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_cst_41 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_cst_42 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_cst_43 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_cst_44 : Ref sig .tc := ⟨.hbm, 358, rfl⟩
abbrev main_v298 : Ref sig .tc := ⟨.hbm, 359, rfl⟩
abbrev main_v299 : Ref sig .tc := ⟨.hbm, 360, rfl⟩
abbrev main_cst_45 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_cst_46 : Ref sig .tc := ⟨.hbm, 367, rfl⟩
abbrev main_v305 : Ref sig .tc := ⟨.hbm, 368, rfl⟩
abbrev main_v306 : Ref sig .tc := ⟨.hbm, 369, rfl⟩
abbrev main_cst_47 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_cst_48 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_call2_cst : Ref sig .tc := ⟨.hbm, 387, rfl⟩
abbrev main_call2_v0 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_cst_49 : Ref sig .tc := ⟨.hbm, 394, rfl⟩
abbrev main_v327 : Ref sig .tc := ⟨.hbm, 395, rfl⟩
abbrev main_v328 : Ref sig .tc := ⟨.hbm, 396, rfl⟩
abbrev main_cst_50 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_cst_51 : Ref sig .tc := ⟨.hbm, 403, rfl⟩
abbrev main_v334 : Ref sig .tc := ⟨.hbm, 404, rfl⟩
abbrev main_v335 : Ref sig .tc := ⟨.hbm, 405, rfl⟩
abbrev main_cst_52 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_cst_53 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_v346 : Ref sig .tc := ⟨.hbm, 418, rfl⟩
abbrev main_v347 : Ref sig .tc := ⟨.hbm, 419, rfl⟩
abbrev main_v348 : Ref sig .tc := ⟨.hbm, 420, rfl⟩
abbrev main_v349 : Ref sig .tc := ⟨.hbm, 421, rfl⟩
abbrev main_v350 : Ref sig .tc := ⟨.hbm, 422, rfl⟩
abbrev main_call3_cst : Ref sig .tc := ⟨.hbm, 423, rfl⟩
abbrev main_call3_v0 : Ref sig .tc := ⟨.hbm, 424, rfl⟩
abbrev main_v351 : Ref sig .tc := ⟨.hbm, 425, rfl⟩

abbrev nD : Nat := 1
abbrev τ : Topo := Topo.v7x

variable {F : FTy → Type} [FloatOps F]

class Facts₀ : Prop where
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x3x256x256_S1x1x256x256_0_1_0_0 : S2x3x256x256.Slices ![0, 1, 0, 0] S1x1x256x256
  slices_S2x3x256_S1x1x256_0_1_0 : S2x3x256.Slices ![0, 1, 0] S1x1x256
  slices_S2x3x256x256_S1x1x256x256_0_2_0_0 : S2x3x256x256.Slices ![0, 2, 0, 0] S1x1x256x256
  slices_S2x3x256_S1x1x256_0_2_0 : S2x3x256.Slices ![0, 2, 0] S1x1x256
  slices_S2x2x256_S1x1x256_0_0_0 : S2x2x256.Slices ![0, 0, 0] S1x1x256
  reducesTo_S100000x256_S100000_d1 : S100000x256.ReducesTo [1] S100000
  h_S_ : 0 < S_.numel
  bcast_S_S100000x1 : S_.BroadcastsInDim S100000x1 (![] : Fin 0 → Fin S100000x1.rank)
  slices_S2x2x256_S1x1x256_0_1_0 : S2x2x256.Slices ![0, 1, 0] S1x1x256
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x3x256x256_S1x1x256x256_1_1_0_0 : S2x3x256x256.Slices ![1, 1, 0, 0] S1x1x256x256
  slices_S2x3x256_S1x1x256_1_1_0 : S2x3x256.Slices ![1, 1, 0] S1x1x256
  slices_S2x3x256x256_S1x1x256x256_1_2_0_0 : S2x3x256x256.Slices ![1, 2, 0, 0] S1x1x256x256
  slices_S2x3x256_S1x1x256_1_2_0 : S2x3x256.Slices ![1, 2, 0] S1x1x256
  slices_S2x2x256_S1x1x256_1_0_0 : S2x2x256.Slices ![1, 0, 0] S1x1x256
  slices_S2x2x256_S1x1x256_1_1_0 : S2x2x256.Slices ![1, 1, 0] S1x1x256
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S100000_S400000x1_S400000_n_0_0_1_wf : ScatterDims.WF S100000 S400000x1 S400000 [] [0] [0] 1
  dot_S100000x256_S256x256_S100000x256_1_0_0_1_n_n_wf : DotDims.WF S100000x256 S256x256 S100000x256 [1] [0] [0] [1] [] []

variable [Facts₀]

def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The idealized kernel's run with its two results kept.

  @main is eight segments: four stretches of host operations and four kernel regions. Every weakly fair execution
  runs them in order, and at the return every unscoped buffer of the TensorCore holds what the fold of the segments
  leaves in it: a stretch leaves its operations' results, a region leaves in each of its arrays what its write-backs
  leave and every other buffer as it found it. The frame claim keeps only the argument arrays of that final state;
  here the two result arrays are kept as well — the second layer's user rows and item rows — each at the fold's
  contents `V8`, which the later modules read back region by region.
-/
import proofs.«130044_j40561671143575_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the user rows (`main_v219`) and the item
    rows (`main_v198`) of the second layer at the contents the fold of the segments leaves, and the arguments as
    launched. -/
theorem run : θ_run defs (onTc (τ := τ) (main (F := F))) ⟨m, fun _ => 0, ρ⟩ (fun r => ∀ c : Dev nD,
      r.2.mem ((c.tc : Thread nD τ).loc main_v219) = V8 m ρ c main_v219
      ∧ r.2.mem ((c.tc : Thread nD τ).loc main_v198) = V8 m ρ c main_v198
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v219 (by decide)),
       h c _ (mem_uc main_v198 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Results

end
-- ==== Proof.Spec.lean ====
/-
  The mathematics both programs compute, one row at a time.

  A node's row `x : Fin 256 → EReal` goes through a linear map `W` (stored with the OUTPUT feature on its rows: the map is
  `x ↦ x · Wᵀ`) as `lin x W q = ∑ k, x k · W q k`. One SAGE convolution of a destination row is
  `lin mean Wl + bl + lin x Wr`, the mean being the neighbourhood mean of the source rows. An item row is updated by layer
  normalisation and a rectifier of ONE convolution, a user row of the SUM of two. Layer normalisation of a row `m` is
  `(m − μ) · (σ² + ε)^(−1/2) · g + b` with `μ = (∑ m) / 256` and `σ² = (∑ (m − μ)²) / 256`; the rectifier is the maximum
  with zero. The constants are kept as the binary words both programs print (256, ε, 0): the same word on both sides is
  never evaluated.

  The whole-array forms read a row of a [100000, 256] array, a [256, 256] matrix and a [1, 256] row vector at literal
  coordinates.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A row through a linear map stored with the output feature on its rows: `(x · Wᵀ) q`. -/
def lin (x : Fin 256 → EReal) (W : Fin 256 → Fin 256 → EReal) (q : Fin 256) : EReal :=
  ∑ k : Fin 256, x k * W q k

/-- The mean of a row of 256 entries: its sum divided by the word for 256. -/
def mean256 (m : Fin 256 → EReal) : EReal :=
  Ideal.div (∑ j : Fin 256, m j) (Ideal.ofBits .f32 0x43800000#32)

/-- A row minus its mean. -/
def centred (m : Fin 256 → EReal) (q : Fin 256) : EReal := m q - mean256 m

/-- Layer normalisation with scale `g` and shift `b`, then the rectifier. -/
def lnRelu (m g b : Fin 256 → EReal) (q : Fin 256) : EReal :=
  max (centred m q * Ideal.rsqrt (mean256 (fun j => centred m j * centred m j) + Ideal.ofBits .f32 0x3727C5AC#32) * g q + b q)
    (Ideal.ofBits .f32 0x00000000#32)

/-- One SAGE convolution of a destination row `x` whose neighbourhood mean is `mean`. -/
def sageRow (mean x : Fin 256 → EReal) (Wl : Fin 256 → Fin 256 → EReal) (bl : Fin 256 → EReal) (Wr : Fin 256 → Fin 256 → EReal)
    (q : Fin 256) : EReal :=
  lin mean Wl q + bl q + lin x Wr q

/-- An item row's update: one convolution, normalised and rectified. -/
def itemRow (mean x : Fin 256 → EReal) (Wl : Fin 256 → Fin 256 → EReal) (bl : Fin 256 → EReal) (Wr : Fin 256 → Fin 256 → EReal)
    (g b : Fin 256 → EReal) (q : Fin 256) : EReal :=
  lnRelu (sageRow mean x Wl bl Wr) g b q

/-- A user row's update: the sum of two convolutions of the same row, normalised and rectified. -/
def userRow (mean₁ mean₂ x : Fin 256 → EReal) (Wl₁ : Fin 256 → Fin 256 → EReal) (bl₁ : Fin 256 → EReal) (Wr₁ : Fin 256 → Fin 256 → EReal)
    (Wl₂ : Fin 256 → Fin 256 → EReal) (bl₂ : Fin 256 → EReal) (Wr₂ : Fin 256 → Fin 256 → EReal) (g b : Fin 256 → EReal) (q : Fin 256) : EReal :=
  lnRelu (fun j => sageRow mean₁ x Wl₁ bl₁ Wr₁ j + sageRow mean₂ x Wl₂ bl₂ Wr₂ j) g b q

/-! ## Whole arrays -/

/-- Row `r` of a [R, 256] array. -/
def row {R : Nat} (x : (⟨2, ![R, 256]⟩ : Shape).Idx → EReal) (r : Fin R) : Fin 256 → EReal := fun k => x (ix2 r k)

/-- A [256, 256] matrix by its two coordinates. -/
def mat (W : (⟨2, ![256, 256]⟩ : Shape).Idx → EReal) : Fin 256 → Fin 256 → EReal := fun o k => W (ix2 o k)

/-- A [1, 256] row vector by its one free coordinate. -/
def vec (v : (⟨2, ![1, 256]⟩ : Shape).Idx → EReal) : Fin 256 → EReal := fun k => v (ix2 0 k)

/-- The item update of every row of a [R, 256] array. -/
def itemUpd {R : Nat} (mean x : (⟨2, ![R, 256]⟩ : Shape).Idx → EReal) (Wl : (⟨2, ![256, 256]⟩ : Shape).Idx → EReal)
    (bl : (⟨2, ![1, 256]⟩ : Shape).Idx → EReal) (Wr : (⟨2, ![256, 256]⟩ : Shape).Idx → EReal)
    (g b : (⟨2, ![1, 256]⟩ : Shape).Idx → EReal) : (⟨2, ![R, 256]⟩ : Shape).Idx → EReal :=
  fun i => itemRow (row mean ⟨(i 0).val, idx2_lt0 i⟩) (row x ⟨(i 0).val, idx2_lt0 i⟩) (mat Wl) (vec bl) (mat Wr) (vec g) (vec b)
    ⟨(i 1).val, idx2_lt1 i⟩

/-- The user update of every row of a [R, 256] array. -/
def userUpd {R : Nat} (mean₁ mean₂ x : (⟨2, ![R, 256]⟩ : Shape).Idx → EReal)
    (Wl₁ : (⟨2, ![256, 256]⟩ : Shape).Idx → EReal) (bl₁ : (⟨2, ![1, 256]⟩ : Shape).Idx → EReal) (Wr₁ : (⟨2, ![256, 256]⟩ : Shape).Idx → EReal)
    (Wl₂ : (⟨2, ![256, 256]⟩ : Shape).Idx → EReal) (bl₂ : (⟨2, ![1, 256]⟩ : Shape).Idx → EReal) (Wr₂ : (⟨2, ![256, 256]⟩ : Shape).Idx → EReal)
    (g b : (⟨2, ![1, 256]⟩ : Shape).Idx → EReal) : (⟨2, ![R, 256]⟩ : Shape).Idx → EReal :=
  fun i => userRow (row mean₁ ⟨(i 0).val, idx2_lt0 i⟩) (row mean₂ ⟨(i 0).val, idx2_lt0 i⟩) (row x ⟨(i 0).val, idx2_lt0 i⟩)
    (mat Wl₁) (vec bl₁) (mat Wr₁) (mat Wl₂) (vec bl₂) (mat Wr₂) (vec g) (vec b) ⟨(i 1).val, idx2_lt1 i⟩

theorem itemUpd_ix2 {R : Nat} (mean x : (⟨2, ![R, 256]⟩ : Shape).Idx → EReal) (Wl : (⟨2, ![256, 256]⟩ : Shape).Idx → EReal)
    (bl : (⟨2, ![1, 256]⟩ : Shape).Idx → EReal) (Wr : (⟨2, ![256, 256]⟩ : Shape).Idx → EReal)
    (g b : (⟨2, ![1, 256]⟩ : Shape).Idx → EReal) (r : Fin R) (q : Fin 256) :
    itemUpd mean x Wl bl Wr g b (ix2 r q) = itemRow (row mean r) (row x r) (mat Wl) (vec bl) (mat Wr) (vec g) (vec b) q := rfl

theorem userUpd_ix2 {R : Nat} (mean₁ mean₂ x : (⟨2, ![R, 256]⟩ : Shape).Idx → EReal)
    (Wl₁ : (⟨2, ![256, 256]⟩ : Shape).Idx → EReal) (bl₁ : (⟨2, ![1, 256]⟩ : Shape).Idx → EReal) (Wr₁ : (⟨2, ![256, 256]⟩ : Shape).Idx → EReal)
    (Wl₂ : (⟨2, ![256, 256]⟩ : Shape).Idx → EReal) (bl₂ : (⟨2, ![1, 256]⟩ : Shape).Idx → EReal) (Wr₂ : (⟨2, ![256, 256]⟩ : Shape).Idx → EReal)
    (g b : (⟨2, ![1, 256]⟩ : Shape).Idx → EReal) (r : Fin R) (q : Fin 256) :
    userUpd mean₁ mean₂ x Wl₁ bl₁ Wr₁ Wl₂ bl₂ Wr₂ g b (ix2 r q)
      = userRow (row mean₁ r) (row mean₂ r) (row x r) (mat Wl₁) (vec bl₁) (mat Wr₁) (mat Wl₂) (vec bl₂) (mat Wr₂) (vec g) (vec b) q := rfl

end Cert.Sage

end
-- ==== Proof.LibColumn.lean ====
/-
  A column of per-row statistics, in the two layout forms a `keepdims` reduction leaves it in.

  A reduction along the last axis of an `[a, b]` array gives an `[a]` vector; kept as a column it is re-laid as `[a, 1]`, and to
  combine it with the array again it is broadcast back to `[a, b]`. Read at an index: the column at `(i, u)` is the vector at
  `i` whatever the unit coordinate, and the broadcast column at `(p, c)` is the column at `(p, 0)`. Generic in the extents;
  stated at indices built from literal coordinates (`ix1`, `ix2`), the form in which they rewrite.
-/
import Idealize.ShloMosaic.Lib.Pipeline.Value
import Idealize.ShloMosaic.Lib.ValueIdx

namespace Cert.Lib.Column

open Idealize.ShloMosaic Idealize.ShloMosaic.ValueIdx

variable {α : Type}

/-- An `[a]` vector re-laid as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelPay.lean ====
/-
  The kernel bodies' arithmetic read at an index.

  A block is 1000 rows of 256 features. The body's matrix products contract the row of the left operand with a ROW of the
  weight matrix (the right operand is contracted on its columns), so an entry of `x · Wᵀ` is `∑ k, x (p, k) · W (q, k)`; the
  row sums of layer normalisation run over the 256 features of one row; a [1000] vector of row statistics is re-laid as a
  [1000, 1] column and broadcast back along the features, and a [1, 256] parameter row is broadcast down the rows. Read at
  the entry (p, q), the item body is the item update of row p and the user body the user update of row p.
-/
import proofs.«130044_j40561671143575_1_alg».proof.Proof.Gen.KernelIdeal.Skeleton
import proofs.«130044_j40561671143575_1_alg».proof.Proof.Spec
import proofs.«130044_j40561671143575_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Kernel

open Idealize.ShloMosaic Idealize.ShloMosaic.ValueIdx Cert.KernelIdeal Cert.KernelIdeal.Gen Cert.Lib.Column

variable {α : Type}

/-! ## A row sum and a matrix product against a transposed weight, at an entry -/

/-- The sum over the features of row `p`. -/
theorem rowSum_apply (src : FVec Ideal S1000x256 .f32) (p : Fin 1000) :
    multiReduction .add [1] S1000 src 0x00000000#32 reduces_S1000x256_S1000 (.inl rfl) rfl (ix1 p) = ∑ k : Fin 256, src (ix2 p k) := by
  refine (Ideal.multiReduction_add_single src 0x00000000#32 reduces_S1000x256_S1000 (.inl rfl) rfl (ix1 p)).trans ?_
  refine Finset.sum_congr rfl fun k _ => congrArg src (funext fun a => Fin.ext ?_)
  match a with
  | ⟨0, _⟩ => rfl
  | ⟨1, _⟩ => rfl

theorem lhs_row (j : S1000x256.Idx) (k : dot_S1000x256_S256x256_S1000x256_1_1_0_0_n_n.contr.Idx) :
    (dot_S1000x256_S256x256_S1000x256_1_1_0_0_n_n.lhsIdx j k 0).val = (j 0).val := by
  unfold DotDims.lhsIdx
  rw [dif_neg (show ¬(0 : Fin S1000x256.rank) ∈ dot_S1000x256_S256x256_S1000x256_1_1_0_0_n_n.lhsBatch by decide),
    dif_pos (show (0 : Fin S1000x256.rank) ∈ dot_S1000x256_S256x256_S1000x256_1_1_0_0_n_n.lhsNonContracting by decide)]
  rfl

theorem rhs_row (j : S1000x256.Idx) (k : dot_S1000x256_S256x256_S1000x256_1_1_0_0_n_n.contr.Idx) :
    (dot_S1000x256_S256x256_S1000x256_1_1_0_0_n_n.rhsIdx j k 0).val = (j 1).val := by
  unfold DotDims.rhsIdx
  rw [dif_neg (show ¬(0 : Fin S256x256.rank) ∈ dot_S1000x256_S256x256_S1000x256_1_1_0_0_n_n.rhsBatch by decide),
    dif_pos (show (0 : Fin S256x256.rank) ∈ dot_S1000x256_S256x256_S1000x256_1_1_0_0_n_n.rhsNonContracting by decide)]
  rfl

/-- An entry of `l · rᵀ` into a zero accumulator: row `p` of `l` against row `q` of `r`. -/
theorem matmulT_apply {φ₁ φ₂ : FTy} (l : FVec Ideal S1000x256 φ₁) (r : FVec Ideal S256x256 φ₂) (p : Fin 1000) (q : Fin 256) :
    matmul dot_S1000x256_S256x256_S1000x256_1_1_0_0_n_n none l r (constant S1000x256 .f32 0x00000000#32) (ix2 p q)
      = ∑ k : Fin 256, l (ix2 p k) * r (ix2 q k) := by
  refine (Ideal.matmul_constant_zero_apply dot_S1000x256_S256x256_S1000x256_1_1_0_0_n_n none l r (ix2 p q)).trans ?_
  rw [← Equiv.sum_comp (contrEquiv1 dot_S1000x256_S256x256_S1000x256_1_1_0_0_n_n 256 rfl rfl).symm]
  refine Finset.sum_congr rfl fun k _ => ?_
  have hk := contrEquiv1_symm_val dot_S1000x256_S256x256_S1000x256_1_1_0_0_n_n 256 rfl rfl k
  have el : dot_S1000x256_S256x256_S1000x256_1_1_0_0_n_n.lhsIdx (ix2 p q) ((contrEquiv1 dot_S1000x256_S256x256_S1000x256_1_1_0_0_n_n 256 rfl rfl).symm k) = ix2 p k :=
    funext fun a => Fin.ext (by
      match a with
      | ⟨0, _⟩ => exact lhs_row _ _
      | ⟨1, _⟩ => exact (dot_S1000x256_S256x256_S1000x256_1_1_0_0_n_n.lhsIdx_val_of_single rfl _ _).trans hk)
  have er : dot_S1000x256_S256x256_S1000x256_1_1_0_0_n_n.rhsIdx (ix2 p q) ((contrEquiv1 dot_S1000x256_S256x256_S1000x256_1_1_0_0_n_n 256 rfl rfl).symm k) = ix2 q k :=
    funext fun a => Fin.ext (by
      match a with
      | ⟨0, _⟩ => exact rhs_row _ _
      | ⟨1, _⟩ => exact (dot_S1000x256_S256x256_S1000x256_1_1_0_0_n_n.rhsIdx_val_of_single rfl _ _).trans hk)
  rw [el, er]

/-! ## The pieces of a normalised block, by name

  A body normalises a block `M` of 1000 rows: from the row sums `S` it forms the column of row means and broadcasts it
  back over the features; from the row sums of the squared centred block, the column of reciprocal standard deviations,
  broadcast back likewise; the scale and shift rows are broadcast down the rows; the rectifier is the maximum with a block of
  zeros. Each piece is named here, and the bodies' printed pieces are these by definitional unfolding. -/

/-- The row sums of a block. -/
def rowSums (M : FVec Ideal S1000x256 .f32) : FVec Ideal S1000 .f32 :=
  multiReduction .add [1] S1000 M 0x00000000#32 reduces_S1000x256_S1000 (.inl rfl) rfl

/-- From row sums: the column of quotients by the word for 256, broadcast over the features. -/
def meanB (S : FVec Ideal S1000 .f32) : FVec Ideal S1000x256 .f32 :=
  broadcastTo S1000x256 (divf (shapeCast S1000x1 S shapeCasts_S1000_S1000x1) (broadcast S1000x1 (Scalar.ofBits (F := Ideal) .f32 0x43800000#32)))
    broadcasts_S1000x1_S1000x256

/-- From row sums of squares: the column of `(sum / 256 + ε)^(-1/2)`, broadcast over the features. -/
def rstdB (S : FVec Ideal S1000 .f32) : FVec Ideal S1000x256 .f32 :=
  broadcastTo S1000x256 (rsqrt (addf (divf (shapeCast S1000x1 S shapeCasts_S1000_S1000x1) (broadcast S1000x1 (Scalar.ofBits (F := Ideal) .f32 0x43800000#32)))
    (broadcast S1000x1 (Scalar.ofBits (F := Ideal) .f32 0x3727C5AC#32)))) broadcasts_S1000x1_S1000x256

/-- A [1, 256] parameter row broadcast down the rows. -/
def paramB (v : Vec Ideal S1x256 .f32) : FVec Ideal S1000x256 .f32 :=
  broadcastTo S1000x256 (shapeCast S1x256 v shapeCasts_S1x256_S1x256) broadcasts_S1x256_S1000x256

/-- A block of zeros. -/
def zeroB : FVec Ideal S1000x256 .f32 := broadcast S1000x256 (Scalar.ofBits (F := Ideal) .f32 0x00000000#32)

/-- A block `M` whose row sums are `S`: centred, scaled by the reciprocal standard deviation and by `g`, shifted by `b`, rectified. -/
def lnB (M : FVec Ideal S1000x256 .f32) (S : FVec Ideal S1000 .f32) (g b : Vec Ideal S1x256 .f32) : FVec Ideal S1000x256 .f32 :=
  maximumf (addf (mulf (mulf (subf M (meanB S)) (rstdB (rowSums (mulf (subf M (meanB S)) (subf M (meanB S)))))) (paramB g)) (paramB b)) zeroB

theorem rowSums_apply (M : FVec Ideal S1000x256 .f32) (p : Fin 1000) : rowSums M (ix1 p) = ∑ k : Fin 256, M (ix2 p k) :=
  rowSum_apply M p

theorem meanB_apply (S : FVec Ideal S1000 .f32) (p : Fin 1000) (c : Fin 256) :
    meanB S (ix2 p c) = Ideal.div (S (ix1 p)) (Ideal.ofBits .f32 0x43800000#32) := by
  unfold meanB
  refine (broadcastTo_a1_ab_apply _ broadcasts_S1000x1_S1000x256 p c).trans ?_
  show Ideal.div (shapeCast S1000x1 S shapeCasts_S1000_S1000x1 (ix2 p (0 : Fin 1))) (Ideal.ofBits .f32 0x43800000#32) = _
  rw [shapeCast_a_a1_apply S shapeCasts_S1000_S1000x1 p 0]

theorem rstdB_apply (S : FVec Ideal S1000 .f32) (p : Fin 1000) (c : Fin 256) :
    rstdB S (ix2 p c) = Ideal.rsqrt (Ideal.div (S (ix1 p)) (Ideal.ofBits .f32 0x43800000#32) + Ideal.ofBits .f32 0x3727C5AC#32) := by
  unfold rstdB
  refine (broadcastTo_a1_ab_apply _ broadcasts_S1000x1_S1000x256 p c).trans ?_
  show Ideal.rsqrt (Ideal.div (shapeCast S1000x1 S shapeCasts_S1000_S1000x1 (ix2 p (0 : Fin 1))) (Ideal.ofBits .f32 0x43800000#32) + Ideal.ofBits .f32 0x3727C5AC#32) = _
  rw [shapeCast_a_a1_apply S shapeCasts_S1000_S1000x1 p 0]

theorem paramB_apply (v : Vec Ideal S1x256 .f32) (p : Fin 1000) (c : Fin 256) : paramB v (ix2 p c) = Sage.vec v c := by
  unfold paramB
  refine (broadcastTo_1b_ab_apply _ broadcasts_S1x256_S1000x256 p c).trans ?_
  rw [shapeCast_self]
  rfl

theorem zeroB_apply (i : S1000x256.Idx) : zeroB i = Ideal.ofBits .f32 0x00000000#32 := rfl

/-- The normalised block at an entry: the layer normalisation and rectifier of row `p` of `M`. -/
theorem lnB_apply (M : FVec Ideal S1000x256 .f32) (S : FVec Ideal S1000 .f32) (g b : Vec Ideal S1x256 .f32)
    (hS : ∀ p : Fin 1000, S (ix1 p) = ∑ k : Fin 256, M (ix2 p k)) (p : Fin 1000) (q : Fin 256) :
    lnB M S g b (ix2 p q) = Sage.lnRelu (fun j => M (ix2 p j)) (Sage.vec g) (Sage.vec b) q := by
  simp only [lnB, maximumf_apply, addf_apply, mulf_apply, subf_apply, meanB_apply, rstdB_apply, paramB_apply, rowSums_apply, zeroB_apply, hS,
    Sage.lnRelu, Sage.centred, Sage.mean256]

/-! ## One convolution of a block -/

/-- `mean · Wlᵀ + bl + x · Wrᵀ` on blocks, as the bodies print it (the mean block and both weights pass a cast to their own
    shape; every operand a change of format, the identity here). -/
def convB (mean x : Vec Ideal S1000x256 .f32) (Wl : Vec Ideal S256x256 .f32) (bl : Vec Ideal S1x256 .f32) (Wr : Vec Ideal S256x256 .f32) :
    FVec Ideal S1000x256 .f32 :=
  addf (addf
      (matmul dot_S1000x256_S256x256_S1000x256_1_1_0_0_n_n none
        (truncf .bf16 (shapeCast S1000x256 mean shapeCasts_S1000x256_S1000x256) bitsLt_bf16_f32)
        (truncf .bf16 (shapeCast S256x256 Wl shapeCasts_S256x256_S256x256) bitsLt_bf16_f32) (constant S1000x256 .f32 0x00000000#32))
      (paramB bl))
    (matmul dot_S1000x256_S256x256_S1000x256_1_1_0_0_n_n none (truncf .bf16 x bitsLt_bf16_f32)
      (truncf .bf16 (shapeCast S256x256 Wr shapeCasts_S256x256_S256x256) bitsLt_bf16_f32) (constant S1000x256 .f32 0x00000000#32))

theorem convB_apply (mean x : Vec Ideal S1000x256 .f32) (Wl : Vec Ideal S256x256 .f32) (bl : Vec Ideal S1x256 .f32) (Wr : Vec Ideal S256x256 .f32)
    (p : Fin 1000) (j : Fin 256) :
    convB mean x Wl bl Wr (ix2 p j) = Sage.sageRow (Sage.row mean p) (Sage.row x p) (Sage.mat Wl) (Sage.vec bl) (Sage.mat Wr) j := by
  simp only [convB, addf_apply, matmulT_apply, truncf_apply, shapeCast_self, paramB_apply, Sage.sageRow, Sage.lin, Sage.row, Sage.mat]

/-- The second layer's bodies cast the row block `x` to its own shape as well before the change of format: the same
    convolution, of the cast block. -/
def convB' (mean x : Vec Ideal S1000x256 .f32) (Wl : Vec Ideal S256x256 .f32) (bl : Vec Ideal S1x256 .f32) (Wr : Vec Ideal S256x256 .f32) :
    FVec Ideal S1000x256 .f32 :=
  convB mean (shapeCast S1000x256 x shapeCasts_S1000x256_S1000x256) Wl bl Wr

/-- A cast of a block to its own shape changes no entry, so the second form reads as the first. -/
theorem convB'_apply (mean x : Vec Ideal S1000x256 .f32) (Wl : Vec Ideal S256x256 .f32) (bl : Vec Ideal S1x256 .f32) (Wr : Vec Ideal S256x256 .f32)
    (p : Fin 1000) (j : Fin 256) :
    convB' mean x Wl bl Wr (ix2 p j) = Sage.sageRow (Sage.row mean p) (Sage.row x p) (Sage.mat Wl) (Sage.vec bl) (Sage.mat Wr) j := by
  unfold convB'
  refine (convB_apply mean _ Wl bl Wr p j).trans ?_
  rw [shapeCast_self x shapeCasts_S1000x256_S1000x256]

/-! ## The four bodies are these pieces (the second layer's with the residual block cast to its own shape) -/

theorem item1_eq (x0 x1 : Vec Ideal S1000x256 .f32) (x2 x4 : Vec Ideal S256x256 .f32) (x3 x5 x6 : Vec Ideal S1x256 .f32) :
    k0_pay1 (k0_pay2 x0 x1 x2 x4 x3 x5) x6 = lnB (convB x0 x1 x2 x3 x4) (rowSums (convB x0 x1 x2 x3 x4)) x5 x6 := rfl

theorem user1_eq (x0 x1 x2 : Vec Ideal S1000x256 .f32) (x3 x5 x6 x8 : Vec Ideal S256x256 .f32) (x4 x7 x9 x10 : Vec Ideal S1x256 .f32) :
    k1_pay1 (k1_pay2 x2 x0 x3 x5 x4 x1 x6 x8 x7) (k1_pay3 x2 x0 x3 x5 x4 x1 x6 x8 x7) x9 x10
      = lnB (addf (convB x0 x2 x3 x4 x5) (convB x1 x2 x6 x7 x8)) (rowSums (addf (convB x0 x2 x3 x4 x5) (convB x1 x2 x6 x7 x8))) x9 x10 := rfl

theorem item2_eq (x0 x1 : Vec Ideal S1000x256 .f32) (x2 x4 : Vec Ideal S256x256 .f32) (x3 x5 x6 : Vec Ideal S1x256 .f32) :
    k2_pay1 (k2_pay2 x0 x1 x2 x4 x3) (k2_pay3 x5) x6 = lnB (convB' x0 x1 x2 x3 x4) (rowSums (convB' x0 x1 x2 x3 x4)) x5 x6 := rfl

theorem user2_eq (x0 x1 x2 : Vec Ideal S1000x256 .f32) (x3 x5 x6 x8 : Vec Ideal S256x256 .f32) (x4 x7 x9 x10 : Vec Ideal S1x256 .f32) :
    k3_pay1 (k3_pay2 x2 x0 x3 x5 x4 x1 x6 x8 x7) x9 x10
      = lnB (addf (convB' x0 x2 x3 x4 x5) (convB' x1 x2 x6 x7 x8)) (rowSums (addf (convB' x0 x2 x3 x4 x5) (convB' x1 x2 x6 x7 x8))) x9 x10 := rfl

/-! ## The bodies at an entry

  The blocks are taken in the order of the bodies' operands: the row blocks first, then for each convolution its weight
  \`Wl\`, bias and weight \`Wr\`, then the scale and the shift. -/

/-- An item block at `(p, q)`: the item update of row `p`. -/
theorem itemB_apply (x0 x1 : Vec Ideal S1000x256 .f32) (x2 : Vec Ideal S256x256 .f32) (x3 : Vec Ideal S1x256 .f32)
    (x4 : Vec Ideal S256x256 .f32) (x5 x6 : Vec Ideal S1x256 .f32) (p : Fin 1000) (q : Fin 256) :
    lnB (convB x0 x1 x2 x3 x4) (rowSums (convB x0 x1 x2 x3 x4)) x5 x6 (ix2 p q)
      = Sage.itemRow (Sage.row x0 p) (Sage.row x1 p) (Sage.mat x2) (Sage.vec x3) (Sage.mat x4) (Sage.vec x5) (Sage.vec x6) q :=
  (lnB_apply _ _ x5 x6 (fun p => rowSums_apply _ p) p q).trans
    (congrArg (fun m => Sage.lnRelu m (Sage.vec x5) (Sage.vec x6) q) (funext fun j => convB_apply x0 x1 x2 x3 x4 p j))

/-- A user block at `(p, q)`: the user update of row `p`. -/
theorem userB_apply (x0 x1 x2 : Vec Ideal S1000x256 .f32) (x3 : Vec Ideal S256x256 .f32) (x4 : Vec Ideal S1x256 .f32)
    (x5 x6 : Vec Ideal S256x256 .f32) (x7 : Vec Ideal S1x256 .f32) (x8 : Vec Ideal S256x256 .f32) (x9 x10 : Vec Ideal S1x256 .f32)
    (p : Fin 1000) (q : Fin 256) :
    lnB (addf (convB x0 x2 x3 x4 x5) (convB x1 x2 x6 x7 x8)) (rowSums (addf (convB x0 x2 x3 x4 x5) (convB x1 x2 x6 x7 x8))) x9 x10 (ix2 p q)
      = Sage.userRow (Sage.row x0 p) (Sage.row x1 p) (Sage.row x2 p) (Sage.mat x3) (Sage.vec x4) (Sage.mat x5) (Sage.mat x6) (Sage.vec x7)
          (Sage.mat x8) (Sage.vec x9) (Sage.vec x10) q :=
  (lnB_apply _ _ x9 x10 (fun p => rowSums_apply _ p) p q).trans
    (congrArg (fun m => Sage.lnRelu m (Sage.vec x9) (Sage.vec x10) q) (funext fun j => by
      show convB x0 x2 x3 x4 x5 (ix2 p j) + convB x1 x2 x6 x7 x8 (ix2 p j) = _
      rw [convB_apply, convB_apply]))

/-- The second layer's item block at `(p, q)`. -/
theorem itemB'_apply (x0 x1 : Vec Ideal S1000x256 .f32) (x2 : Vec Ideal S256x256 .f32) (x3 : Vec Ideal S1x256 .f32)
    (x4 : Vec Ideal S256x256 .f32) (x5 x6 : Vec Ideal S1x256 .f32) (p : Fin 1000) (q : Fin 256) :
    lnB (convB' x0 x1 x2 x3 x4) (rowSums (convB' x0 x1 x2 x3 x4)) x5 x6 (ix2 p q)
      = Sage.itemRow (Sage.row x0 p) (Sage.row x1 p) (Sage.mat x2) (Sage.vec x3) (Sage.mat x4) (Sage.vec x5) (Sage.vec x6) q :=
  (lnB_apply _ _ x5 x6 (fun p => rowSums_apply _ p) p q).trans
    (congrArg (fun m => Sage.lnRelu m (Sage.vec x5) (Sage.vec x6) q) (funext fun j => convB'_apply x0 x1 x2 x3 x4 p j))

/-- The second layer's user block at `(p, q)`. -/
theorem userB'_apply (x0 x1 x2 : Vec Ideal S1000x256 .f32) (x3 : Vec Ideal S256x256 .f32) (x4 : Vec Ideal S1x256 .f32)
    (x5 x6 : Vec Ideal S256x256 .f32) (x7 : Vec Ideal S1x256 .f32) (x8 : Vec Ideal S256x256 .f32) (x9 x10 : Vec Ideal S1x256 .f32)
    (p : Fin 1000) (q : Fin 256) :
    lnB (addf (convB' x0 x2 x3 x4 x5) (convB' x1 x2 x6 x7 x8)) (rowSums (addf (convB' x0 x2 x3 x4 x5) (convB' x1 x2 x6 x7 x8))) x9 x10 (ix2 p q)
      = Sage.userRow (Sage.row x0 p) (Sage.row x1 p) (Sage.row x2 p) (Sage.mat x3) (Sage.vec x4) (Sage.mat x5) (Sage.mat x6) (Sage.vec x7)
          (Sage.mat x8) (Sage.vec x9) (Sage.vec x10) q :=
  (lnB_apply _ _ x9 x10 (fun p => rowSums_apply _ p) p q).trans
    (congrArg (fun m => Sage.lnRelu m (Sage.vec x9) (Sage.vec x10) q) (funext fun j => by
      show convB' x0 x2 x3 x4 x5 (ix2 p j) + convB' x1 x2 x6 x7 x8 (ix2 p j) = _
      rw [convB'_apply, convB'_apply]))

end Cert.Sage.Kernel

end
-- ==== Proof.KernelRegion0.lean ====
/-
  Kernel region 0: an item update (one convolution, normalised and rectified) of every row, 1000 rows to a grid point.

  Point `t` of the 100 reads rows `1000·t … 1000·t + 999` of its row-block operands and the whole of its weight and
  parameter operands, and writes the same rows of the result. A row of the update depends on that row of the operands only,
  so what point `t` writes back is block `t` of ONE whole-array function of the operands as the region finds them; the 100
  blocks tile the result array, so after the region the array is that function.
-/
import proofs.«130044_j40561671143575_1_alg».proof.Proof.Gen.KernelIdeal.Frame
import proofs.«130044_j40561671143575_1_alg».proof.Proof.KernelPay
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-block window is at block row `t`, every other window at its one block. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

theorem grid_size : cfg0.N = 100 := N_0

/-- Two functions on a [1000, 256] block agree when they agree at every `(p, q)`. -/
theorem ext_block {f g : S1000x256.Idx → EReal} (h : ∀ (p : Fin 1000) (q : Fin 256), f (ix2 p q) = g (ix2 p q)) : f = g :=
  funext fun j => by rw [eq_ix2 j]; exact h _ _

/-- WHAT POINT `t` WRITES BACK is block `t` of the update of the operand arrays as the region finds them. -/
theorem flushed_eq (c : Dev nD) (t : Fin cfg0.N) :
    (dat0 (F := Ideal) V c).flushed 7 t = ((cfg0.win 7).blk t).view.read (Elt Ideal) (Sage.itemUpd (V c main_v24) (V c main_arg1) (V c main_v76) (V c main_v79) (V c main_v81) (V c main_v84) (V c main_v87)) := by
  show (cfg0.win 7).cut (grid0.coords t) ((dat0 V c).after 7 t) = _
  rw [after0_7]
  unfold out0_7
  rw [View.canon_unit_zero hz]
  simp only [View.ld_unit_zero (S := S1000x256) hz, View.ld_unit_zero (S := S256x256) hz, View.ld_unit_zero (S := S1x256) hz]
  rw [Kernel.item1_eq]
  obtain ⟨e0a, e0b, e1a, e1b, e2a, e2b, e3a, e3b, e4a, e4b, e5a, e5b, e6a, e6b, e7a, e7b⟩ := idx_facts t
  have hN : t.val < 100 := lt_of_lt_of_eq t.isLt grid_size
  refine ext_block fun p q => ?_
  have hT : t.val * 1000 + p.val < 100000 := by have := p.isLt; omega
  refine (Kernel.itemB_apply (iblk0 V c 0 t) (iblk0 V c 1 t) (iblk0 V c 2 t) (iblk0 V c 3 t) (iblk0 V c 4 t) (iblk0 V c 5 t) (iblk0 V c 6 t) p q).trans ?_
  have hemb : ((cfg0.win 7).blk t).view.emb (ix2 p q) = ix2 ⟨t.val * 1000 + p.val, hT⟩ q := funext fun a => Fin.ext (by
    match a with
    | ⟨0, _⟩ => show win0_7.index t (0 : Fin 2) * 1000 + 1 * p.val = t.val * 1000 + p.val; omega
    | ⟨1, _⟩ => show win0_7.index t (1 : Fin 2) * 256 + 1 * q.val = q.val; omega)
  show _ = Sage.itemUpd (V c main_v24) (V c main_arg1) (V c main_v76) (V c main_v79) (V c main_v81) (V c main_v84) (V c main_v87) (((cfg0.win 7).blk t).view.emb (ix2 p q))
  rw [hemb, Sage.itemUpd_ix2]
  have h0 : Sage.row (iblk0 V c 0 t) p = Sage.row (V c main_v24) ⟨t.val * 1000 + p.val, hT⟩ := funext fun k => by
    show V c main_v24 (((cfg0.win 0).blk t).view.emb (ix2 p k)) = V c main_v24 (ix2 ⟨t.val * 1000 + p.val, hT⟩ k)
    refine congrArg (V c main_v24) (funext fun a => Fin.ext ?_)
    match a with
    | ⟨0, _⟩ => show win0_0.index t (0 : Fin 2) * 1000 + 1 * p.val = t.val * 1000 + p.val; omega
    | ⟨1, _⟩ => show win0_0.index t (1 : Fin 2) * 256 + 1 * k.val = k.val; omega
  have h1 : Sage.row (iblk0 V c 1 t) p = Sage.row (V c main_arg1) ⟨t.val * 1000 + p.val, hT⟩ := funext fun k => by
    show V c main_arg1 (((cfg0.win 1).blk t).view.emb (ix2 p k)) = V c main_arg1 (ix2 ⟨t.val * 1000 + p.val, hT⟩ k)
    refine congrArg (V c main_arg1) (funext fun a => Fin.ext ?_)
    match a with
    | ⟨0, _⟩ => show win0_1.index t (0 : Fin 2) * 1000 + 1 * p.val = t.val * 1000 + p.val; omega
    | ⟨1, _⟩ => show win0_1.index t (1 : Fin 2) * 256 + 1 * k.val = k.val; omega
  have h2 : Sage.mat (iblk0 V c 2 t) = Sage.mat (V c main_v76) := funext fun o => funext fun k => by
    show V c main_v76 (((cfg0.win 2).blk t).view.emb (ix2 o k)) = V c main_v76 (ix2 o k)
    refine congrArg (V c main_v76) (funext fun a => Fin.ext ?_)
    match a with
    | ⟨0, _⟩ => show win0_2.index t (0 : Fin 2) * 256 + 1 * o.val = o.val; omega
    | ⟨1, _⟩ => show win0_2.index t (1 : Fin 2) * 256 + 1 * k.val = k.val; omega
  have h3 : Sage.vec (iblk0 V c 3 t) = Sage.vec (V c main_v79) := funext fun k => by
    show V c main_v79 (((cfg0.win 3).blk t).view.emb (ix2 (0 : Fin 1) k)) = V c main_v79 (ix2 (0 : Fin 1) k)
    refine congrArg (V c main_v79) (funext fun a => Fin.ext ?_)
    match a with
    | ⟨0, _⟩ => show win0_3.index t (0 : Fin 2) * 1 + 1 * 0 = 0; omega
    | ⟨1, _⟩ => show win0_3.index t (1 : Fin 2) * 256 + 1 * k.val = k.val; omega
  have h4 : Sage.mat (iblk0 V c 4 t) = Sage.mat (V c main_v81) := funext fun o => funext fun k => by
    show V c main_v81 (((cfg0.win 4).blk t).view.emb (ix2 o k)) = V c main_v81 (ix2 o k)
    refine congrArg (V c main_v81) (funext fun a => Fin.ext ?_)
    match a with
    | ⟨0, _⟩ => show win0_4.index t (0 : Fin 2) * 256 + 1 * o.val = o.val; omega
    | ⟨1, _⟩ => show win0_4.index t (1 : Fin 2) * 256 + 1 * k.val = k.val; omega
  have h5 : Sage.vec (iblk0 V c 5 t) = Sage.vec (V c main_v84) := funext fun k => by
    show V c main_v84 (((cfg0.win 5).blk t).view.emb (ix2 (0 : Fin 1) k)) = V c main_v84 (ix2 (0 : Fin 1) k)
    refine congrArg (V c main_v84) (funext fun a => Fin.ext ?_)
    match a with
    | ⟨0, _⟩ => show win0_5.index t (0 : Fin 2) * 1 + 1 * 0 = 0; omega
    | ⟨1, _⟩ => show win0_5.index t (1 : Fin 2) * 256 + 1 * k.val = k.val; omega
  have h6 : Sage.vec (iblk0 V c 6 t) = Sage.vec (V c main_v87) := funext fun k => by
    show V c main_v87 (((cfg0.win 6).blk t).view.emb (ix2 (0 : Fin 1) k)) = V c main_v87 (ix2 (0 : Fin 1) k)
    refine congrArg (V c main_v87) (funext fun a => Fin.ext ?_)
    match a with
    | ⟨0, _⟩ => show win0_6.index t (0 : Fin 2) * 1 + 1 * 0 = 0; omega
    | ⟨1, _⟩ => show win0_6.index t (1 : Fin 2) * 256 + 1 * k.val = k.val; omega
  rw [h0, h1, h2, h3, h4, h5, h6]

/-- An index of the result array is in point `t`'s block iff each coordinate is in the block's range on its axis. -/
theorem mem_blk (t : Fin cfg0.N) (i : S100000x256.Idx) :
    i ∈ ((cfg0.win 7).blk t).view.set ↔ ∀ a : Fin 2, win0_7.index t a * S1000x256.size a ≤ (i a).val ∧ (i a).val < win0_7.index t a * S1000x256.size a + S1000x256.size a := by
  show i ∈ ((View.whole main_v88).slice (win0_7.rect t)).set ↔ _
  rw [View.set_slice_whole, Rect.mem_set_unit]
  exact Iff.rfl

/-- Every row of the result is in the block of the point `row / 1000`. -/
theorem cover (i : S100000x256.Idx) : ∃ t : Fin cfg0.N, (cfg0.win 7).flush t = true ∧ i ∈ ((cfg0.win 7).blk t).view.set := by
  have hi0 : (i 0).val < 100000 := (i 0).isLt
  have hi1 : (i 1).val < 256 := (i 1).isLt
  have ht : (i 0).val / 1000 < cfg0.N := by rw [grid_size]; omega
  refine ⟨⟨(i 0).val / 1000, ht⟩, flush0_7 _, ?_⟩
  obtain ⟨e0a, e0b, e1a, e1b, e2a, e2b, e3a, e3b, e4a, e4b, e5a, e5b, e6a, e6b, e7a, e7b⟩ := idx_facts ⟨(i 0).val / 1000, ht⟩
  rw [mem_blk]
  intro a
  match a with
  | ⟨0, _⟩ => show win0_7.index ⟨(i 0).val / 1000, ht⟩ (0 : Fin 2) * 1000 ≤ (i 0).val ∧ (i 0).val < win0_7.index ⟨(i 0).val / 1000, ht⟩ (0 : Fin 2) * 1000 + 1000; rw [e7a]; show (i 0).val / 1000 * 1000 ≤ (i 0).val ∧ (i 0).val < (i 0).val / 1000 * 1000 + 1000; omega
  | ⟨1, _⟩ => show win0_7.index ⟨(i 0).val / 1000, ht⟩ (1 : Fin 2) * 256 ≤ (i 1).val ∧ (i 1).val < win0_7.index ⟨(i 0).val / 1000, ht⟩ (1 : Fin 2) * 256 + 256; rw [e7b]; omega

/-- THE RESULT ARRAY after the region: the update of the operand arrays as the region finds them. -/
theorem final (c : Dev nD) : (dat0 (F := Ideal) V c).arrAt 7 cfg0.N = (Sage.itemUpd (V c main_v24) (V c main_arg1) (V c main_v76) (V c main_v79) (V c main_v81) (V c main_v84) (V c main_v87)) :=
  (dat0 (F := Ideal) V c).arrAt_eq_of_cover 7 _ (fun t _ => flushed_eq V c t) cover

end Cert.Sage.Region0

end
-- ==== Proof.KernelRegion1.lean ====
/-
  Kernel region 1: a user update (two convolutions summed, normalised and rectified) of every row, 1000 rows to a grid point.

  Point `t` of the 100 reads rows `1000·t … 1000·t + 999` of its row-block operands and the whole of its weight and
  parameter operands, and writes the same rows of the result. A row of the update depends on that row of the operands only,
  so what point `t` writes back is block `t` of ONE whole-array function of the operands as the region finds them; the 100
  blocks tile the result array, so after the region the array is that function.
-/
import proofs.«130044_j40561671143575_1_alg».proof.Proof.Gen.KernelIdeal.Frame
import proofs.«130044_j40561671143575_1_alg».proof.Proof.KernelPay
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-block window is at block row `t`, every other window at its one block. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

theorem grid_size : cfg1.N = 100 := N_1

/-- Two functions on a [1000, 256] block agree when they agree at every `(p, q)`. -/
theorem ext_block {f g : S1000x256.Idx → EReal} (h : ∀ (p : Fin 1000) (q : Fin 256), f (ix2 p q) = g (ix2 p q)) : f = g :=
  funext fun j => by rw [eq_ix2 j]; exact h _ _

/-- WHAT POINT `t` WRITES BACK is block `t` of the update of the operand arrays as the region finds them. -/
theorem flushed_eq (c : Dev nD) (t : Fin cfg1.N) :
    (dat1 (F := Ideal) V c).flushed 11 t = ((cfg1.win 11).blk t).view.read (Elt Ideal) (Sage.userUpd (V c main_v49) (V c main_v74) (V c main_arg0) (V c main_v90) (V c main_v93) (V c main_v95) (V c main_v97) (V c main_v100) (V c main_v102) (V c main_v105) (V c main_v108)) := by
  show (cfg1.win 11).cut (grid1.coords t) ((dat1 V c).after 11 t) = _
  rw [after1_11]
  unfold out1_11
  rw [View.canon_unit_zero hz]
  simp only [View.ld_unit_zero (S := S1000x256) hz, View.ld_unit_zero (S := S256x256) hz, View.ld_unit_zero (S := S1x256) hz]
  rw [Kernel.user1_eq]
  obtain ⟨e0a, e0b, e1a, e1b, e2a, e2b, e3a, e3b, e4a, e4b, e5a, e5b, e6a, e6b, e7a, e7b, e8a, e8b, e9a, e9b, e10a, e10b, e11a, e11b⟩ := idx_facts t
  have hN : t.val < 100 := lt_of_lt_of_eq t.isLt grid_size
  refine ext_block fun p q => ?_
  have hT : t.val * 1000 + p.val < 100000 := by have := p.isLt; omega
  refine (Kernel.userB_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p q).trans ?_
  have hemb : ((cfg1.win 11).blk t).view.emb (ix2 p q) = ix2 ⟨t.val * 1000 + p.val, hT⟩ q := funext fun a => Fin.ext (by
    match a with
    | ⟨0, _⟩ => show win1_11.index t (0 : Fin 2) * 1000 + 1 * p.val = t.val * 1000 + p.val; omega
    | ⟨1, _⟩ => show win1_11.index t (1 : Fin 2) * 256 + 1 * q.val = q.val; omega)
  show _ = Sage.userUpd (V c main_v49) (V c main_v74) (V c main_arg0) (V c main_v90) (V c main_v93) (V c main_v95) (V c main_v97) (V c main_v100) (V c main_v102) (V c main_v105) (V c main_v108) (((cfg1.win 11).blk t).view.emb (ix2 p q))
  rw [hemb, Sage.userUpd_ix2]
  have h0 : Sage.row (iblk1 V c 0 t) p = Sage.row (V c main_v49) ⟨t.val * 1000 + p.val, hT⟩ := funext fun k => by
    show V c main_v49 (((cfg1.win 0).blk t).view.emb (ix2 p k)) = V c main_v49 (ix2 ⟨t.val * 1000 + p.val, hT⟩ k)
    refine congrArg (V c main_v49) (funext fun a => Fin.ext ?_)
    match a with
    | ⟨0, _⟩ => show win1_0.index t (0 : Fin 2) * 1000 + 1 * p.val = t.val * 1000 + p.val; omega
    | ⟨1, _⟩ => show win1_0.index t (1 : Fin 2) * 256 + 1 * k.val = k.val; omega
  have h1 : Sage.row (iblk1 V c 1 t) p = Sage.row (V c main_v74) ⟨t.val * 1000 + p.val, hT⟩ := funext fun k => by
    show V c main_v74 (((cfg1.win 1).blk t).view.emb (ix2 p k)) = V c main_v74 (ix2 ⟨t.val * 1000 + p.val, hT⟩ k)
    refine congrArg (V c main_v74) (funext fun a => Fin.ext ?_)
    match a with
    | ⟨0, _⟩ => show win1_1.index t (0 : Fin 2) * 1000 + 1 * p.val = t.val * 1000 + p.val; omega
    | ⟨1, _⟩ => show win1_1.index t (1 : Fin 2) * 256 + 1 * k.val = k.val; omega
  have h2 : Sage.row (iblk1 V c 2 t) p = Sage.row (V c main_arg0) ⟨t.val * 1000 + p.val, hT⟩ := funext fun k => by
    show V c main_arg0 (((cfg1.win 2).blk t).view.emb (ix2 p k)) = V c main_arg0 (ix2 ⟨t.val * 1000 + p.val, hT⟩ k)
    refine congrArg (V c main_arg0) (funext fun a => Fin.ext ?_)
    match a with
    | ⟨0, _⟩ => show win1_2.index t (0 : Fin 2) * 1000 + 1 * p.val = t.val * 1000 + p.val; omega
    | ⟨1, _⟩ => show win1_2.index t (1 : Fin 2) * 256 + 1 * k.val = k.val; omega
  have h3 : Sage.mat (iblk1 V c 3 t) = Sage.mat (V c main_v90) := funext fun o => funext fun k => by
    show V c main_v90 (((cfg1.win 3).blk t).view.emb (ix2 o k)) = V c main_v90 (ix2 o k)
    refine congrArg (V c main_v90) (funext fun a => Fin.ext ?_)
    match a with
    | ⟨0, _⟩ => show win1_3.index t (0 : Fin 2) * 256 + 1 * o.val = o.val; omega
    | ⟨1, _⟩ => show win1_3.index t (1 : Fin 2) * 256 + 1 * k.val = k.val; omega
  have h4 : Sage.vec (iblk1 V c 4 t) = Sage.vec (V c main_v93) := funext fun k => by
    show V c main_v93 (((cfg1.win 4).blk t).view.emb (ix2 (0 : Fin 1) k)) = V c main_v93 (ix2 (0 : Fin 1) k)
    refine congrArg (V c main_v93) (funext fun a => Fin.ext ?_)
    match a with
    | ⟨0, _⟩ => show win1_4.index t (0 : Fin 2) * 1 + 1 * 0 = 0; omega
    | ⟨1, _⟩ => show win1_4.index t (1 : Fin 2) * 256 + 1 * k.val = k.val; omega
  have h5 : Sage.mat (iblk1 V c 5 t) = Sage.mat (V c main_v95) := funext fun o => funext fun k => by
    show V c main_v95 (((cfg1.win 5).blk t).view.emb (ix2 o k)) = V c main_v95 (ix2 o k)
    refine congrArg (V c main_v95) (funext fun a => Fin.ext ?_)
    match a with
    | ⟨0, _⟩ => show win1_5.index t (0 : Fin 2) * 256 + 1 * o.val = o.val; omega
    | ⟨1, _⟩ => show win1_5.index t (1 : Fin 2) * 256 + 1 * k.val = k.val; omega
  have h6 : Sage.mat (iblk1 V c 6 t) = Sage.mat (V c main_v97) := funext fun o => funext fun k => by
    show V c main_v97 (((cfg1.win 6).blk t).view.emb (ix2 o k)) = V c main_v97 (ix2 o k)
    refine congrArg (V c main_v97) (funext fun a => Fin.ext ?_)
    match a with
    | ⟨0, _⟩ => show win1_6.index t (0 : Fin 2) * 256 + 1 * o.val = o.val; omega
    | ⟨1, _⟩ => show win1_6.index t (1 : Fin 2) * 256 + 1 * k.val = k.val; omega
  have h7 : Sage.vec (iblk1 V c 7 t) = Sage.vec (V c main_v100) := funext fun k => by
    show V c main_v100 (((cfg1.win 7).blk t).view.emb (ix2 (0 : Fin 1) k)) = V c main_v100 (ix2 (0 : Fin 1) k)
    refine congrArg (V c main_v100) (funext fun a => Fin.ext ?_)
    match a with
    | ⟨0, _⟩ => show win1_7.index t (0 : Fin 2) * 1 + 1 * 0 = 0; omega
    | ⟨1, _⟩ => show win1_7.index t (1 : Fin 2) * 256 + 1 * k.val = k.val; omega
  have h8 : Sage.mat (iblk1 V c 8 t) = Sage.mat (V c main_v102) := funext fun o => funext fun k => by
    show V c main_v102 (((cfg1.win 8).blk t).view.emb (ix2 o k)) = V c main_v102 (ix2 o k)
    refine congrArg (V c main_v102) (funext fun a => Fin.ext ?_)
    match a with
    | ⟨0, _⟩ => show win1_8.index t (0 : Fin 2) * 256 + 1 * o.val = o.val; omega
    | ⟨1, _⟩ => show win1_8.index t (1 : Fin 2) * 256 + 1 * k.val = k.val; omega
  have h9 : Sage.vec (iblk1 V c 9 t) = Sage.vec (V c main_v105) := funext fun k => by
    show V c main_v105 (((cfg1.win 9).blk t).view.emb (ix2 (0 : Fin 1) k)) = V c main_v105 (ix2 (0 : Fin 1) k)
    refine congrArg (V c main_v105) (funext fun a => Fin.ext ?_)
    match a with
    | ⟨0, _⟩ => show win1_9.index t (0 : Fin 2) * 1 + 1 * 0 = 0; omega
    | ⟨1, _⟩ => show win1_9.index t (1 : Fin 2) * 256 + 1 * k.val = k.val; omega
  have h10 : Sage.vec (iblk1 V c 10 t) = Sage.vec (V c main_v108) := funext fun k => by
    show V c main_v108 (((cfg1.win 10).blk t).view.emb (ix2 (0 : Fin 1) k)) = V c main_v108 (ix2 (0 : Fin 1) k)
    refine congrArg (V c main_v108) (funext fun a => Fin.ext ?_)
    match a with
    | ⟨0, _⟩ => show win1_10.index t (0 : Fin 2) * 1 + 1 * 0 = 0; omega
    | ⟨1, _⟩ => show win1_10.index t (1 : Fin 2) * 256 + 1 * k.val = k.val; omega
  rw [h0, h1, h2, h3, h4, h5, h6, h7, h8, h9, h10]

/-- An index of the result array is in point `t`'s block iff each coordinate is in the block's range on its axis. -/
theorem mem_blk (t : Fin cfg1.N) (i : S100000x256.Idx) :
    i ∈ ((cfg1.win 11).blk t).view.set ↔ ∀ a : Fin 2, win1_11.index t a * S1000x256.size a ≤ (i a).val ∧ (i a).val < win1_11.index t a * S1000x256.size a + S1000x256.size a := by
  show i ∈ ((View.whole main_v109).slice (win1_11.rect t)).set ↔ _
  rw [View.set_slice_whole, Rect.mem_set_unit]
  exact Iff.rfl

/-- Every row of the result is in the block of the point `row / 1000`. -/
theorem cover (i : S100000x256.Idx) : ∃ t : Fin cfg1.N, (cfg1.win 11).flush t = true ∧ i ∈ ((cfg1.win 11).blk t).view.set := by
  have hi0 : (i 0).val < 100000 := (i 0).isLt
  have hi1 : (i 1).val < 256 := (i 1).isLt
  have ht : (i 0).val / 1000 < cfg1.N := by rw [grid_size]; omega
  refine ⟨⟨(i 0).val / 1000, ht⟩, flush1_11 _, ?_⟩
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 1000, ht⟩
  rw [mem_blk]
  intro a
  match a with
  | ⟨0, _⟩ => show win1_11.index ⟨(i 0).val / 1000, ht⟩ (0 : Fin 2) * 1000 ≤ (i 0).val ∧ (i 0).val < win1_11.index ⟨(i 0).val / 1000, ht⟩ (0 : Fin 2) * 1000 + 1000; rw [e11a]; show (i 0).val / 1000 * 1000 ≤ (i 0).val ∧ (i 0).val < (i 0).val / 1000 * 1000 + 1000; omega
  | ⟨1, _⟩ => show win1_11.index ⟨(i 0).val / 1000, ht⟩ (1 : Fin 2) * 256 ≤ (i 1).val ∧ (i 1).val < win1_11.index ⟨(i 0).val / 1000, ht⟩ (1 : Fin 2) * 256 + 256; rw [e11b]; omega

/-- THE RESULT ARRAY after the region: the update of the operand arrays as the region finds them. -/
theorem final (c : Dev nD) : (dat1 (F := Ideal) V c).arrAt 11 cfg1.N = (Sage.userUpd (V c main_v49) (V c main_v74) (V c main_arg0) (V c main_v90) (V c main_v93) (V c main_v95) (V c main_v97) (V c main_v100) (V c main_v102) (V c main_v105) (V c main_v108)) :=
  (dat1 (F := Ideal) V c).arrAt_eq_of_cover 11 _ (fun t _ => flushed_eq V c t) cover

end Cert.Sage.Region1

end
-- ==== Proof.KernelRegion2.lean ====
/-
  Kernel region 2: an item update (one convolution, normalised and rectified) of every row, 1000 rows to a grid point.

  Point `t` of the 100 reads rows `1000·t … 1000·t + 999` of its row-block operands and the whole of its weight and
  parameter operands, and writes the same rows of the result. A row of the update depends on that row of the operands only,
  so what point `t` writes back is block `t` of ONE whole-array function of the operands as the region finds them; the 100
  blocks tile the result array, so after the region the array is that function.
-/
import proofs.«130044_j40561671143575_1_alg».proof.Proof.Gen.KernelIdeal.Frame
import proofs.«130044_j40561671143575_1_alg».proof.Proof.KernelPay
import Idealize.ShloMosaic.Lib.Pipeline.Value

set_option maxRecDepth 16384

noncomputable section

namespace Cert.Sage.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-block window is at block row `t`, every other window at its one block. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

theorem grid_size : cfg2.N = 100 := N_2

/-- Two functions on a [1000, 256] block agree when they agree at every `(p, q)`. -/
theorem ext_block {f g : S1000x256.Idx → EReal} (h : ∀ (p : Fin 1000) (q : Fin 256), f (ix2 p q) = g (ix2 p q)) : f = g :=
  funext fun j => by rw [eq_ix2 j]; exact h _ _

/-- WHAT POINT `t` WRITES BACK is block `t` of the update of the operand arrays as the region finds them. -/
theorem flushed_eq (c : Dev nD) (t : Fin cfg2.N) :
    (dat2 (F := Ideal) V c).flushed 7 t = ((cfg2.win 7).blk t).view.read (Elt Ideal) (Sage.itemUpd (V c main_v134) (V c main_v88) (V c main_v186) (V c main_v189) (V c main_v191) (V c main_v194) (V c main_v197)) := by
  show (cfg2.win 7).cut (grid2.coords t) ((dat2 V c).after 7 t) = _
  rw [after2_7]
  unfold out2_7
  rw [View.canon_unit_zero hz]
  simp only [View.ld_unit_zero (S := S1000x256) hz, View.ld_unit_zero (S := S256x256) hz, View.ld_unit_zero (S := S1x256) hz]
  rw [Kernel.item2_eq]
  obtain ⟨e0a, e0b, e1a, e1b, e2a, e2b, e3a, e3b, e4a, e4b, e5a, e5b, e6a, e6b, e7a, e7b⟩ := idx_facts t
  have hN : t.val < 100 := lt_of_lt_of_eq t.isLt grid_size
  refine ext_block fun p q => ?_
  have hT : t.val * 1000 + p.val < 100000 := by have := p.isLt; omega
  refine (Kernel.itemB'_apply (iblk2 V c 0 t) (iblk2 V c 1 t) (iblk2 V c 2 t) (iblk2 V c 3 t) (iblk2 V c 4 t) (iblk2 V c 5 t) (iblk2 V c 6 t) p q).trans ?_
  have hemb : ((cfg2.win 7).blk t).view.emb (ix2 p q) = ix2 ⟨t.val * 1000 + p.val, hT⟩ q := funext fun a => Fin.ext (by
    match a with
    | ⟨0, _⟩ => show win2_7.index t (0 : Fin 2) * 1000 + 1 * p.val = t.val * 1000 + p.val; omega
    | ⟨1, _⟩ => show win2_7.index t (1 : Fin 2) * 256 + 1 * q.val = q.val; omega)
  show _ = Sage.itemUpd (V c main_v134) (V c main_v88) (V c main_v186) (V c main_v189) (V c main_v191) (V c main_v194) (V c main_v197) (((cfg2.win 7).blk t).view.emb (ix2 p q))
  rw [hemb, Sage.itemUpd_ix2]
  have h0 : Sage.row (iblk2 V c 0 t) p = Sage.row (V c main_v134) ⟨t.val * 1000 + p.val, hT⟩ := funext fun k => by
    show V c main_v134 (((cfg2.win 0).blk t).view.emb (ix2 p k)) = V c main_v134 (ix2 ⟨t.val * 1000 + p.val, hT⟩ k)
    refine congrArg (V c main_v134) (funext fun a => Fin.ext ?_)
    match a with
    | ⟨0, _⟩ => show win2_0.index t (0 : Fin 2) * 1000 + 1 * p.val = t.val * 1000 + p.val; omega
    | ⟨1, _⟩ => show win2_0.index t (1 : Fin 2) * 256 + 1 * k.val = k.val; omega
  have h1 : Sage.row (iblk2 V c 1 t) p = Sage.row (V c main_v88) ⟨t.val * 1000 + p.val, hT⟩ := funext fun k => by
    show V c main_v88 (((cfg2.win 1).blk t).view.emb (ix2 p k)) = V c main_v88 (ix2 ⟨t.val * 1000 + p.val, hT⟩ k)
    refine congrArg (V c main_v88) (funext fun a => Fin.ext ?_)
    match a with
    | ⟨0, _⟩ => show win2_1.index t (0 : Fin 2) * 1000 + 1 * p.val = t.val * 1000 + p.val; omega
    | ⟨1, _⟩ => show win2_1.index t (1 : Fin 2) * 256 + 1 * k.val = k.val; omega
  have h2 : Sage.mat (iblk2 V c 2 t) = Sage.mat (V c main_v186) := funext fun o => funext fun k => by
    show V c main_v186 (((cfg2.win 2).blk t).view.emb (ix2 o k)) = V c main_v186 (ix2 o k)
    refine congrArg (V c main_v186) (funext fun a => Fin.ext ?_)
    match a with
    | ⟨0, _⟩ => show win2_2.index t (0 : Fin 2) * 256 + 1 * o.val = o.val; omega
    | ⟨1, _⟩ => show win2_2.index t (1 : Fin 2) * 256 + 1 * k.val = k.val; omega
  have h3 : Sage.vec (iblk2 V c 3 t) = Sage.vec (V c main_v189) := funext fun k => by
    show V c main_v189 (((cfg2.win 3).blk t).view.emb (ix2 (0 : Fin 1) k)) = V c main_v189 (ix2 (0 : Fin 1) k)
    refine congrArg (V c main_v189) (funext fun a => Fin.ext ?_)
    match a with
    | ⟨0, _⟩ => show win2_3.index t (0 : Fin 2) * 1 + 1 * 0 = 0; omega
    | ⟨1, _⟩ => show win2_3.index t (1 : Fin 2) * 256 + 1 * k.val = k.val; omega
  have h4 : Sage.mat (iblk2 V c 4 t) = Sage.mat (V c main_v191) := funext fun o => funext fun k => by
    show V c main_v191 (((cfg2.win 4).blk t).view.emb (ix2 o k)) = V c main_v191 (ix2 o k)
    refine congrArg (V c main_v191) (funext fun a => Fin.ext ?_)
    match a with
    | ⟨0, _⟩ => show win2_4.index t (0 : Fin 2) * 256 + 1 * o.val = o.val; omega
    | ⟨1, _⟩ => show win2_4.index t (1 : Fin 2) * 256 + 1 * k.val = k.val; omega
  have h5 : Sage.vec (iblk2 V c 5 t) = Sage.vec (V c main_v194) := funext fun k => by
    show V c main_v194 (((cfg2.win 5).blk t).view.emb (ix2 (0 : Fin 1) k)) = V c main_v194 (ix2 (0 : Fin 1) k)
    refine congrArg (V c main_v194) (funext fun a => Fin.ext ?_)
    match a with
    | ⟨0, _⟩ => show win2_5.index t (0 : Fin 2) * 1 + 1 * 0 = 0; omega
    | ⟨1, _⟩ => show win2_5.index t (1 : Fin 2) * 256 + 1 * k.val = k.val; omega
  have h6 : Sage.vec (iblk2 V c 6 t) = Sage.vec (V c main_v197) := funext fun k => by
    show V c main_v197 (((cfg2.win 6).blk t).view.emb (ix2 (0 : Fin 1) k)) = V c main_v197 (ix2 (0 : Fin 1) k)
    refine congrArg (V c main_v197) (funext fun a => Fin.ext ?_)
    match a with
    | ⟨0, _⟩ => show win2_6.index t (0 : Fin 2) * 1 + 1 * 0 = 0; omega
    | ⟨1, _⟩ => show win2_6.index t (1 : Fin 2) * 256 + 1 * k.val = k.val; omega
  rw [h0, h1, h2, h3, h4, h5, h6]

/-- An index of the result array is in point `t`'s block iff each coordinate is in the block's range on its axis. -/
theorem mem_blk (t : Fin cfg2.N) (i : S100000x256.Idx) :
    i ∈ ((cfg2.win 7).blk t).view.set ↔ ∀ a : Fin 2, win2_7.index t a * S1000x256.size a ≤ (i a).val ∧ (i a).val < win2_7.index t a * S1000x256.size a + S1000x256.size a := by
  show i ∈ ((View.whole main_v198).slice (win2_7.rect t)).set ↔ _
  rw [View.set_slice_whole, Rect.mem_set_unit]
  exact Iff.rfl

/-- Every row of the result is in the block of the point `row / 1000`. -/
theorem cover (i : S100000x256.Idx) : ∃ t : Fin cfg2.N, (cfg2.win 7).flush t = true ∧ i ∈ ((cfg2.win 7).blk t).view.set := by
  have hi0 : (i 0).val < 100000 := (i 0).isLt
  have hi1 : (i 1).val < 256 := (i 1).isLt
  have ht : (i 0).val / 1000 < cfg2.N := by rw [grid_size]; omega
  refine ⟨⟨(i 0).val / 1000, ht⟩, flush2_7 _, ?_⟩
  obtain ⟨e0a, e0b, e1a, e1b, e2a, e2b, e3a, e3b, e4a, e4b, e5a, e5b, e6a, e6b, e7a, e7b⟩ := idx_facts ⟨(i 0).val / 1000, ht⟩
  rw [mem_blk]
  intro a
  match a with
  | ⟨0, _⟩ => show win2_7.index ⟨(i 0).val / 1000, ht⟩ (0 : Fin 2) * 1000 ≤ (i 0).val ∧ (i 0).val < win2_7.index ⟨(i 0).val / 1000, ht⟩ (0 : Fin 2) * 1000 + 1000; rw [e7a]; show (i 0).val / 1000 * 1000 ≤ (i 0).val ∧ (i 0).val < (i 0).val / 1000 * 1000 + 1000; omega
  | ⟨1, _⟩ => show win2_7.index ⟨(i 0).val / 1000, ht⟩ (1 : Fin 2) * 256 ≤ (i 1).val ∧ (i 1).val < win2_7.index ⟨(i 0).val / 1000, ht⟩ (1 : Fin 2) * 256 + 256; rw [e7b]; omega

/-- THE RESULT ARRAY after the region: the update of the operand arrays as the region finds them. -/
theorem final (c : Dev nD) : (dat2 (F := Ideal) V c).arrAt 7 cfg2.N = (Sage.itemUpd (V c main_v134) (V c main_v88) (V c main_v186) (V c main_v189) (V c main_v191) (V c main_v194) (V c main_v197)) :=
  (dat2 (F := Ideal) V c).arrAt_eq_of_cover 7 _ (fun t _ => flushed_eq V c t) cover

end Cert.Sage.Region2

end
-- ==== Proof.KernelRegion3.lean ====
/-
  Kernel region 3: a user update (two convolutions summed, normalised and rectified) of every row, 1000 rows to a grid point.

  Point `t` of the 100 reads rows `1000·t … 1000·t + 999` of its row-block operands and the whole of its weight and
  parameter operands, and writes the same rows of the result. A row of the update depends on that row of the operands only,
  so what point `t` writes back is block `t` of ONE whole-array function of the operands as the region finds them; the 100
  blocks tile the result array, so after the region the array is that function.
-/
import proofs.«130044_j40561671143575_1_alg».proof.Proof.Gen.KernelIdeal.Frame
import proofs.«130044_j40561671143575_1_alg».proof.Proof.KernelPay
import Idealize.ShloMosaic.Lib.Pipeline.Value

set_option maxRecDepth 16384

noncomputable section

namespace Cert.Sage.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-block window is at block row `t`, every other window at its one block. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = t.val
    ∧ win3_11.index t (1 : Fin 2) = 0 :=
  (by decide +kernel : ∀ t : Fin grid3.N, _)

theorem grid_size : cfg3.N = 100 := N_3

/-- Two functions on a [1000, 256] block agree when they agree at every `(p, q)`. -/
theorem ext_block {f g : S1000x256.Idx → EReal} (h : ∀ (p : Fin 1000) (q : Fin 256), f (ix2 p q) = g (ix2 p q)) : f = g :=
  funext fun j => by rw [eq_ix2 j]; exact h _ _

/-- WHAT POINT `t` WRITES BACK is block `t` of the update of the operand arrays as the region finds them. -/
theorem flushed_eq (c : Dev nD) (t : Fin cfg3.N) :
    (dat3 (F := Ideal) V c).flushed 11 t = ((cfg3.win 11).blk t).view.read (Elt Ideal) (Sage.userUpd (V c main_v159) (V c main_v184) (V c main_v109) (V c main_v200) (V c main_v203) (V c main_v205) (V c main_v207) (V c main_v210) (V c main_v212) (V c main_v215) (V c main_v218)) := by
  show (cfg3.win 11).cut (grid3.coords t) ((dat3 V c).after 11 t) = _
  rw [after3_11]
  unfold out3_11
  rw [View.canon_unit_zero hz]
  simp only [View.ld_unit_zero (S := S1000x256) hz, View.ld_unit_zero (S := S256x256) hz, View.ld_unit_zero (S := S1x256) hz]
  rw [Kernel.user2_eq]
  obtain ⟨e0a, e0b, e1a, e1b, e2a, e2b, e3a, e3b, e4a, e4b, e5a, e5b, e6a, e6b, e7a, e7b, e8a, e8b, e9a, e9b, e10a, e10b, e11a, e11b⟩ := idx_facts t
  have hN : t.val < 100 := lt_of_lt_of_eq t.isLt grid_size
  refine ext_block fun p q => ?_
  have hT : t.val * 1000 + p.val < 100000 := by have := p.isLt; omega
  refine (Kernel.userB'_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) p q).trans ?_
  have hemb : ((cfg3.win 11).blk t).view.emb (ix2 p q) = ix2 ⟨t.val * 1000 + p.val, hT⟩ q := funext fun a => Fin.ext (by
    match a with
    | ⟨0, _⟩ => show win3_11.index t (0 : Fin 2) * 1000 + 1 * p.val = t.val * 1000 + p.val; omega
    | ⟨1, _⟩ => show win3_11.index t (1 : Fin 2) * 256 + 1 * q.val = q.val; omega)
  show _ = Sage.userUpd (V c main_v159) (V c main_v184) (V c main_v109) (V c main_v200) (V c main_v203) (V c main_v205) (V c main_v207) (V c main_v210) (V c main_v212) (V c main_v215) (V c main_v218) (((cfg3.win 11).blk t).view.emb (ix2 p q))
  rw [hemb, Sage.userUpd_ix2]
  have h0 : Sage.row (iblk3 V c 0 t) p = Sage.row (V c main_v159) ⟨t.val * 1000 + p.val, hT⟩ := funext fun k => by
    show V c main_v159 (((cfg3.win 0).blk t).view.emb (ix2 p k)) = V c main_v159 (ix2 ⟨t.val * 1000 + p.val, hT⟩ k)
    refine congrArg (V c main_v159) (funext fun a => Fin.ext ?_)
    match a with
    | ⟨0, _⟩ => show win3_0.index t (0 : Fin 2) * 1000 + 1 * p.val = t.val * 1000 + p.val; omega
    | ⟨1, _⟩ => show win3_0.index t (1 : Fin 2) * 256 + 1 * k.val = k.val; omega
  have h1 : Sage.row (iblk3 V c 1 t) p = Sage.row (V c main_v184) ⟨t.val * 1000 + p.val, hT⟩ := funext fun k => by
    show V c main_v184 (((cfg3.win 1).blk t).view.emb (ix2 p k)) = V c main_v184 (ix2 ⟨t.val * 1000 + p.val, hT⟩ k)
    refine congrArg (V c main_v184) (funext fun a => Fin.ext ?_)
    match a with
    | ⟨0, _⟩ => show win3_1.index t (0 : Fin 2) * 1000 + 1 * p.val = t.val * 1000 + p.val; omega
    | ⟨1, _⟩ => show win3_1.index t (1 : Fin 2) * 256 + 1 * k.val = k.val; omega
  have h2 : Sage.row (iblk3 V c 2 t) p = Sage.row (V c main_v109) ⟨t.val * 1000 + p.val, hT⟩ := funext fun k => by
    show V c main_v109 (((cfg3.win 2).blk t).view.emb (ix2 p k)) = V c main_v109 (ix2 ⟨t.val * 1000 + p.val, hT⟩ k)
    refine congrArg (V c main_v109) (funext fun a => Fin.ext ?_)
    match a with
    | ⟨0, _⟩ => show win3_2.index t (0 : Fin 2) * 1000 + 1 * p.val = t.val * 1000 + p.val; omega
    | ⟨1, _⟩ => show win3_2.index t (1 : Fin 2) * 256 + 1 * k.val = k.val; omega
  have h3 : Sage.mat (iblk3 V c 3 t) = Sage.mat (V c main_v200) := funext fun o => funext fun k => by
    show V c main_v200 (((cfg3.win 3).blk t).view.emb (ix2 o k)) = V c main_v200 (ix2 o k)
    refine congrArg (V c main_v200) (funext fun a => Fin.ext ?_)
    match a with
    | ⟨0, _⟩ => show win3_3.index t (0 : Fin 2) * 256 + 1 * o.val = o.val; omega
    | ⟨1, _⟩ => show win3_3.index t (1 : Fin 2) * 256 + 1 * k.val = k.val; omega
  have h4 : Sage.vec (iblk3 V c 4 t) = Sage.vec (V c main_v203) := funext fun k => by
    show V c main_v203 (((cfg3.win 4).blk t).view.emb (ix2 (0 : Fin 1) k)) = V c main_v203 (ix2 (0 : Fin 1) k)
    refine congrArg (V c main_v203) (funext fun a => Fin.ext ?_)
    match a with
    | ⟨0, _⟩ => show win3_4.index t (0 : Fin 2) * 1 + 1 * 0 = 0; omega
    | ⟨1, _⟩ => show win3_4.index t (1 : Fin 2) * 256 + 1 * k.val = k.val; omega
  have h5 : Sage.mat (iblk3 V c 5 t) = Sage.mat (V c main_v205) := funext fun o => funext fun k => by
    show V c main_v205 (((cfg3.win 5).blk t).view.emb (ix2 o k)) = V c main_v205 (ix2 o k)
    refine congrArg (V c main_v205) (funext fun a => Fin.ext ?_)
    match a with
    | ⟨0, _⟩ => show win3_5.index t (0 : Fin 2) * 256 + 1 * o.val = o.val; omega
    | ⟨1, _⟩ => show win3_5.index t (1 : Fin 2) * 256 + 1 * k.val = k.val; omega
  have h6 : Sage.mat (iblk3 V c 6 t) = Sage.mat (V c main_v207) := funext fun o => funext fun k => by
    show V c main_v207 (((cfg3.win 6).blk t).view.emb (ix2 o k)) = V c main_v207 (ix2 o k)
    refine congrArg (V c main_v207) (funext fun a => Fin.ext ?_)
    match a with
    | ⟨0, _⟩ => show win3_6.index t (0 : Fin 2) * 256 + 1 * o.val = o.val; omega
    | ⟨1, _⟩ => show win3_6.index t (1 : Fin 2) * 256 + 1 * k.val = k.val; omega
  have h7 : Sage.vec (iblk3 V c 7 t) = Sage.vec (V c main_v210) := funext fun k => by
    show V c main_v210 (((cfg3.win 7).blk t).view.emb (ix2 (0 : Fin 1) k)) = V c main_v210 (ix2 (0 : Fin 1) k)
    refine congrArg (V c main_v210) (funext fun a => Fin.ext ?_)
    match a with
    | ⟨0, _⟩ => show win3_7.index t (0 : Fin 2) * 1 + 1 * 0 = 0; omega
    | ⟨1, _⟩ => show win3_7.index t (1 : Fin 2) * 256 + 1 * k.val = k.val; omega
  have h8 : Sage.mat (iblk3 V c 8 t) = Sage.mat (V c main_v212) := funext fun o => funext fun k => by
    show V c main_v212 (((cfg3.win 8).blk t).view.emb (ix2 o k)) = V c main_v212 (ix2 o k)
    refine congrArg (V c main_v212) (funext fun a => Fin.ext ?_)
    match a with
    | ⟨0, _⟩ => show win3_8.index t (0 : Fin 2) * 256 + 1 * o.val = o.val; omega
    | ⟨1, _⟩ => show win3_8.index t (1 : Fin 2) * 256 + 1 * k.val = k.val; omega
  have h9 : Sage.vec (iblk3 V c 9 t) = Sage.vec (V c main_v215) := funext fun k => by
    show V c main_v215 (((cfg3.win 9).blk t).view.emb (ix2 (0 : Fin 1) k)) = V c main_v215 (ix2 (0 : Fin 1) k)
    refine congrArg (V c main_v215) (funext fun a => Fin.ext ?_)
    match a with
    | ⟨0, _⟩ => show win3_9.index t (0 : Fin 2) * 1 + 1 * 0 = 0; omega
    | ⟨1, _⟩ => show win3_9.index t (1 : Fin 2) * 256 + 1 * k.val = k.val; omega
  have h10 : Sage.vec (iblk3 V c 10 t) = Sage.vec (V c main_v218) := funext fun k => by
    show V c main_v218 (((cfg3.win 10).blk t).view.emb (ix2 (0 : Fin 1) k)) = V c main_v218 (ix2 (0 : Fin 1) k)
    refine congrArg (V c main_v218) (funext fun a => Fin.ext ?_)
    match a with
    | ⟨0, _⟩ => show win3_10.index t (0 : Fin 2) * 1 + 1 * 0 = 0; omega
    | ⟨1, _⟩ => show win3_10.index t (1 : Fin 2) * 256 + 1 * k.val = k.val; omega
  rw [h0, h1, h2, h3, h4, h5, h6, h7, h8, h9, h10]

/-- An index of the result array is in point `t`'s block iff each coordinate is in the block's range on its axis. -/
theorem mem_blk (t : Fin cfg3.N) (i : S100000x256.Idx) :
    i ∈ ((cfg3.win 11).blk t).view.set ↔ ∀ a : Fin 2, win3_11.index t a * S1000x256.size a ≤ (i a).val ∧ (i a).val < win3_11.index t a * S1000x256.size a + S1000x256.size a := by
  show i ∈ ((View.whole main_v219).slice (win3_11.rect t)).set ↔ _
  rw [View.set_slice_whole, Rect.mem_set_unit]
  exact Iff.rfl

/-- Every row of the result is in the block of the point `row / 1000`. -/
theorem cover (i : S100000x256.Idx) : ∃ t : Fin cfg3.N, (cfg3.win 11).flush t = true ∧ i ∈ ((cfg3.win 11).blk t).view.set := by
  have hi0 : (i 0).val < 100000 := (i 0).isLt
  have hi1 : (i 1).val < 256 := (i 1).isLt
  have ht : (i 0).val / 1000 < cfg3.N := by rw [grid_size]; omega
  refine ⟨⟨(i 0).val / 1000, ht⟩, flush3_11 _, ?_⟩
  obtain ⟨e0a, e0b, e1a, e1b, e2a, e2b, e3a, e3b, e4a, e4b, e5a, e5b, e6a, e6b, e7a, e7b, e8a, e8b, e9a, e9b, e10a, e10b, e11a, e11b⟩ := idx_facts ⟨(i 0).val / 1000, ht⟩
  rw [mem_blk]
  intro a
  match a with
  | ⟨0, _⟩ => show win3_11.index ⟨(i 0).val / 1000, ht⟩ (0 : Fin 2) * 1000 ≤ (i 0).val ∧ (i 0).val < win3_11.index ⟨(i 0).val / 1000, ht⟩ (0 : Fin 2) * 1000 + 1000; rw [e11a]; show (i 0).val / 1000 * 1000 ≤ (i 0).val ∧ (i 0).val < (i 0).val / 1000 * 1000 + 1000; omega
  | ⟨1, _⟩ => show win3_11.index ⟨(i 0).val / 1000, ht⟩ (1 : Fin 2) * 256 ≤ (i 1).val ∧ (i 1).val < win3_11.index ⟨(i 0).val / 1000, ht⟩ (1 : Fin 2) * 256 + 256; rw [e11b]; omega

/-- THE RESULT ARRAY after the region: the update of the operand arrays as the region finds them. -/
theorem final (c : Dev nD) : (dat3 (F := Ideal) V c).arrAt 11 cfg3.N = (Sage.userUpd (V c main_v159) (V c main_v184) (V c main_v109) (V c main_v200) (V c main_v203) (V c main_v205) (V c main_v207) (V c main_v210) (V c main_v212) (V c main_v215) (V c main_v218)) :=
  (dat3 (F := Ideal) V c).arrAt_eq_of_cover 11 _ (fun t _ => flushed_eq V c t) cover

end Cert.Sage.Region3

end
-- ==== Proof.RefLeaves.lean ====
/-
  The parts of the computation that both programs spell with the same host operations, named once.

  The neighbourhood mean: rows of `x` are gathered at the edges' source indices (a negative index counted from the end, as
  array indexing does), summed into their destination rows, and each destination row is divided by its number of incoming
  edges, at least one. Neither program's proof opens it: the two sides apply the SAME function to the same arrays.
  The parameters: a [256, 256] weight, a bias row and the normalisation rows are cut out of their stacks per layer and
  relation (or node type) by a slice and a change of shape.
-/
import proofs.«130044_j40561671143575_1_alg».proof.ReferenceIdeal
import proofs.«130044_j40561671143575_1_alg».proof.Proof.Gen.ReferenceIdeal
import Idealize.ShloMosaic.PureOps.Ideal

noncomputable section

namespace Cert.Sage.Ref

open Idealize.ShloMosaic Cert.ReferenceIdeal Cert.ReferenceIdeal.Facts₀

/-- The neighbourhood mean of the rows of `x` along the edges `e` (row 0 the sources, row 1 the destinations). -/
def meanAgg (x : FVec Ideal S100000x256 .f32) (e : IVec S2x400000 32) : FVec Ideal S100000x256 .f32 :=
  Host.divf (F := Ideal) (Host.scatterAdd (F := Ideal) scatter_S100000x256_S400000x1_S400000x256_1_0_0_1 (broadcastInDim S100000x256 ![] bcast_S_S100000x256 (constant S_ .f32 0x00000000#32)) (broadcastInDim S400000x1 ![0] bcast_S400000_S400000x1_0 (shapeCast _ (extractStridedSlice S1x400000 ![1, 0] e slices_S2x400000_S1x400000_1_0) shapeCasts_S1x400000_S400000)) (Host.gather gather_S100000x256_S400000x1_S400000x256_1_0_n_n_0_1_1256 x (broadcastInDim S400000x1 ![0] bcast_S400000_S400000x1_0 (select (cmpi .slt (shapeCast _ (extractStridedSlice S1x400000 ![0, 0] e slices_S2x400000_S1x400000_0_0) shapeCasts_S1x400000_S400000) (broadcastInDim S400000 ![] bcast_S_S400000 (constantI S_ 32 0#32))) (addi (shapeCast _ (extractStridedSlice S1x400000 ![0, 0] e slices_S2x400000_S1x400000_0_0) shapeCasts_S1x400000_S400000) (broadcastInDim S400000 ![] bcast_S_S400000 (constantI S_ 32 100000#32))) (shapeCast _ (extractStridedSlice S1x400000 ![0, 0] e slices_S2x400000_S1x400000_0_0) shapeCasts_S1x400000_S400000))))) (broadcastInDim S100000x256 ![0, 1] bcast_S100000x1_S100000x256_0_1 (broadcastInDim S100000x1 ![0] bcast_S100000_S100000x1_0 (maximumf (Host.scatterAdd (F := Ideal) scatter_S100000_S400000x1_S400000_n_0_0_1 (broadcastInDim S100000 ![] bcast_S_S100000 (constant S_ .f32 0x00000000#32)) (broadcastInDim S400000x1 ![0] bcast_S400000_S400000x1_0 (shapeCast _ (extractStridedSlice S1x400000 ![1, 0] e slices_S2x400000_S1x400000_1_0) shapeCasts_S1x400000_S400000)) (broadcastInDim S400000 ![] bcast_S_S400000 (constant S_ .f32 0x3F800000#32))) (broadcastInDim S100000 ![] bcast_S_S100000 (constant S_ .f32 0x3F800000#32)))))

/-- Layer 0, relation 0: the [256, 256] weight matrix cut out of a stack of weights (output feature on its rows). -/
def wMat00 (W : (⟨S2x3x256x256, .f32⟩ : BufTy).Contents (Elt Ideal)) : (⟨S256x256, .f32⟩ : BufTy).Contents (Elt Ideal) :=
  shapeCast _ (extractStridedSlice S1x1x256x256 ![0, 0, 0, 0] W slices_S2x3x256x256_S1x1x256x256_0_0_0_0) shapeCasts_S1x1x256x256_S256x256

/-- Layer 0, relation 1: the [256, 256] weight matrix cut out of a stack of weights (output feature on its rows). -/
def wMat01 (W : (⟨S2x3x256x256, .f32⟩ : BufTy).Contents (Elt Ideal)) : (⟨S256x256, .f32⟩ : BufTy).Contents (Elt Ideal) :=
  shapeCast _ (extractStridedSlice S1x1x256x256 ![0, 1, 0, 0] W slices_S2x3x256x256_S1x1x256x256_0_1_0_0) shapeCasts_S1x1x256x256_S256x256

/-- Layer 0, relation 2: the [256, 256] weight matrix cut out of a stack of weights (output feature on its rows). -/
def wMat02 (W : (⟨S2x3x256x256, .f32⟩ : BufTy).Contents (Elt Ideal)) : (⟨S256x256, .f32⟩ : BufTy).Contents (Elt Ideal) :=
  shapeCast _ (extractStridedSlice S1x1x256x256 ![0, 2, 0, 0] W slices_S2x3x256x256_S1x1x256x256_0_2_0_0) shapeCasts_S1x1x256x256_S256x256

/-- Layer 1, relation 0: the [256, 256] weight matrix cut out of a stack of weights (output feature on its rows). -/
def wMat10 (W : (⟨S2x3x256x256, .f32⟩ : BufTy).Contents (Elt Ideal)) : (⟨S256x256, .f32⟩ : BufTy).Contents (Elt Ideal) :=
  shapeCast _ (extractStridedSlice S1x1x256x256 ![1, 0, 0, 0] W slices_S2x3x256x256_S1x1x256x256_1_0_0_0) shapeCasts_S1x1x256x256_S256x256

/-- Layer 1, relation 1: the [256, 256] weight matrix cut out of a stack of weights (output feature on its rows). -/
def wMat11 (W : (⟨S2x3x256x256, .f32⟩ : BufTy).Contents (Elt Ideal)) : (⟨S256x256, .f32⟩ : BufTy).Contents (Elt Ideal) :=
  shapeCast _ (extractStridedSlice S1x1x256x256 ![1, 1, 0, 0] W slices_S2x3x256x256_S1x1x256x256_1_1_0_0) shapeCasts_S1x1x256x256_S256x256

/-- Layer 1, relation 2: the [256, 256] weight matrix cut out of a stack of weights (output feature on its rows). -/
def wMat12 (W : (⟨S2x3x256x256, .f32⟩ : BufTy).Contents (Elt Ideal)) : (⟨S256x256, .f32⟩ : BufTy).Contents (Elt Ideal) :=
  shapeCast _ (extractStridedSlice S1x1x256x256 ![1, 2, 0, 0] W slices_S2x3x256x256_S1x1x256x256_1_2_0_0) shapeCasts_S1x1x256x256_S256x256

/-- Layer 0, relation 0: the bias cut out of the stack of biases, as a [1, 256] row. -/
def bRow00 (B : (⟨S2x3x256, .f32⟩ : BufTy).Contents (Elt Ideal)) : (⟨S1x256, .f32⟩ : BufTy).Contents (Elt Ideal) :=
  broadcastInDim S1x256 ![1] bcast_S256_S1x256_1 (shapeCast _ (extractStridedSlice S1x1x256 ![0, 0, 0] B slices_S2x3x256_S1x1x256_0_0_0) shapeCasts_S1x1x256_S256)

/-- Layer 0, relation 1: the bias cut out of the stack of biases, as a [1, 256] row. -/
def bRow01 (B : (⟨S2x3x256, .f32⟩ : BufTy).Contents (Elt Ideal)) : (⟨S1x256, .f32⟩ : BufTy).Contents (Elt Ideal) :=
  broadcastInDim S1x256 ![1] bcast_S256_S1x256_1 (shapeCast _ (extractStridedSlice S1x1x256 ![0, 1, 0] B slices_S2x3x256_S1x1x256_0_1_0) shapeCasts_S1x1x256_S256)

/-- Layer 0, relation 2: the bias cut out of the stack of biases, as a [1, 256] row. -/
def bRow02 (B : (⟨S2x3x256, .f32⟩ : BufTy).Contents (Elt Ideal)) : (⟨S1x256, .f32⟩ : BufTy).Contents (Elt Ideal) :=
  broadcastInDim S1x256 ![1] bcast_S256_S1x256_1 (shapeCast _ (extractStridedSlice S1x1x256 ![0, 2, 0] B slices_S2x3x256_S1x1x256_0_2_0) shapeCasts_S1x1x256_S256)

/-- Layer 1, relation 0: the bias cut out of the stack of biases, as a [1, 256] row. -/
def bRow10 (B : (⟨S2x3x256, .f32⟩ : BufTy).Contents (Elt Ideal)) : (⟨S1x256, .f32⟩ : BufTy).Contents (Elt Ideal) :=
  broadcastInDim S1x256 ![1] bcast_S256_S1x256_1 (shapeCast _ (extractStridedSlice S1x1x256 ![1, 0, 0] B slices_S2x3x256_S1x1x256_1_0_0) shapeCasts_S1x1x256_S256)

/-- Layer 1, relation 1: the bias cut out of the stack of biases, as a [1, 256] row. -/
def bRow11 (B : (⟨S2x3x256, .f32⟩ : BufTy).Contents (Elt Ideal)) : (⟨S1x256, .f32⟩ : BufTy).Contents (Elt Ideal) :=
  broadcastInDim S1x256 ![1] bcast_S256_S1x256_1 (shapeCast _ (extractStridedSlice S1x1x256 ![1, 1, 0] B slices_S2x3x256_S1x1x256_1_1_0) shapeCasts_S1x1x256_S256)

/-- Layer 1, relation 2: the bias cut out of the stack of biases, as a [1, 256] row. -/
def bRow12 (B : (⟨S2x3x256, .f32⟩ : BufTy).Contents (Elt Ideal)) : (⟨S1x256, .f32⟩ : BufTy).Contents (Elt Ideal) :=
  broadcastInDim S1x256 ![1] bcast_S256_S1x256_1 (shapeCast _ (extractStridedSlice S1x1x256 ![1, 2, 0] B slices_S2x3x256_S1x1x256_1_2_0) shapeCasts_S1x1x256_S256)

/-- Layer 0, node type 0 (0 the users, 1 the items): a normalisation parameter cut out of its stack, as a [1, 256] row. -/
def pRow00 (P : (⟨S2x2x256, .f32⟩ : BufTy).Contents (Elt Ideal)) : (⟨S1x256, .f32⟩ : BufTy).Contents (Elt Ideal) :=
  broadcastInDim S1x256 ![1] bcast_S256_S1x256_1 (shapeCast _ (extractStridedSlice S1x1x256 ![0, 0, 0] P slices_S2x2x256_S1x1x256_0_0_0) shapeCasts_S1x1x256_S256)

/-- Layer 0, node type 1 (0 the users, 1 the items): a normalisation parameter cut out of its stack, as a [1, 256] row. -/
def pRow01 (P : (⟨S2x2x256, .f32⟩ : BufTy).Contents (Elt Ideal)) : (⟨S1x256, .f32⟩ : BufTy).Contents (Elt Ideal) :=
  broadcastInDim S1x256 ![1] bcast_S256_S1x256_1 (shapeCast _ (extractStridedSlice S1x1x256 ![0, 1, 0] P slices_S2x2x256_S1x1x256_0_1_0) shapeCasts_S1x1x256_S256)

/-- Layer 1, node type 0 (0 the users, 1 the items): a normalisation parameter cut out of its stack, as a [1, 256] row. -/
def pRow10 (P : (⟨S2x2x256, .f32⟩ : BufTy).Contents (Elt Ideal)) : (⟨S1x256, .f32⟩ : BufTy).Contents (Elt Ideal) :=
  broadcastInDim S1x256 ![1] bcast_S256_S1x256_1 (shapeCast _ (extractStridedSlice S1x1x256 ![1, 0, 0] P slices_S2x2x256_S1x1x256_1_0_0) shapeCasts_S1x1x256_S256)

/-- Layer 1, node type 1 (0 the users, 1 the items): a normalisation parameter cut out of its stack, as a [1, 256] row. -/
def pRow11 (P : (⟨S2x2x256, .f32⟩ : BufTy).Contents (Elt Ideal)) : (⟨S1x256, .f32⟩ : BufTy).Contents (Elt Ideal) :=
  broadcastInDim S1x256 ![1] bcast_S256_S1x256_1 (shapeCast _ (extractStridedSlice S1x1x256 ![1, 1, 0] P slices_S2x2x256_S1x1x256_1_1_0) shapeCasts_S1x1x256_S256)

end Cert.Sage.Ref

end
-- ==== Proof.Normal.lean ====
/-
  The function of the ten argument arrays that both programs compute.

  `xu`, `xi`: the user and item feature rows; `Wl`, `bl`, `Wr`: the stacks of weights and biases per layer and relation;
  `g`, `b`: the stacks of normalisation parameters per layer and node type; `eui`, `eiu`, `euu`: the edge lists of the
  three relations (users to items, items to users, users to users).
  One layer takes the user rows `hu` and item rows `hi` to new item rows — the item update of the neighbourhood mean of
  `hu` along `eui` and of `hi` itself — and new user rows — the user update of the means of `hi` along `eiu` and of `hu` along
  `euu`, and of `hu` itself —, both from the OLD rows. Two layers are run; the results are the second layer's rows.
-/
import proofs.«130044_j40561671143575_1_alg».proof.Proof.Spec
import proofs.«130044_j40561671143575_1_alg».proof.Proof.RefLeaves

noncomputable section

namespace Cert.Sage

open Idealize.ShloMosaic Cert.ReferenceIdeal Cert.Sage.Ref

/-- Layer 0's item rows. -/
def items0 (hu hi : (⟨S100000x256, .f32⟩ : BufTy).Contents (Elt Ideal)) (Wl : (⟨S2x3x256x256, .f32⟩ : BufTy).Contents (Elt Ideal)) (bl : (⟨S2x3x256, .f32⟩ : BufTy).Contents (Elt Ideal)) (Wr : (⟨S2x3x256x256, .f32⟩ : BufTy).Contents (Elt Ideal)) (g b : (⟨S2x2x256, .f32⟩ : BufTy).Contents (Elt Ideal)) (eui : (⟨S2x400000, .i32⟩ : BufTy).Contents (Elt Ideal)) : (⟨S100000x256, .f32⟩ : BufTy).Contents (Elt Ideal) :=
  itemUpd (meanAgg hu eui) hi (wMat00 Wl) (bRow00 bl) (wMat00 Wr) (pRow01 g) (pRow01 b)

/-- Layer 0's user rows. -/
def users0 (hu hi : (⟨S100000x256, .f32⟩ : BufTy).Contents (Elt Ideal)) (Wl : (⟨S2x3x256x256, .f32⟩ : BufTy).Contents (Elt Ideal)) (bl : (⟨S2x3x256, .f32⟩ : BufTy).Contents (Elt Ideal)) (Wr : (⟨S2x3x256x256, .f32⟩ : BufTy).Contents (Elt Ideal)) (g b : (⟨S2x2x256, .f32⟩ : BufTy).Contents (Elt Ideal)) (eiu euu : (⟨S2x400000, .i32⟩ : BufTy).Contents (Elt Ideal)) : (⟨S100000x256, .f32⟩ : BufTy).Contents (Elt Ideal) :=
  userUpd (meanAgg hi eiu) (meanAgg hu euu) hu (wMat01 Wl) (bRow01 bl) (wMat01 Wr) (wMat02 Wl) (bRow02 bl) (wMat02 Wr) (pRow00 g) (pRow00 b)

/-- Layer 1's item rows. -/
def items1 (hu hi : (⟨S100000x256, .f32⟩ : BufTy).Contents (Elt Ideal)) (Wl : (⟨S2x3x256x256, .f32⟩ : BufTy).Contents (Elt Ideal)) (bl : (⟨S2x3x256, .f32⟩ : BufTy).Contents (Elt Ideal)) (Wr : (⟨S2x3x256x256, .f32⟩ : BufTy).Contents (Elt Ideal)) (g b : (⟨S2x2x256, .f32⟩ : BufTy).Contents (Elt Ideal)) (eui : (⟨S2x400000, .i32⟩ : BufTy).Contents (Elt Ideal)) : (⟨S100000x256, .f32⟩ : BufTy).Contents (Elt Ideal) :=
  itemUpd (meanAgg hu eui) hi (wMat10 Wl) (bRow10 bl) (wMat10 Wr) (pRow11 g) (pRow11 b)

/-- Layer 1's user rows. -/
def users1 (hu hi : (⟨S100000x256, .f32⟩ : BufTy).Contents (Elt Ideal)) (Wl : (⟨S2x3x256x256, .f32⟩ : BufTy).Contents (Elt Ideal)) (bl : (⟨S2x3x256, .f32⟩ : BufTy).Contents (Elt Ideal)) (Wr : (⟨S2x3x256x256, .f32⟩ : BufTy).Contents (Elt Ideal)) (g b : (⟨S2x2x256, .f32⟩ : BufTy).Contents (Elt Ideal)) (eiu euu : (⟨S2x400000, .i32⟩ : BufTy).Contents (Elt Ideal)) : (⟨S100000x256, .f32⟩ : BufTy).Contents (Elt Ideal) :=
  userUpd (meanAgg hi eiu) (meanAgg hu euu) hu (wMat11 Wl) (bRow11 bl) (wMat11 Wr) (wMat12 Wl) (bRow12 bl) (wMat12 Wr) (pRow10 g) (pRow10 b)

/-- RESULT 0: the user rows after both layers. -/
def resUsers (xu xi : (⟨S100000x256, .f32⟩ : BufTy).Contents (Elt Ideal)) (Wl : (⟨S2x3x256x256, .f32⟩ : BufTy).Contents (Elt Ideal)) (bl : (⟨S2x3x256, .f32⟩ : BufTy).Contents (Elt Ideal)) (Wr : (⟨S2x3x256x256, .f32⟩ : BufTy).Contents (Elt Ideal)) (g b : (⟨S2x2x256, .f32⟩ : BufTy).Contents (Elt Ideal)) (eui eiu euu : (⟨S2x400000, .i32⟩ : BufTy).Contents (Elt Ideal)) : (⟨S100000x256, .f32⟩ : BufTy).Contents (Elt Ideal) :=
  users1 (users0 xu xi Wl bl Wr g b eiu euu) (items0 xu xi Wl bl Wr g b eui) Wl bl Wr g b eiu euu

/-- RESULT 1: the item rows after both layers. -/
def resItems (xu xi : (⟨S100000x256, .f32⟩ : BufTy).Contents (Elt Ideal)) (Wl : (⟨S2x3x256x256, .f32⟩ : BufTy).Contents (Elt Ideal)) (bl : (⟨S2x3x256, .f32⟩ : BufTy).Contents (Elt Ideal)) (Wr : (⟨S2x3x256x256, .f32⟩ : BufTy).Contents (Elt Ideal)) (g b : (⟨S2x2x256, .f32⟩ : BufTy).Contents (Elt Ideal)) (eui eiu euu : (⟨S2x400000, .i32⟩ : BufTy).Contents (Elt Ideal)) : (⟨S100000x256, .f32⟩ : BufTy).Contents (Elt Ideal) :=
  items1 (users0 xu xi Wl bl Wr g b eiu euu) (items0 xu xi Wl bl Wr g b eui) Wl bl Wr g b eui

end Cert.Sage

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.KernelHost.lean ====
/-
  The idealized kernel's four stretches of host operations, read from an arbitrary valuation.

  The first and third stretch compute three neighbourhood means (of the user rows along the user-to-item and user-to-user
  edges, of the item rows along the item-to-user edges) and cut the first convolution's parameters out of their stacks;
  the second and fourth cut out the parameters of the user update. Each result is stated as the shared function of what the
  stretch finds in the buffers it reads; every buffer a later segment reads and the stretch does not write is kept.
-/
import proofs.«130044_j40561671143575_1_alg».proof.Proof.Gen.KernelIdeal.Frame
import proofs.«130044_j40561671143575_1_alg».proof.Proof.RefLeaves
import proofs.«130044_j40561671143575_1_alg».proof.Proof.LibStages

set_option maxRecDepth 16384

noncomputable section

namespace Cert.Sage.Host

open Idealize.ShloMosaic Idealize.ShloMosaic.TcCoe Idealize.ShloMosaic.StableHlo Idealize.SL.Sem
open Cert.KernelIdeal Cert.KernelIdeal.Gen Cert.LibStages Cert.Sage.Ref

section Host
variable (W : Valuation τ sig (Elt Ideal))

/-! ### Stretch 0 (106 operations) -/

theorem h0_v24 : after (hostOps0 (F := Ideal)) W (Proc.devRef .tc main_v24) = meanAgg (W (Proc.devRef .tc main_arg0)) (W (Proc.devRef .tc main_arg7)) := by
  reads_stretch [hostOps0]
theorem h0_v49 : after (hostOps0 (F := Ideal)) W (Proc.devRef .tc main_v49) = meanAgg (W (Proc.devRef .tc main_arg1)) (W (Proc.devRef .tc main_arg8)) := by
  reads_stretch [hostOps0]
theorem h0_v74 : after (hostOps0 (F := Ideal)) W (Proc.devRef .tc main_v74) = meanAgg (W (Proc.devRef .tc main_arg0)) (W (Proc.devRef .tc main_arg9)) := by
  reads_stretch [hostOps0]
theorem h0_v76 : after (hostOps0 (F := Ideal)) W (Proc.devRef .tc main_v76) = wMat00 (W (Proc.devRef .tc main_arg2)) := by
  reads_stretch [hostOps0]
theorem h0_v79 : after (hostOps0 (F := Ideal)) W (Proc.devRef .tc main_v79) = bRow00 (W (Proc.devRef .tc main_arg3)) := by
  reads_stretch [hostOps0]
theorem h0_v81 : after (hostOps0 (F := Ideal)) W (Proc.devRef .tc main_v81) = wMat00 (W (Proc.devRef .tc main_arg4)) := by
  reads_stretch [hostOps0]
theorem h0_v84 : after (hostOps0 (F := Ideal)) W (Proc.devRef .tc main_v84) = pRow01 (W (Proc.devRef .tc main_arg5)) := by
  reads_stretch [hostOps0]
theorem h0_v87 : after (hostOps0 (F := Ideal)) W (Proc.devRef .tc main_v87) = pRow01 (W (Proc.devRef .tc main_arg6)) := by
  reads_stretch [hostOps0]
theorem h0_keeps_arg1 : after (hostOps0 (F := Ideal)) W (Proc.devRef .tc main_arg1) = W (Proc.devRef .tc main_arg1) := by
  keeps_stretch [hostOps0]
theorem h0_keeps_arg8 : after (hostOps0 (F := Ideal)) W (Proc.devRef .tc main_arg8) = W (Proc.devRef .tc main_arg8) := by
  keeps_stretch [hostOps0]
theorem h0_keeps_arg0 : after (hostOps0 (F := Ideal)) W (Proc.devRef .tc main_arg0) = W (Proc.devRef .tc main_arg0) := by
  keeps_stretch [hostOps0]
theorem h0_keeps_arg2 : after (hostOps0 (F := Ideal)) W (Proc.devRef .tc main_arg2) = W (Proc.devRef .tc main_arg2) := by
  keeps_stretch [hostOps0]
theorem h0_keeps_arg3 : after (hostOps0 (F := Ideal)) W (Proc.devRef .tc main_arg3) = W (Proc.devRef .tc main_arg3) := by
  keeps_stretch [hostOps0]
theorem h0_keeps_arg4 : after (hostOps0 (F := Ideal)) W (Proc.devRef .tc main_arg4) = W (Proc.devRef .tc main_arg4) := by
  keeps_stretch [hostOps0]
theorem h0_keeps_arg5 : after (hostOps0 (F := Ideal)) W (Proc.devRef .tc main_arg5) = W (Proc.devRef .tc main_arg5) := by
  keeps_stretch [hostOps0]
theorem h0_keeps_arg6 : after (hostOps0 (F := Ideal)) W (Proc.devRef .tc main_arg6) = W (Proc.devRef .tc main_arg6) := by
  keeps_stretch [hostOps0]
theorem h0_keeps_arg9 : after (hostOps0 (F := Ideal)) W (Proc.devRef .tc main_arg9) = W (Proc.devRef .tc main_arg9) := by
  keeps_stretch [hostOps0]
theorem h0_keeps_arg7 : after (hostOps0 (F := Ideal)) W (Proc.devRef .tc main_arg7) = W (Proc.devRef .tc main_arg7) := by
  keeps_stretch [hostOps0]

/-! ### Stretch 1 (20 operations) -/

theorem h1_v90 : after (hostOps1 (F := Ideal)) W (Proc.devRef .tc main_v90) = wMat01 (W (Proc.devRef .tc main_arg2)) := by
  reads_stretch [hostOps1]
theorem h1_v93 : after (hostOps1 (F := Ideal)) W (Proc.devRef .tc main_v93) = bRow01 (W (Proc.devRef .tc main_arg3)) := by
  reads_stretch [hostOps1]
theorem h1_v95 : after (hostOps1 (F := Ideal)) W (Proc.devRef .tc main_v95) = wMat01 (W (Proc.devRef .tc main_arg4)) := by
  reads_stretch [hostOps1]
theorem h1_v97 : after (hostOps1 (F := Ideal)) W (Proc.devRef .tc main_v97) = wMat02 (W (Proc.devRef .tc main_arg2)) := by
  reads_stretch [hostOps1]
theorem h1_v100 : after (hostOps1 (F := Ideal)) W (Proc.devRef .tc main_v100) = bRow02 (W (Proc.devRef .tc main_arg3)) := by
  reads_stretch [hostOps1]
theorem h1_v102 : after (hostOps1 (F := Ideal)) W (Proc.devRef .tc main_v102) = wMat02 (W (Proc.devRef .tc main_arg4)) := by
  reads_stretch [hostOps1]
theorem h1_v105 : after (hostOps1 (F := Ideal)) W (Proc.devRef .tc main_v105) = pRow00 (W (Proc.devRef .tc main_arg5)) := by
  reads_stretch [hostOps1]
theorem h1_v108 : after (hostOps1 (F := Ideal)) W (Proc.devRef .tc main_v108) = pRow00 (W (Proc.devRef .tc main_arg6)) := by
  reads_stretch [hostOps1]
theorem h1_keeps_v88 : after (hostOps1 (F := Ideal)) W (Proc.devRef .tc main_v88) = W (Proc.devRef .tc main_v88) := by
  keeps_stretch [hostOps1]
theorem h1_keeps_arg8 : after (hostOps1 (F := Ideal)) W (Proc.devRef .tc main_arg8) = W (Proc.devRef .tc main_arg8) := by
  keeps_stretch [hostOps1]
theorem h1_keeps_v49 : after (hostOps1 (F := Ideal)) W (Proc.devRef .tc main_v49) = W (Proc.devRef .tc main_v49) := by
  keeps_stretch [hostOps1]
theorem h1_keeps_v74 : after (hostOps1 (F := Ideal)) W (Proc.devRef .tc main_v74) = W (Proc.devRef .tc main_v74) := by
  keeps_stretch [hostOps1]
theorem h1_keeps_arg0 : after (hostOps1 (F := Ideal)) W (Proc.devRef .tc main_arg0) = W (Proc.devRef .tc main_arg0) := by
  keeps_stretch [hostOps1]
theorem h1_keeps_arg9 : after (hostOps1 (F := Ideal)) W (Proc.devRef .tc main_arg9) = W (Proc.devRef .tc main_arg9) := by
  keeps_stretch [hostOps1]
theorem h1_keeps_arg2 : after (hostOps1 (F := Ideal)) W (Proc.devRef .tc main_arg2) = W (Proc.devRef .tc main_arg2) := by
  keeps_stretch [hostOps1]
theorem h1_keeps_arg3 : after (hostOps1 (F := Ideal)) W (Proc.devRef .tc main_arg3) = W (Proc.devRef .tc main_arg3) := by
  keeps_stretch [hostOps1]
theorem h1_keeps_arg4 : after (hostOps1 (F := Ideal)) W (Proc.devRef .tc main_arg4) = W (Proc.devRef .tc main_arg4) := by
  keeps_stretch [hostOps1]
theorem h1_keeps_arg5 : after (hostOps1 (F := Ideal)) W (Proc.devRef .tc main_arg5) = W (Proc.devRef .tc main_arg5) := by
  keeps_stretch [hostOps1]
theorem h1_keeps_arg6 : after (hostOps1 (F := Ideal)) W (Proc.devRef .tc main_arg6) = W (Proc.devRef .tc main_arg6) := by
  keeps_stretch [hostOps1]
theorem h1_keeps_arg7 : after (hostOps1 (F := Ideal)) W (Proc.devRef .tc main_arg7) = W (Proc.devRef .tc main_arg7) := by
  keeps_stretch [hostOps1]

/-! ### Stretch 2 (106 operations) -/

theorem h2_v134 : after (hostOps2 (F := Ideal)) W (Proc.devRef .tc main_v134) = meanAgg (W (Proc.devRef .tc main_v109)) (W (Proc.devRef .tc main_arg7)) := by
  reads_stretch [hostOps2]
theorem h2_v159 : after (hostOps2 (F := Ideal)) W (Proc.devRef .tc main_v159) = meanAgg (W (Proc.devRef .tc main_v88)) (W (Proc.devRef .tc main_arg8)) := by
  reads_stretch [hostOps2]
theorem h2_v184 : after (hostOps2 (F := Ideal)) W (Proc.devRef .tc main_v184) = meanAgg (W (Proc.devRef .tc main_v109)) (W (Proc.devRef .tc main_arg9)) := by
  reads_stretch [hostOps2]
theorem h2_v186 : after (hostOps2 (F := Ideal)) W (Proc.devRef .tc main_v186) = wMat10 (W (Proc.devRef .tc main_arg2)) := by
  reads_stretch [hostOps2]
theorem h2_v189 : after (hostOps2 (F := Ideal)) W (Proc.devRef .tc main_v189) = bRow10 (W (Proc.devRef .tc main_arg3)) := by
  reads_stretch [hostOps2]
theorem h2_v191 : after (hostOps2 (F := Ideal)) W (Proc.devRef .tc main_v191) = wMat10 (W (Proc.devRef .tc main_arg4)) := by
  reads_stretch [hostOps2]
theorem h2_v194 : after (hostOps2 (F := Ideal)) W (Proc.devRef .tc main_v194) = pRow11 (W (Proc.devRef .tc main_arg5)) := by
  reads_stretch [hostOps2]
theorem h2_v197 : after (hostOps2 (F := Ideal)) W (Proc.devRef .tc main_v197) = pRow11 (W (Proc.devRef .tc main_arg6)) := by
  reads_stretch [hostOps2]
theorem h2_keeps_v109 : after (hostOps2 (F := Ideal)) W (Proc.devRef .tc main_v109) = W (Proc.devRef .tc main_v109) := by
  keeps_stretch [hostOps2]
theorem h2_keeps_arg2 : after (hostOps2 (F := Ideal)) W (Proc.devRef .tc main_arg2) = W (Proc.devRef .tc main_arg2) := by
  keeps_stretch [hostOps2]
theorem h2_keeps_arg3 : after (hostOps2 (F := Ideal)) W (Proc.devRef .tc main_arg3) = W (Proc.devRef .tc main_arg3) := by
  keeps_stretch [hostOps2]
theorem h2_keeps_arg4 : after (hostOps2 (F := Ideal)) W (Proc.devRef .tc main_arg4) = W (Proc.devRef .tc main_arg4) := by
  keeps_stretch [hostOps2]
theorem h2_keeps_arg5 : after (hostOps2 (F := Ideal)) W (Proc.devRef .tc main_arg5) = W (Proc.devRef .tc main_arg5) := by
  keeps_stretch [hostOps2]
theorem h2_keeps_arg6 : after (hostOps2 (F := Ideal)) W (Proc.devRef .tc main_arg6) = W (Proc.devRef .tc main_arg6) := by
  keeps_stretch [hostOps2]
theorem h2_keeps_v88 : after (hostOps2 (F := Ideal)) W (Proc.devRef .tc main_v88) = W (Proc.devRef .tc main_v88) := by
  keeps_stretch [hostOps2]

/-! ### Stretch 3 (20 operations) -/

theorem h3_v200 : after (hostOps3 (F := Ideal)) W (Proc.devRef .tc main_v200) = wMat11 (W (Proc.devRef .tc main_arg2)) := by
  reads_stretch [hostOps3]
theorem h3_v203 : after (hostOps3 (F := Ideal)) W (Proc.devRef .tc main_v203) = bRow11 (W (Proc.devRef .tc main_arg3)) := by
  reads_stretch [hostOps3]
theorem h3_v205 : after (hostOps3 (F := Ideal)) W (Proc.devRef .tc main_v205) = wMat11 (W (Proc.devRef .tc main_arg4)) := by
  reads_stretch [hostOps3]
theorem h3_v207 : after (hostOps3 (F := Ideal)) W (Proc.devRef .tc main_v207) = wMat12 (W (Proc.devRef .tc main_arg2)) := by
  reads_stretch [hostOps3]
theorem h3_v210 : after (hostOps3 (F := Ideal)) W (Proc.devRef .tc main_v210) = bRow12 (W (Proc.devRef .tc main_arg3)) := by
  reads_stretch [hostOps3]
theorem h3_v212 : after (hostOps3 (F := Ideal)) W (Proc.devRef .tc main_v212) = wMat12 (W (Proc.devRef .tc main_arg4)) := by
  reads_stretch [hostOps3]
theorem h3_v215 : after (hostOps3 (F := Ideal)) W (Proc.devRef .tc main_v215) = pRow10 (W (Proc.devRef .tc main_arg5)) := by
  reads_stretch [hostOps3]
theorem h3_v218 : after (hostOps3 (F := Ideal)) W (Proc.devRef .tc main_v218) = pRow10 (W (Proc.devRef .tc main_arg6)) := by
  reads_stretch [hostOps3]
theorem h3_keeps_v159 : after (hostOps3 (F := Ideal)) W (Proc.devRef .tc main_v159) = W (Proc.devRef .tc main_v159) := by
  keeps_stretch [hostOps3]
theorem h3_keeps_v184 : after (hostOps3 (F := Ideal)) W (Proc.devRef .tc main_v184) = W (Proc.devRef .tc main_v184) := by
  keeps_stretch [hostOps3]
theorem h3_keeps_v109 : after (hostOps3 (F := Ideal)) W (Proc.devRef .tc main_v109) = W (Proc.devRef .tc main_v109) := by
  keeps_stretch [hostOps3]
theorem h3_keeps_v198 : after (hostOps3 (F := Ideal)) W (Proc.devRef .tc main_v198) = W (Proc.devRef .tc main_v198) := by
  keeps_stretch [hostOps3]

end Host

end Cert.Sage.Host

end
-- ==== Proof.KernelStages.lean ====
/-
  The idealized kernel's two results as functions of the arguments.

  The run leaves every buffer at the fold of @main's eight segments. A stretch of host operations writes the
  neighbourhood means and the parameter slices that the next region reads, each a function of what the stretch finds in
  the buffers it reads, and keeps every buffer it does not write (the module of the host stretches); a region writes its one result array — the item or user
  update of its operand arrays as it finds them — and keeps everything else. Walking the fold from the launch, each buffer
  a later segment reads is a function of the ten arguments; the last two are the second layer's user rows and item rows.
-/
import proofs.«130044_j40561671143575_1_alg».proof.Proof.KernelRun
import proofs.«130044_j40561671143575_1_alg».proof.Proof.KernelRegion0
import proofs.«130044_j40561671143575_1_alg».proof.Proof.KernelRegion1
import proofs.«130044_j40561671143575_1_alg».proof.Proof.KernelRegion2
import proofs.«130044_j40561671143575_1_alg».proof.Proof.KernelRegion3
import proofs.«130044_j40561671143575_1_alg».proof.Proof.Normal
import proofs.«130044_j40561671143575_1_alg».proof.Proof.KernelHost

set_option maxRecDepth 16384

noncomputable section

namespace Cert.Sage.Stages

open Idealize.ShloMosaic Idealize.ShloMosaic.TcCoe Idealize.ShloMosaic.StableHlo Idealize.SL.Sem
open Idealize.ShloMosaic.Pipeline (Dat)
open Cert.KernelIdeal Cert.KernelIdeal.Gen Cert.Sage.Ref Cert.Sage.Host

/-! ## A region writes its result array and nothing else -/

variable (m : (ℓ : Loc nD τ sig) → Buf (Elt Ideal) ℓ) (ρ : Dev nD → PrngReg) (c : Dev nD)

theorem keeps0 (b : Ref sig .tc) (hb : b ≠ main_v88) : W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((dat0 (V1 m ρ) c).arrAt_in w hin _).trans (A_eq0 (V1 m ρ) c w))
  · exact W2_of_ne m ρ c b fun w e => h ⟨w, e⟩

theorem keeps1 (b : Ref sig .tc) (hb : b ≠ main_v109) : W4 m ρ c (Proc.devRef .tc b) = W3 m ρ c (Proc.devRef .tc b) := by
  by_cases h : ∃ w, Pipeline.arrRef spec1 w = b
  · obtain ⟨w, rfl⟩ := h
    have hin : (cfg1.win w).isOut = false := by
      revert hb; revert w; decide
    exact (W4_arr m ρ c w).trans (((dat1 (V3 m ρ) c).arrAt_in w hin _).trans (A_eq1 (V3 m ρ) c w))
  · exact W4_of_ne m ρ c b fun w e => h ⟨w, e⟩

theorem keeps2 (b : Ref sig .tc) (hb : b ≠ main_v198) : W6 m ρ c (Proc.devRef .tc b) = W5 m ρ c (Proc.devRef .tc b) := by
  by_cases h : ∃ w, Pipeline.arrRef spec2 w = b
  · obtain ⟨w, rfl⟩ := h
    have hin : (cfg2.win w).isOut = false := by
      revert hb; revert w; decide
    exact (W6_arr m ρ c w).trans (((dat2 (V5 m ρ) c).arrAt_in w hin _).trans (A_eq2 (V5 m ρ) c w))
  · exact W6_of_ne m ρ c b fun w e => h ⟨w, e⟩

theorem keeps3 (b : Ref sig .tc) (hb : b ≠ main_v219) : W8 m ρ c (Proc.devRef .tc b) = W7 m ρ c (Proc.devRef .tc b) := by
  by_cases h : ∃ w, Pipeline.arrRef spec3 w = b
  · obtain ⟨w, rfl⟩ := h
    have hin : (cfg3.win w).isOut = false := by
      revert hb; revert w; decide
    exact (W8_arr m ρ c w).trans (((dat3 (V7 m ρ) c).arrAt_in w hin _).trans (A_eq3 (V7 m ρ) c w))
  · exact W8_of_ne m ρ c b fun w e => h ⟨w, e⟩

/-! ## The fold, level by level: each buffer a later segment reads, as a function of the arguments -/

theorem L0_arg0 : W0 m ρ c (Proc.devRef .tc main_arg0) = (m ((c : Thread nD τ).loc main_arg0)) := rfl
theorem L0_arg7 : W0 m ρ c (Proc.devRef .tc main_arg7) = (m ((c : Thread nD τ).loc main_arg7)) := rfl
theorem L0_arg1 : W0 m ρ c (Proc.devRef .tc main_arg1) = (m ((c : Thread nD τ).loc main_arg1)) := rfl
theorem L0_arg2 : W0 m ρ c (Proc.devRef .tc main_arg2) = (m ((c : Thread nD τ).loc main_arg2)) := rfl
theorem L0_arg3 : W0 m ρ c (Proc.devRef .tc main_arg3) = (m ((c : Thread nD τ).loc main_arg3)) := rfl
theorem L0_arg4 : W0 m ρ c (Proc.devRef .tc main_arg4) = (m ((c : Thread nD τ).loc main_arg4)) := rfl
theorem L0_arg5 : W0 m ρ c (Proc.devRef .tc main_arg5) = (m ((c : Thread nD τ).loc main_arg5)) := rfl
theorem L0_arg6 : W0 m ρ c (Proc.devRef .tc main_arg6) = (m ((c : Thread nD τ).loc main_arg6)) := rfl
theorem L0_arg8 : W0 m ρ c (Proc.devRef .tc main_arg8) = (m ((c : Thread nD τ).loc main_arg8)) := rfl
theorem L0_arg9 : W0 m ρ c (Proc.devRef .tc main_arg9) = (m ((c : Thread nD τ).loc main_arg9)) := rfl

/-! ### After segment 1 (host stretch 0) -/

theorem L1_v24 : W1 m ρ c (Proc.devRef .tc main_v24) = meanAgg (m ((c : Thread nD τ).loc main_arg0)) (m ((c : Thread nD τ).loc main_arg7)) :=
  (h0_v24 (W0 m ρ c)).trans (by rw [L0_arg0 m ρ c, L0_arg7 m ρ c])
theorem L1_arg1 : W1 m ρ c (Proc.devRef .tc main_arg1) = (m ((c : Thread nD τ).loc main_arg1)) :=
  (h0_keeps_arg1 (W0 m ρ c)).trans (L0_arg1 m ρ c)
theorem L1_v76 : W1 m ρ c (Proc.devRef .tc main_v76) = wMat00 (m ((c : Thread nD τ).loc main_arg2)) :=
  (h0_v76 (W0 m ρ c)).trans (by rw [L0_arg2 m ρ c])
theorem L1_v79 : W1 m ρ c (Proc.devRef .tc main_v79) = bRow00 (m ((c : Thread nD τ).loc main_arg3)) :=
  (h0_v79 (W0 m ρ c)).trans (by rw [L0_arg3 m ρ c])
theorem L1_v81 : W1 m ρ c (Proc.devRef .tc main_v81) = wMat00 (m ((c : Thread nD τ).loc main_arg4)) :=
  (h0_v81 (W0 m ρ c)).trans (by rw [L0_arg4 m ρ c])
theorem L1_v84 : W1 m ρ c (Proc.devRef .tc main_v84) = pRow01 (m ((c : Thread nD τ).loc main_arg5)) :=
  (h0_v84 (W0 m ρ c)).trans (by rw [L0_arg5 m ρ c])
theorem L1_v87 : W1 m ρ c (Proc.devRef .tc main_v87) = pRow01 (m ((c : Thread nD τ).loc main_arg6)) :=
  (h0_v87 (W0 m ρ c)).trans (by rw [L0_arg6 m ρ c])
theorem L1_arg8 : W1 m ρ c (Proc.devRef .tc main_arg8) = (m ((c : Thread nD τ).loc main_arg8)) :=
  (h0_keeps_arg8 (W0 m ρ c)).trans (L0_arg8 m ρ c)
theorem L1_v49 : W1 m ρ c (Proc.devRef .tc main_v49) = meanAgg (m ((c : Thread nD τ).loc main_arg1)) (m ((c : Thread nD τ).loc main_arg8)) :=
  (h0_v49 (W0 m ρ c)).trans (by rw [L0_arg1 m ρ c, L0_arg8 m ρ c])
theorem L1_v74 : W1 m ρ c (Proc.devRef .tc main_v74) = meanAgg (m ((c : Thread nD τ).loc main_arg0)) (m ((c : Thread nD τ).loc main_arg9)) :=
  (h0_v74 (W0 m ρ c)).trans (by rw [L0_arg0 m ρ c, L0_arg9 m ρ c])
theorem L1_arg0 : W1 m ρ c (Proc.devRef .tc main_arg0) = (m ((c : Thread nD τ).loc main_arg0)) :=
  (h0_keeps_arg0 (W0 m ρ c)).trans (L0_arg0 m ρ c)
theorem L1_arg2 : W1 m ρ c (Proc.devRef .tc main_arg2) = (m ((c : Thread nD τ).loc main_arg2)) :=
  (h0_keeps_arg2 (W0 m ρ c)).trans (L0_arg2 m ρ c)
theorem L1_arg3 : W1 m ρ c (Proc.devRef .tc main_arg3) = (m ((c : Thread nD τ).loc main_arg3)) :=
  (h0_keeps_arg3 (W0 m ρ c)).trans (L0_arg3 m ρ c)
theorem L1_arg4 : W1 m ρ c (Proc.devRef .tc main_arg4) = (m ((c : Thread nD τ).loc main_arg4)) :=
  (h0_keeps_arg4 (W0 m ρ c)).trans (L0_arg4 m ρ c)
theorem L1_arg5 : W1 m ρ c (Proc.devRef .tc main_arg5) = (m ((c : Thread nD τ).loc main_arg5)) :=
  (h0_keeps_arg5 (W0 m ρ c)).trans (L0_arg5 m ρ c)
theorem L1_arg6 : W1 m ρ c (Proc.devRef .tc main_arg6) = (m ((c : Thread nD τ).loc main_arg6)) :=
  (h0_keeps_arg6 (W0 m ρ c)).trans (L0_arg6 m ρ c)
theorem L1_arg9 : W1 m ρ c (Proc.devRef .tc main_arg9) = (m ((c : Thread nD τ).loc main_arg9)) :=
  (h0_keeps_arg9 (W0 m ρ c)).trans (L0_arg9 m ρ c)
theorem L1_arg7 : W1 m ρ c (Proc.devRef .tc main_arg7) = (m ((c : Thread nD τ).loc main_arg7)) :=
  (h0_keeps_arg7 (W0 m ρ c)).trans (L0_arg7 m ρ c)

/-! ### After segment 2 (region 0) -/

theorem L2_v88 : W2 m ρ c (Proc.devRef .tc main_v88) = items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 7).trans ((Region0.final (V1 m ρ) c).trans ?_)
  show Sage.itemUpd (W1 m ρ c (Proc.devRef .tc main_v24)) (W1 m ρ c (Proc.devRef .tc main_arg1)) (W1 m ρ c (Proc.devRef .tc main_v76)) (W1 m ρ c (Proc.devRef .tc main_v79)) (W1 m ρ c (Proc.devRef .tc main_v81)) (W1 m ρ c (Proc.devRef .tc main_v84)) (W1 m ρ c (Proc.devRef .tc main_v87)) = _
  rw [L1_v24 m ρ c, L1_arg1 m ρ c, L1_v76 m ρ c, L1_v79 m ρ c, L1_v81 m ρ c, L1_v84 m ρ c, L1_v87 m ρ c]
  rfl
theorem L2_arg8 : W2 m ρ c (Proc.devRef .tc main_arg8) = (m ((c : Thread nD τ).loc main_arg8)) :=
  (keeps0 m ρ c main_arg8 (by decide)).trans (L1_arg8 m ρ c)
theorem L2_v49 : W2 m ρ c (Proc.devRef .tc main_v49) = meanAgg (m ((c : Thread nD τ).loc main_arg1)) (m ((c : Thread nD τ).loc main_arg8)) :=
  (keeps0 m ρ c main_v49 (by decide)).trans (L1_v49 m ρ c)
theorem L2_v74 : W2 m ρ c (Proc.devRef .tc main_v74) = meanAgg (m ((c : Thread nD τ).loc main_arg0)) (m ((c : Thread nD τ).loc main_arg9)) :=
  (keeps0 m ρ c main_v74 (by decide)).trans (L1_v74 m ρ c)
theorem L2_arg0 : W2 m ρ c (Proc.devRef .tc main_arg0) = (m ((c : Thread nD τ).loc main_arg0)) :=
  (keeps0 m ρ c main_arg0 (by decide)).trans (L1_arg0 m ρ c)
theorem L2_arg2 : W2 m ρ c (Proc.devRef .tc main_arg2) = (m ((c : Thread nD τ).loc main_arg2)) :=
  (keeps0 m ρ c main_arg2 (by decide)).trans (L1_arg2 m ρ c)
theorem L2_arg3 : W2 m ρ c (Proc.devRef .tc main_arg3) = (m ((c : Thread nD τ).loc main_arg3)) :=
  (keeps0 m ρ c main_arg3 (by decide)).trans (L1_arg3 m ρ c)
theorem L2_arg4 : W2 m ρ c (Proc.devRef .tc main_arg4) = (m ((c : Thread nD τ).loc main_arg4)) :=
  (keeps0 m ρ c main_arg4 (by decide)).trans (L1_arg4 m ρ c)
theorem L2_arg5 : W2 m ρ c (Proc.devRef .tc main_arg5) = (m ((c : Thread nD τ).loc main_arg5)) :=
  (keeps0 m ρ c main_arg5 (by decide)).trans (L1_arg5 m ρ c)
theorem L2_arg6 : W2 m ρ c (Proc.devRef .tc main_arg6) = (m ((c : Thread nD τ).loc main_arg6)) :=
  (keeps0 m ρ c main_arg6 (by decide)).trans (L1_arg6 m ρ c)
theorem L2_arg9 : W2 m ρ c (Proc.devRef .tc main_arg9) = (m ((c : Thread nD τ).loc main_arg9)) :=
  (keeps0 m ρ c main_arg9 (by decide)).trans (L1_arg9 m ρ c)
theorem L2_arg7 : W2 m ρ c (Proc.devRef .tc main_arg7) = (m ((c : Thread nD τ).loc main_arg7)) :=
  (keeps0 m ρ c main_arg7 (by decide)).trans (L1_arg7 m ρ c)

/-! ### After segment 3 (host stretch 1) -/

theorem L3_v88 : W3 m ρ c (Proc.devRef .tc main_v88) = items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (h1_keeps_v88 (W2 m ρ c)).trans (L2_v88 m ρ c)
theorem L3_arg8 : W3 m ρ c (Proc.devRef .tc main_arg8) = (m ((c : Thread nD τ).loc main_arg8)) :=
  (h1_keeps_arg8 (W2 m ρ c)).trans (L2_arg8 m ρ c)
theorem L3_v49 : W3 m ρ c (Proc.devRef .tc main_v49) = meanAgg (m ((c : Thread nD τ).loc main_arg1)) (m ((c : Thread nD τ).loc main_arg8)) :=
  (h1_keeps_v49 (W2 m ρ c)).trans (L2_v49 m ρ c)
theorem L3_v74 : W3 m ρ c (Proc.devRef .tc main_v74) = meanAgg (m ((c : Thread nD τ).loc main_arg0)) (m ((c : Thread nD τ).loc main_arg9)) :=
  (h1_keeps_v74 (W2 m ρ c)).trans (L2_v74 m ρ c)
theorem L3_arg0 : W3 m ρ c (Proc.devRef .tc main_arg0) = (m ((c : Thread nD τ).loc main_arg0)) :=
  (h1_keeps_arg0 (W2 m ρ c)).trans (L2_arg0 m ρ c)
theorem L3_v90 : W3 m ρ c (Proc.devRef .tc main_v90) = wMat01 (m ((c : Thread nD τ).loc main_arg2)) :=
  (h1_v90 (W2 m ρ c)).trans (by rw [L2_arg2 m ρ c])
theorem L3_v93 : W3 m ρ c (Proc.devRef .tc main_v93) = bRow01 (m ((c : Thread nD τ).loc main_arg3)) :=
  (h1_v93 (W2 m ρ c)).trans (by rw [L2_arg3 m ρ c])
theorem L3_v95 : W3 m ρ c (Proc.devRef .tc main_v95) = wMat01 (m ((c : Thread nD τ).loc main_arg4)) :=
  (h1_v95 (W2 m ρ c)).trans (by rw [L2_arg4 m ρ c])
theorem L3_v97 : W3 m ρ c (Proc.devRef .tc main_v97) = wMat02 (m ((c : Thread nD τ).loc main_arg2)) :=
  (h1_v97 (W2 m ρ c)).trans (by rw [L2_arg2 m ρ c])
theorem L3_v100 : W3 m ρ c (Proc.devRef .tc main_v100) = bRow02 (m ((c : Thread nD τ).loc main_arg3)) :=
  (h1_v100 (W2 m ρ c)).trans (by rw [L2_arg3 m ρ c])
theorem L3_v102 : W3 m ρ c (Proc.devRef .tc main_v102) = wMat02 (m ((c : Thread nD τ).loc main_arg4)) :=
  (h1_v102 (W2 m ρ c)).trans (by rw [L2_arg4 m ρ c])
theorem L3_v105 : W3 m ρ c (Proc.devRef .tc main_v105) = pRow00 (m ((c : Thread nD τ).loc main_arg5)) :=
  (h1_v105 (W2 m ρ c)).trans (by rw [L2_arg5 m ρ c])
theorem L3_v108 : W3 m ρ c (Proc.devRef .tc main_v108) = pRow00 (m ((c : Thread nD τ).loc main_arg6)) :=
  (h1_v108 (W2 m ρ c)).trans (by rw [L2_arg6 m ρ c])
theorem L3_arg9 : W3 m ρ c (Proc.devRef .tc main_arg9) = (m ((c : Thread nD τ).loc main_arg9)) :=
  (h1_keeps_arg9 (W2 m ρ c)).trans (L2_arg9 m ρ c)
theorem L3_arg2 : W3 m ρ c (Proc.devRef .tc main_arg2) = (m ((c : Thread nD τ).loc main_arg2)) :=
  (h1_keeps_arg2 (W2 m ρ c)).trans (L2_arg2 m ρ c)
theorem L3_arg3 : W3 m ρ c (Proc.devRef .tc main_arg3) = (m ((c : Thread nD τ).loc main_arg3)) :=
  (h1_keeps_arg3 (W2 m ρ c)).trans (L2_arg3 m ρ c)
theorem L3_arg4 : W3 m ρ c (Proc.devRef .tc main_arg4) = (m ((c : Thread nD τ).loc main_arg4)) :=
  (h1_keeps_arg4 (W2 m ρ c)).trans (L2_arg4 m ρ c)
theorem L3_arg5 : W3 m ρ c (Proc.devRef .tc main_arg5) = (m ((c : Thread nD τ).loc main_arg5)) :=
  (h1_keeps_arg5 (W2 m ρ c)).trans (L2_arg5 m ρ c)
theorem L3_arg6 : W3 m ρ c (Proc.devRef .tc main_arg6) = (m ((c : Thread nD τ).loc main_arg6)) :=
  (h1_keeps_arg6 (W2 m ρ c)).trans (L2_arg6 m ρ c)
theorem L3_arg7 : W3 m ρ c (Proc.devRef .tc main_arg7) = (m ((c : Thread nD τ).loc main_arg7)) :=
  (h1_keeps_arg7 (W2 m ρ c)).trans (L2_arg7 m ρ c)

/-! ### After segment 4 (region 1) -/

theorem L4_v88 : W4 m ρ c (Proc.devRef .tc main_v88) = items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keeps1 m ρ c main_v88 (by decide)).trans (L3_v88 m ρ c)
theorem L4_arg8 : W4 m ρ c (Proc.devRef .tc main_arg8) = (m ((c : Thread nD τ).loc main_arg8)) :=
  (keeps1 m ρ c main_arg8 (by decide)).trans (L3_arg8 m ρ c)
theorem L4_v109 : W4 m ρ c (Proc.devRef .tc main_v109) = users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) := by
  refine (W4_arr m ρ c 11).trans ((Region1.final (V3 m ρ) c).trans ?_)
  show Sage.userUpd (W3 m ρ c (Proc.devRef .tc main_v49)) (W3 m ρ c (Proc.devRef .tc main_v74)) (W3 m ρ c (Proc.devRef .tc main_arg0)) (W3 m ρ c (Proc.devRef .tc main_v90)) (W3 m ρ c (Proc.devRef .tc main_v93)) (W3 m ρ c (Proc.devRef .tc main_v95)) (W3 m ρ c (Proc.devRef .tc main_v97)) (W3 m ρ c (Proc.devRef .tc main_v100)) (W3 m ρ c (Proc.devRef .tc main_v102)) (W3 m ρ c (Proc.devRef .tc main_v105)) (W3 m ρ c (Proc.devRef .tc main_v108)) = _
  rw [L3_v49 m ρ c, L3_v74 m ρ c, L3_arg0 m ρ c, L3_v90 m ρ c, L3_v93 m ρ c, L3_v95 m ρ c, L3_v97 m ρ c, L3_v100 m ρ c, L3_v102 m ρ c, L3_v105 m ρ c, L3_v108 m ρ c]
  rfl
theorem L4_arg9 : W4 m ρ c (Proc.devRef .tc main_arg9) = (m ((c : Thread nD τ).loc main_arg9)) :=
  (keeps1 m ρ c main_arg9 (by decide)).trans (L3_arg9 m ρ c)
theorem L4_arg2 : W4 m ρ c (Proc.devRef .tc main_arg2) = (m ((c : Thread nD τ).loc main_arg2)) :=
  (keeps1 m ρ c main_arg2 (by decide)).trans (L3_arg2 m ρ c)
theorem L4_arg3 : W4 m ρ c (Proc.devRef .tc main_arg3) = (m ((c : Thread nD τ).loc main_arg3)) :=
  (keeps1 m ρ c main_arg3 (by decide)).trans (L3_arg3 m ρ c)
theorem L4_arg4 : W4 m ρ c (Proc.devRef .tc main_arg4) = (m ((c : Thread nD τ).loc main_arg4)) :=
  (keeps1 m ρ c main_arg4 (by decide)).trans (L3_arg4 m ρ c)
theorem L4_arg5 : W4 m ρ c (Proc.devRef .tc main_arg5) = (m ((c : Thread nD τ).loc main_arg5)) :=
  (keeps1 m ρ c main_arg5 (by decide)).trans (L3_arg5 m ρ c)
theorem L4_arg6 : W4 m ρ c (Proc.devRef .tc main_arg6) = (m ((c : Thread nD τ).loc main_arg6)) :=
  (keeps1 m ρ c main_arg6 (by decide)).trans (L3_arg6 m ρ c)
theorem L4_arg7 : W4 m ρ c (Proc.devRef .tc main_arg7) = (m ((c : Thread nD τ).loc main_arg7)) :=
  (keeps1 m ρ c main_arg7 (by decide)).trans (L3_arg7 m ρ c)

/-! ### After segment 5 (host stretch 2) -/

theorem L5_v159 : W5 m ρ c (Proc.devRef .tc main_v159) = meanAgg (items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (h2_v159 (W4 m ρ c)).trans (by rw [L4_v88 m ρ c, L4_arg8 m ρ c])
theorem L5_v184 : W5 m ρ c (Proc.devRef .tc main_v184) = meanAgg (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (m ((c : Thread nD τ).loc main_arg9)) :=
  (h2_v184 (W4 m ρ c)).trans (by rw [L4_v109 m ρ c, L4_arg9 m ρ c])
theorem L5_v109 : W5 m ρ c (Proc.devRef .tc main_v109) = users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) :=
  (h2_keeps_v109 (W4 m ρ c)).trans (L4_v109 m ρ c)
theorem L5_arg2 : W5 m ρ c (Proc.devRef .tc main_arg2) = (m ((c : Thread nD τ).loc main_arg2)) :=
  (h2_keeps_arg2 (W4 m ρ c)).trans (L4_arg2 m ρ c)
theorem L5_arg3 : W5 m ρ c (Proc.devRef .tc main_arg3) = (m ((c : Thread nD τ).loc main_arg3)) :=
  (h2_keeps_arg3 (W4 m ρ c)).trans (L4_arg3 m ρ c)
theorem L5_arg4 : W5 m ρ c (Proc.devRef .tc main_arg4) = (m ((c : Thread nD τ).loc main_arg4)) :=
  (h2_keeps_arg4 (W4 m ρ c)).trans (L4_arg4 m ρ c)
theorem L5_arg5 : W5 m ρ c (Proc.devRef .tc main_arg5) = (m ((c : Thread nD τ).loc main_arg5)) :=
  (h2_keeps_arg5 (W4 m ρ c)).trans (L4_arg5 m ρ c)
theorem L5_arg6 : W5 m ρ c (Proc.devRef .tc main_arg6) = (m ((c : Thread nD τ).loc main_arg6)) :=
  (h2_keeps_arg6 (W4 m ρ c)).trans (L4_arg6 m ρ c)
theorem L5_v134 : W5 m ρ c (Proc.devRef .tc main_v134) = meanAgg (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (m ((c : Thread nD τ).loc main_arg7)) :=
  (h2_v134 (W4 m ρ c)).trans (by rw [L4_v109 m ρ c, L4_arg7 m ρ c])
theorem L5_v88 : W5 m ρ c (Proc.devRef .tc main_v88) = items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (h2_keeps_v88 (W4 m ρ c)).trans (L4_v88 m ρ c)
theorem L5_v186 : W5 m ρ c (Proc.devRef .tc main_v186) = wMat10 (m ((c : Thread nD τ).loc main_arg2)) :=
  (h2_v186 (W4 m ρ c)).trans (by rw [L4_arg2 m ρ c])
theorem L5_v189 : W5 m ρ c (Proc.devRef .tc main_v189) = bRow10 (m ((c : Thread nD τ).loc main_arg3)) :=
  (h2_v189 (W4 m ρ c)).trans (by rw [L4_arg3 m ρ c])
theorem L5_v191 : W5 m ρ c (Proc.devRef .tc main_v191) = wMat10 (m ((c : Thread nD τ).loc main_arg4)) :=
  (h2_v191 (W4 m ρ c)).trans (by rw [L4_arg4 m ρ c])
theorem L5_v194 : W5 m ρ c (Proc.devRef .tc main_v194) = pRow11 (m ((c : Thread nD τ).loc main_arg5)) :=
  (h2_v194 (W4 m ρ c)).trans (by rw [L4_arg5 m ρ c])
theorem L5_v197 : W5 m ρ c (Proc.devRef .tc main_v197) = pRow11 (m ((c : Thread nD τ).loc main_arg6)) :=
  (h2_v197 (W4 m ρ c)).trans (by rw [L4_arg6 m ρ c])

/-! ### After segment 6 (region 2) -/

theorem L6_v159 : W6 m ρ c (Proc.devRef .tc main_v159) = meanAgg (items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (keeps2 m ρ c main_v159 (by decide)).trans (L5_v159 m ρ c)
theorem L6_v184 : W6 m ρ c (Proc.devRef .tc main_v184) = meanAgg (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (m ((c : Thread nD τ).loc main_arg9)) :=
  (keeps2 m ρ c main_v184 (by decide)).trans (L5_v184 m ρ c)
theorem L6_v109 : W6 m ρ c (Proc.devRef .tc main_v109) = users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) :=
  (keeps2 m ρ c main_v109 (by decide)).trans (L5_v109 m ρ c)
theorem L6_arg2 : W6 m ρ c (Proc.devRef .tc main_arg2) = (m ((c : Thread nD τ).loc main_arg2)) :=
  (keeps2 m ρ c main_arg2 (by decide)).trans (L5_arg2 m ρ c)
theorem L6_arg3 : W6 m ρ c (Proc.devRef .tc main_arg3) = (m ((c : Thread nD τ).loc main_arg3)) :=
  (keeps2 m ρ c main_arg3 (by decide)).trans (L5_arg3 m ρ c)
theorem L6_arg4 : W6 m ρ c (Proc.devRef .tc main_arg4) = (m ((c : Thread nD τ).loc main_arg4)) :=
  (keeps2 m ρ c main_arg4 (by decide)).trans (L5_arg4 m ρ c)
theorem L6_arg5 : W6 m ρ c (Proc.devRef .tc main_arg5) = (m ((c : Thread nD τ).loc main_arg5)) :=
  (keeps2 m ρ c main_arg5 (by decide)).trans (L5_arg5 m ρ c)
theorem L6_arg6 : W6 m ρ c (Proc.devRef .tc main_arg6) = (m ((c : Thread nD τ).loc main_arg6)) :=
  (keeps2 m ρ c main_arg6 (by decide)).trans (L5_arg6 m ρ c)
theorem L6_v198 : W6 m ρ c (Proc.devRef .tc main_v198) = items1 (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 7).trans ((Region2.final (V5 m ρ) c).trans ?_)
  show Sage.itemUpd (W5 m ρ c (Proc.devRef .tc main_v134)) (W5 m ρ c (Proc.devRef .tc main_v88)) (W5 m ρ c (Proc.devRef .tc main_v186)) (W5 m ρ c (Proc.devRef .tc main_v189)) (W5 m ρ c (Proc.devRef .tc main_v191)) (W5 m ρ c (Proc.devRef .tc main_v194)) (W5 m ρ c (Proc.devRef .tc main_v197)) = _
  rw [L5_v134 m ρ c, L5_v88 m ρ c, L5_v186 m ρ c, L5_v189 m ρ c, L5_v191 m ρ c, L5_v194 m ρ c, L5_v197 m ρ c]
  rfl

/-! ### After segment 7 (host stretch 3) -/

theorem L7_v159 : W7 m ρ c (Proc.devRef .tc main_v159) = meanAgg (items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (h3_keeps_v159 (W6 m ρ c)).trans (L6_v159 m ρ c)
theorem L7_v184 : W7 m ρ c (Proc.devRef .tc main_v184) = meanAgg (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (m ((c : Thread nD τ).loc main_arg9)) :=
  (h3_keeps_v184 (W6 m ρ c)).trans (L6_v184 m ρ c)
theorem L7_v109 : W7 m ρ c (Proc.devRef .tc main_v109) = users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) :=
  (h3_keeps_v109 (W6 m ρ c)).trans (L6_v109 m ρ c)
theorem L7_v200 : W7 m ρ c (Proc.devRef .tc main_v200) = wMat11 (m ((c : Thread nD τ).loc main_arg2)) :=
  (h3_v200 (W6 m ρ c)).trans (by rw [L6_arg2 m ρ c])
theorem L7_v203 : W7 m ρ c (Proc.devRef .tc main_v203) = bRow11 (m ((c : Thread nD τ).loc main_arg3)) :=
  (h3_v203 (W6 m ρ c)).trans (by rw [L6_arg3 m ρ c])
theorem L7_v205 : W7 m ρ c (Proc.devRef .tc main_v205) = wMat11 (m ((c : Thread nD τ).loc main_arg4)) :=
  (h3_v205 (W6 m ρ c)).trans (by rw [L6_arg4 m ρ c])
theorem L7_v207 : W7 m ρ c (Proc.devRef .tc main_v207) = wMat12 (m ((c : Thread nD τ).loc main_arg2)) :=
  (h3_v207 (W6 m ρ c)).trans (by rw [L6_arg2 m ρ c])
theorem L7_v210 : W7 m ρ c (Proc.devRef .tc main_v210) = bRow12 (m ((c : Thread nD τ).loc main_arg3)) :=
  (h3_v210 (W6 m ρ c)).trans (by rw [L6_arg3 m ρ c])
theorem L7_v212 : W7 m ρ c (Proc.devRef .tc main_v212) = wMat12 (m ((c : Thread nD τ).loc main_arg4)) :=
  (h3_v212 (W6 m ρ c)).trans (by rw [L6_arg4 m ρ c])
theorem L7_v215 : W7 m ρ c (Proc.devRef .tc main_v215) = pRow10 (m ((c : Thread nD τ).loc main_arg5)) :=
  (h3_v215 (W6 m ρ c)).trans (by rw [L6_arg5 m ρ c])
theorem L7_v218 : W7 m ρ c (Proc.devRef .tc main_v218) = pRow10 (m ((c : Thread nD τ).loc main_arg6)) :=
  (h3_v218 (W6 m ρ c)).trans (by rw [L6_arg6 m ρ c])
theorem L7_v198 : W7 m ρ c (Proc.devRef .tc main_v198) = items1 (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (h3_keeps_v198 (W6 m ρ c)).trans (L6_v198 m ρ c)

/-! ### After segment 8 (region 3) -/

theorem L8_v219 : W8 m ρ c (Proc.devRef .tc main_v219) = users1 (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) := by
  refine (W8_arr m ρ c 11).trans ((Region3.final (V7 m ρ) c).trans ?_)
  show Sage.userUpd (W7 m ρ c (Proc.devRef .tc main_v159)) (W7 m ρ c (Proc.devRef .tc main_v184)) (W7 m ρ c (Proc.devRef .tc main_v109)) (W7 m ρ c (Proc.devRef .tc main_v200)) (W7 m ρ c (Proc.devRef .tc main_v203)) (W7 m ρ c (Proc.devRef .tc main_v205)) (W7 m ρ c (Proc.devRef .tc main_v207)) (W7 m ρ c (Proc.devRef .tc main_v210)) (W7 m ρ c (Proc.devRef .tc main_v212)) (W7 m ρ c (Proc.devRef .tc main_v215)) (W7 m ρ c (Proc.devRef .tc main_v218)) = _
  rw [L7_v159 m ρ c, L7_v184 m ρ c, L7_v109 m ρ c, L7_v200 m ρ c, L7_v203 m ρ c, L7_v205 m ρ c, L7_v207 m ρ c, L7_v210 m ρ c, L7_v212 m ρ c, L7_v215 m ρ c, L7_v218 m ρ c]
  rfl
theorem L8_v198 : W8 m ρ c (Proc.devRef .tc main_v198) = items1 (users0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) (items0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keeps3 m ρ c main_v198 (by decide)).trans (L7_v198 m ρ c)

/-! ## The two results -/

/-- The second layer's user rows, as the run leaves them. -/
theorem users_eq : V8 m ρ c main_v219 = resUsers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := L8_v219 m ρ c

/-- The second layer's item rows, as the run leaves them. -/
theorem items_eq : V8 m ρ c main_v198 = resItems (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := L8_v198 m ρ c

end Cert.Sage.Stages

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.RefOps.lean ====
/-
  The reference's whole-array operations, read at an entry.

  The reference computes on whole [100000, 256] arrays. A linear map is a contraction of the array's feature axis with the
  rows of the TRANSPOSED weight matrix, so an entry of it is the row of the array against a row of the weight:
  (x · Wᵀ)(r, q) = ∑ k, x (r, k) · W (q, k). A [1, 256] parameter row is broadcast down the rows. A row statistic is the
  sum over the 256 features of one row, laid as a [100000, 1] column, divided by a splat of the word for 256 and broadcast
  back along the features. Layer normalisation of an array is, at the entry (r, q), the layer normalisation of row r at
  feature q, and the rectifier is the maximum with a splat of the zero word. So the reference's item step and user step
  are, entry by entry, the item update and the user update of the rows.
-/
import proofs.«130044_j40561671143575_1_alg».proof.ReferenceIdeal
import proofs.«130044_j40561671143575_1_alg».proof.Proof.Gen.ReferenceIdeal
import proofs.«130044_j40561671143575_1_alg».proof.Proof.Spec
import proofs.«130044_j40561671143575_1_alg».proof.Proof.LibDotSum
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Ref

open Idealize.ShloMosaic Idealize.ShloMosaic.ValueIdx Cert.ReferenceIdeal
open Cert.ReferenceIdeal.Facts₀

/-! ## The reference's operations, in its own vocabulary -/

/-- An array through a linear map: the contraction of its features with the rows of the transposed weight. -/
def linT (x : FVec Ideal S100000x256 .f32) (W : FVec Ideal S256x256 .f32) : FVec Ideal S100000x256 .f32 :=
  Host.dotGeneral dot_S100000x256_S256x256_S100000x256_1_0_0_1_n_n none x (transpose S256x256 [1, 0] W transposes_S256x256_S256x256_1_0)

/-- A [1, 256] parameter row broadcast down the rows. -/
def rowB (v : FVec Ideal S1x256 .f32) : FVec Ideal S100000x256 .f32 := broadcastInDim S100000x256 ![0, 1] bcast_S1x256_S100000x256_0_1 v

/-- One SAGE convolution of every row. -/
def conv (mean x : FVec Ideal S100000x256 .f32) (Wl : FVec Ideal S256x256 .f32) (bl : FVec Ideal S1x256 .f32) (Wr : FVec Ideal S256x256 .f32) : FVec Ideal S100000x256 .f32 :=
  addf (addf (linT mean Wl) (rowB bl)) (linT x Wr)

/-- The sum of every row over its features. -/
def rowSum (M : FVec Ideal S100000x256 .f32) : FVec Ideal S100000 .f32 := Host.reduceAdd M (constant S_ .f32 0x00000000#32) reducesTo_S100000x256_S100000_d1 h_S_

/-- A vector of row statistics laid as a column. -/
def colOf (s : FVec Ideal S100000 .f32) : FVec Ideal S100000x1 .f32 := broadcastInDim S100000x1 ![0] bcast_S100000_S100000x1_0 s

/-- A column holding one word everywhere. -/
def splat1 (w : BitVec 32) : FVec Ideal S100000x1 .f32 := broadcastInDim S100000x1 ![] bcast_S_S100000x1 (constant S_ .f32 w)

/-- The column of row means: the row sums divided by the word for 256. -/
def meanCol (M : FVec Ideal S100000x256 .f32) : FVec Ideal S100000x1 .f32 := Host.divf (colOf (rowSum M)) (splat1 0x43800000#32)

/-- A column broadcast back along the features. -/
def spread (c : FVec Ideal S100000x1 .f32) : FVec Ideal S100000x256 .f32 := broadcastInDim S100000x256 ![0, 1] bcast_S100000x1_S100000x256_0_1 c

/-- Every row minus its mean. -/
def cen (M : FVec Ideal S100000x256 .f32) : FVec Ideal S100000x256 .f32 := subf M (spread (meanCol M))

/-- Layer normalisation of every row with a scale row and a shift row, then the rectifier. -/
def lnRelu (M : FVec Ideal S100000x256 .f32) (g b : FVec Ideal S1x256 .f32) : FVec Ideal S100000x256 .f32 :=
  maximumf (addf (mulf (mulf (cen M) (spread (Host.rsqrt (addf (meanCol (mulf (cen M) (cen M))) (splat1 0x3727C5AC#32))))) (rowB g)) (rowB b))
    (broadcastInDim S100000x256 ![] bcast_S_S100000x256 (constant S_ .f32 0x00000000#32))

/-! ## The layout operations at an entry -/

/-- A parameter row broadcast down the rows reads, at (r, q), the row at q. -/
theorem rowB_apply (v : FVec Ideal S1x256 .f32) (r : Fin 100000) (q : Fin 256) : rowB v (ix2 r q) = Sage.vec v q := by
  unfold rowB
  exact broadcastInDim_apply _ bcast_S1x256_S100000x256_0_1 v (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])

/-- A column broadcast along the features reads, at (r, q), the column at r. -/
theorem spread_apply (c : FVec Ideal S100000x1 .f32) (r : Fin 100000) (q : Fin 256) : spread c (ix2 r q) = c (ix2 r (0 : Fin 1)) := by
  unfold spread
  exact broadcastInDim_apply _ bcast_S100000x1_S100000x256_0_1 c (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A vector laid as a column reads, at (r, u), the vector at r. -/
theorem colOf_apply (s : FVec Ideal S100000 .f32) (r : Fin 100000) (u : Fin 1) : colOf s (ix2 r u) = s (ix1 r) := by
  unfold colOf
  exact broadcastInDim_apply _ bcast_S100000_S100000x1_0 s (ix2 r u) (ix1 r) (fun a => match a with
    | ⟨0, _⟩ => by show r.val = if (100000 : Nat) = 1 then 0 else r.val; rw [if_neg (by decide)])

/-- A column holding one word reads that word's value everywhere. -/
theorem splat1_apply (w : BitVec 32) (i : S100000x1.Idx) : splat1 w i = Ideal.ofBits .f32 w := by
  unfold splat1
  exact broadcastInDim_apply _ bcast_S_S100000x1 (constant (F := Ideal) S_ .f32 w) i ix0 (fun a => a.elim0)

/-- The array holding the zero word reads that word's value everywhere. -/
theorem zeroSplat_apply (i : S100000x256.Idx) :
    broadcastInDim S100000x256 ![] bcast_S_S100000x256 (constant (F := Ideal) S_ .f32 0x00000000#32) i = Ideal.ofBits .f32 0x00000000#32 :=
  broadcastInDim_apply _ bcast_S_S100000x256 (constant (F := Ideal) S_ .f32 0x00000000#32) i ix0 (fun a => a.elim0)

/-- The transposed weight reads, at (k, q), the weight at (q, k). -/
theorem transT_apply (W : FVec Ideal S256x256 .f32) (k q : Fin 256) :
    transpose S256x256 [1, 0] W transposes_S256x256_S256x256_1_0 (ix2 k q) = W (ix2 q k) :=
  transpose_ix2_apply W transposes_S256x256_S256x256_1_0 k q

/-- The reciprocal square root of an array at an entry. -/
theorem rsqrtH_apply {s : Shape} (v : FVec Ideal s .f32) (i : s.Idx) : Host.rsqrt v i = Ideal.rsqrt (v i) := rfl

/-! ## A linear map and a convolution at an entry -/

/-- An entry of x · Wᵀ: row r of x against row q of W. -/
theorem linT_apply (x : FVec Ideal S100000x256 .f32) (W : FVec Ideal S256x256 .f32) (r : Fin 100000) (q : Fin 256) :
    linT x W (ix2 r q) = Sage.lin (Sage.row x r) (Sage.mat W) q := by
  unfold linT
  refine (Ideal.dotGeneral_apply dot_S100000x256_S256x256_S100000x256_1_0_0_1_n_n none .single x
    (transpose S256x256 [1, 0] W transposes_S256x256_S256x256_1_0) (ix2 r q)).trans ?_
  refine (Cert.Lib.DotSum.dot_sum dot_S100000x256_S256x256_S100000x256_1_0_0_1_n_n rfl rfl rfl rfl rfl rfl x
    (transpose S256x256 [1, 0] W transposes_S256x256_S256x256_1_0) (ix2 r q)).trans ?_
  show _ = ∑ k : Fin 256, x (ix2 r k) * W (ix2 q k)
  refine Finset.sum_congr rfl fun kk _ => ?_
  exact congrArg (x (ix2 r kk) * ·) (transT_apply W kk q)

/-- An entry of a convolution: the convolution of the rows. -/
theorem conv_apply (mean x : FVec Ideal S100000x256 .f32) (Wl : FVec Ideal S256x256 .f32) (bl : FVec Ideal S1x256 .f32)
    (Wr : FVec Ideal S256x256 .f32) (r : Fin 100000) (q : Fin 256) :
    conv mean x Wl bl Wr (ix2 r q)
      = Sage.sageRow (Sage.row mean r) (Sage.row x r) (Sage.mat Wl) (Sage.vec bl) (Sage.mat Wr) q := by
  show linT mean Wl (ix2 r q) + rowB bl (ix2 r q) + linT x Wr (ix2 r q) = _
  rw [linT_apply, rowB_apply, linT_apply]
  rfl

/-! ## Row statistics at an entry -/

/-- The sum over the features of row r. -/
theorem rowSum_apply (M : FVec Ideal S100000x256 .f32) (r : Fin 100000) : rowSum M (ix1 r) = ∑ k : Fin 256, M (ix2 r k) := by
  unfold rowSum
  simp only [Host.reduceAdd, Ideal.hostReduceAdd_def]
  rw [Ideal.hostReduceAdd_single reducesTo_S100000x256_S100000_d1 (by decide)]
  show Ideal.ofBits .f32 0x00000000#32 + _ = _
  rw [Ideal.ofBits_zero_f32, zero_add]
  refine Finset.sum_congr rfl fun k _ => congrArg M (funext fun a => Fin.ext ?_)
  match a with
  | ⟨0, _⟩ => rfl
  | ⟨1, _⟩ => rfl

/-- The column of row means reads, at row r, the mean of row r. -/
theorem meanCol_apply (M : FVec Ideal S100000x256 .f32) (r : Fin 100000) (u : Fin 1) :
    meanCol M (ix2 r u) = Sage.mean256 (fun j => M (ix2 r j)) := by
  show Ideal.div (colOf (rowSum M) (ix2 r u)) (splat1 0x43800000#32 (ix2 r u)) = _
  rw [colOf_apply, splat1_apply, rowSum_apply]
  rfl

/-- The centred array reads, at (r, q), row r centred at q. -/
theorem cen_apply (M : FVec Ideal S100000x256 .f32) (r : Fin 100000) (q : Fin 256) :
    cen M (ix2 r q) = Sage.centred (fun j => M (ix2 r j)) q := by
  show M (ix2 r q) - spread (meanCol M) (ix2 r q) = _
  rw [spread_apply, meanCol_apply]
  rfl

/-! ## Layer normalisation and the rectifier at an entry -/

/-- The normalised, scaled, shifted and rectified array reads, at (r, q), the layer normalisation of row r at q. -/
theorem lnRelu_apply (M : FVec Ideal S100000x256 .f32) (g b : FVec Ideal S1x256 .f32) (r : Fin 100000) (q : Fin 256) :
    lnRelu M g b (ix2 r q) = Sage.lnRelu (fun j => M (ix2 r j)) (Sage.vec g) (Sage.vec b) q := by
  simp only [lnRelu, maximumf_apply, addf_apply, mulf_apply, spread_apply, rowB_apply, rsqrtH_apply, cen_apply, meanCol_apply,
    splat1_apply, Sage.lnRelu]
  exact congrArg (max _) (zeroSplat_apply (ix2 r q))

/-! ## The item step and the user step are the row updates -/

/-- The item step: one convolution, normalised and rectified, is the item update of every row. -/
theorem item_eq (mean x : FVec Ideal S100000x256 .f32) (Wl : FVec Ideal S256x256 .f32) (bl : FVec Ideal S1x256 .f32)
    (Wr : FVec Ideal S256x256 .f32) (g b : FVec Ideal S1x256 .f32) :
    lnRelu (conv mean x Wl bl Wr) g b = Sage.itemUpd mean x Wl bl Wr g b := by
  funext i
  obtain ⟨r, q, rfl⟩ : ∃ (r : Fin 100000) (q : Fin 256), i = ix2 r q := ⟨i 0, i 1, eq_ix2 i⟩
  rw [Sage.itemUpd_ix2, lnRelu_apply]
  unfold Sage.itemRow
  exact congrArg (fun m => Sage.lnRelu m (Sage.vec g) (Sage.vec b) q) (funext fun j => conv_apply mean x Wl bl Wr r j)

/-- The user step: the sum of two convolutions of the same rows, normalised and rectified, is the user update of every row. -/
theorem user_eq (m₁ m₂ x : FVec Ideal S100000x256 .f32) (Wl₁ : FVec Ideal S256x256 .f32) (bl₁ : FVec Ideal S1x256 .f32)
    (Wr₁ : FVec Ideal S256x256 .f32) (Wl₂ : FVec Ideal S256x256 .f32) (bl₂ : FVec Ideal S1x256 .f32) (Wr₂ : FVec Ideal S256x256 .f32)
    (g b : FVec Ideal S1x256 .f32) :
    lnRelu (addf (conv m₁ x Wl₁ bl₁ Wr₁) (conv m₂ x Wl₂ bl₂ Wr₂)) g b = Sage.userUpd m₁ m₂ x Wl₁ bl₁ Wr₁ Wl₂ bl₂ Wr₂ g b := by
  funext i
  obtain ⟨r, q, rfl⟩ : ∃ (r : Fin 100000) (q : Fin 256), i = ix2 r q := ⟨i 0, i 1, eq_ix2 i⟩
  rw [Sage.userUpd_ix2, lnRelu_apply]
  unfold Sage.userRow
  refine congrArg (fun m => Sage.lnRelu m (Sage.vec g) (Sage.vec b) q) (funext fun j => ?_)
  show conv m₁ x Wl₁ bl₁ Wr₁ (ix2 r j) + conv m₂ x Wl₂ bl₂ Wr₂ (ix2 r j) = _
  rw [conv_apply, conv_apply]

end Cert.Sage.Ref

end
-- ==== Proof.RefRun.lean ====
/-
  The reference's run, read back.

  The reference is a straight line of 416 host operations. Read at its two results in one piece, the line's term repeats
  every shared intermediate array once per use; so the line is cut at its MATHEMATICAL boundaries, after each convolution
  and after each normalisation, into ten stretches (the module this one imports states them, and that the seven windows
  one after the other are the ten stretches one after the other). Each stretch writes one array that later stretches read, as a function
  of what the buffers it reads hold before it: a convolution of a neighbourhood mean and a row array, the sum of two
  convolutions, or a layer normalisation with the rectifier. Every other buffer a later stretch reads, the ten arguments
  among them, is kept by the stretches that do not write it. Composed, the two results are functions of the ten arguments
  only: two layers, each the item update of the users' mean and the user update of the items' and the users' means, both
  from the rows of the layer before. Every weakly fair execution of the reference ends with its two result buffers at
  these functions of the arguments' launch contents and with the arguments as they were.
-/
import proofs.«130044_j40561671143575_1_alg».proof.Proof.RefStretches
import proofs.«130044_j40561671143575_1_alg».proof.Proof.RefOps
import proofs.«130044_j40561671143575_1_alg».proof.Proof.RefLeaves
import proofs.«130044_j40561671143575_1_alg».proof.Proof.Normal
import proofs.«130044_j40561671143575_1_alg».proof.Proof.LibStages
import Idealize.ShloMosaic.Lib.StableHlo.Run

noncomputable section

namespace Cert.Sage.RefRun

open Cert.ReferenceIdeal Cert.ReferenceIdeal.Gen Cert.ReferenceIdeal.Windows Idealize.ShloMosaic Idealize.ShloMosaic.TcCoe Idealize.SL.Sem
  Idealize.ShloMosaic.StableHlo Cert.LibStages

/-! ## What each stretch writes, from an arbitrary valuation

  The buffer read is kept out of the rewriting index (a device buffer is spelt through reducible projections of its
  reference), so that these equations rewrite when composed. -/

/-- Stretch 1 writes the item convolution of layer 0 (users to items). -/
theorem read1 (W : Valuation τ sig (Elt Ideal)) :
    after (s1 (F := Ideal)) W (no_index (Proc.devRef .tc main_v38))
      = Ref.conv (Ref.meanAgg (W (Proc.devRef .tc main_arg0)) (W (Proc.devRef .tc main_arg7))) (W (Proc.devRef .tc main_arg1)) (Ref.wMat00 (W (Proc.devRef .tc main_arg2))) (Ref.bRow00 (W (Proc.devRef .tc main_arg3))) (Ref.wMat00 (W (Proc.devRef .tc main_arg4))) := by
  reads_stretch [s1]

/-- Stretch 2 writes layer 0, items to users. -/
theorem read2 (W : Valuation τ sig (Elt Ideal)) :
    after (s2 (F := Ideal)) W (no_index (Proc.devRef .tc main_v77))
      = Ref.conv (Ref.meanAgg (W (Proc.devRef .tc main_arg1)) (W (Proc.devRef .tc main_arg8))) (W (Proc.devRef .tc main_arg0)) (Ref.wMat01 (W (Proc.devRef .tc main_arg2))) (Ref.bRow01 (W (Proc.devRef .tc main_arg3))) (Ref.wMat01 (W (Proc.devRef .tc main_arg4))) := by
  reads_stretch [s2]

/-- Stretch 3 writes layer 0, users to users, and the sum of the two user convolutions. -/
theorem read3 (W : Valuation τ sig (Elt Ideal)) :
    after (s3 (F := Ideal)) W (no_index (Proc.devRef .tc main_v117))
      = addf (F := Ideal) (s := S100000x256) (φ := .f32) (W (Proc.devRef .tc main_v77)) (Ref.conv (Ref.meanAgg (W (Proc.devRef .tc main_arg0)) (W (Proc.devRef .tc main_arg9))) (W (Proc.devRef .tc main_arg0)) (Ref.wMat02 (W (Proc.devRef .tc main_arg2))) (Ref.bRow02 (W (Proc.devRef .tc main_arg3))) (Ref.wMat02 (W (Proc.devRef .tc main_arg4)))) := by
  reads_stretch [s3]

/-- Stretch 4 writes layer 0's user rows. -/
theorem read4 (W : Valuation τ sig (Elt Ideal)) :
    after (s4 (F := Ideal)) W (no_index (Proc.devRef .tc main_v146))
      = Ref.lnRelu (W (Proc.devRef .tc main_v117)) (Ref.pRow00 (W (Proc.devRef .tc main_arg5))) (Ref.pRow00 (W (Proc.devRef .tc main_arg6))) := by
  reads_stretch [s4]

/-- Stretch 5 writes layer 0's item rows. -/
theorem read5 (W : Valuation τ sig (Elt Ideal)) :
    after (s5 (F := Ideal)) W (no_index (Proc.devRef .tc main_v175))
      = Ref.lnRelu (W (Proc.devRef .tc main_v38)) (Ref.pRow01 (W (Proc.devRef .tc main_arg5))) (Ref.pRow01 (W (Proc.devRef .tc main_arg6))) := by
  reads_stretch [s5]

/-- Stretch 6 writes the item convolution of layer 1. -/
theorem read6 (W : Valuation τ sig (Elt Ideal)) :
    after (s6 (F := Ideal)) W (no_index (Proc.devRef .tc main_v214))
      = Ref.conv (Ref.meanAgg (W (Proc.devRef .tc main_v146)) (W (Proc.devRef .tc main_arg7))) (W (Proc.devRef .tc main_v175)) (Ref.wMat10 (W (Proc.devRef .tc main_arg2))) (Ref.bRow10 (W (Proc.devRef .tc main_arg3))) (Ref.wMat10 (W (Proc.devRef .tc main_arg4))) := by
  reads_stretch [s6]

/-- Stretch 7 writes layer 1, items to users. -/
theorem read7 (W : Valuation τ sig (Elt Ideal)) :
    after (s7 (F := Ideal)) W (no_index (Proc.devRef .tc main_v253))
      = Ref.conv (Ref.meanAgg (W (Proc.devRef .tc main_v175)) (W (Proc.devRef .tc main_arg8))) (W (Proc.devRef .tc main_v146)) (Ref.wMat11 (W (Proc.devRef .tc main_arg2))) (Ref.bRow11 (W (Proc.devRef .tc main_arg3))) (Ref.wMat11 (W (Proc.devRef .tc main_arg4))) := by
  reads_stretch [s7]

/-- Stretch 8 writes layer 1, users to users, and the sum. -/
theorem read8 (W : Valuation τ sig (Elt Ideal)) :
    after (s8 (F := Ideal)) W (no_index (Proc.devRef .tc main_v293))
      = addf (F := Ideal) (s := S100000x256) (φ := .f32) (W (Proc.devRef .tc main_v253)) (Ref.conv (Ref.meanAgg (W (Proc.devRef .tc main_v146)) (W (Proc.devRef .tc main_arg9))) (W (Proc.devRef .tc main_v146)) (Ref.wMat12 (W (Proc.devRef .tc main_arg2))) (Ref.bRow12 (W (Proc.devRef .tc main_arg3))) (Ref.wMat12 (W (Proc.devRef .tc main_arg4)))) := by
  reads_stretch [s8]

/-- Stretch 9 writes RESULT 0: layer 1's user rows. -/
theorem read9 (W : Valuation τ sig (Elt Ideal)) :
    after (s9 (F := Ideal)) W (no_index (Proc.devRef .tc main_v322))
      = Ref.lnRelu (W (Proc.devRef .tc main_v293)) (Ref.pRow10 (W (Proc.devRef .tc main_arg5))) (Ref.pRow10 (W (Proc.devRef .tc main_arg6))) := by
  reads_stretch [s9]

/-- Stretch 10 writes RESULT 1: layer 1's item rows. -/
theorem read10 (W : Valuation τ sig (Elt Ideal)) :
    after (s10 (F := Ideal)) W (no_index (Proc.devRef .tc main_v351))
      = Ref.lnRelu (W (Proc.devRef .tc main_v214)) (Ref.pRow11 (W (Proc.devRef .tc main_arg5))) (Ref.pRow11 (W (Proc.devRef .tc main_arg6))) := by
  reads_stretch [s10]

/-! ## What each stretch keeps: the ten arguments, and the arrays later stretches still read -/

theorem keep1_arg0 (W : Valuation τ sig (Elt Ideal)) : after (s1 (F := Ideal)) W (no_index (Proc.devRef .tc main_arg0)) = W (Proc.devRef .tc main_arg0) := by
  keeps_stretch [s1]
theorem keep1_arg1 (W : Valuation τ sig (Elt Ideal)) : after (s1 (F := Ideal)) W (no_index (Proc.devRef .tc main_arg1)) = W (Proc.devRef .tc main_arg1) := by
  keeps_stretch [s1]
theorem keep1_arg2 (W : Valuation τ sig (Elt Ideal)) : after (s1 (F := Ideal)) W (no_index (Proc.devRef .tc main_arg2)) = W (Proc.devRef .tc main_arg2) := by
  keeps_stretch [s1]
theorem keep1_arg3 (W : Valuation τ sig (Elt Ideal)) : after (s1 (F := Ideal)) W (no_index (Proc.devRef .tc main_arg3)) = W (Proc.devRef .tc main_arg3) := by
  keeps_stretch [s1]
theorem keep1_arg4 (W : Valuation τ sig (Elt Ideal)) : after (s1 (F := Ideal)) W (no_index (Proc.devRef .tc main_arg4)) = W (Proc.devRef .tc main_arg4) := by
  keeps_stretch [s1]
theorem keep1_arg5 (W : Valuation τ sig (Elt Ideal)) : after (s1 (F := Ideal)) W (no_index (Proc.devRef .tc main_arg5)) = W (Proc.devRef .tc main_arg5) := by
  keeps_stretch [s1]
theorem keep1_arg6 (W : Valuation τ sig (Elt Ideal)) : after (s1 (F := Ideal)) W (no_index (Proc.devRef .tc main_arg6)) = W (Proc.devRef .tc main_arg6) := by
  keeps_stretch [s1]
theorem keep1_arg7 (W : Valuation τ sig (Elt Ideal)) : after (s1 (F := Ideal)) W (no_index (Proc.devRef .tc main_arg7)) = W (Proc.devRef .tc main_arg7) := by
  keeps_stretch [s1]
theorem keep1_arg8 (W : Valuation τ sig (Elt Ideal)) : after (s1 (F := Ideal)) W (no_index (Proc.devRef .tc main_arg8)) = W (Proc.devRef .tc main_arg8) := by
  keeps_stretch [s1]
theorem keep1_arg9 (W : Valuation τ sig (Elt Ideal)) : after (s1 (F := Ideal)) W (no_index (Proc.devRef .tc main_arg9)) = W (Proc.devRef .tc main_arg9) := by
  keeps_stretch [s1]
theorem keep2_arg0 (W : Valuation τ sig (Elt Ideal)) : after (s2 (F := Ideal)) W (no_index (Proc.devRef .tc main_arg0)) = W (Proc.devRef .tc main_arg0) := by
  keeps_stretch [s2]
theorem keep2_arg1 (W : Valuation τ sig (Elt Ideal)) : after (s2 (F := Ideal)) W (no_index (Proc.devRef .tc main_arg1)) = W (Proc.devRef .tc main_arg1) := by
  keeps_stretch [s2]
theorem keep2_arg2 (W : Valuation τ sig (Elt Ideal)) : after (s2 (F := Ideal)) W (no_index (Proc.devRef .tc main_arg2)) = W (Proc.devRef .tc main_arg2) := by
  keeps_stretch [s2]
theorem keep2_arg3 (W : Valuation τ sig (Elt Ideal)) : after (s2 (F := Ideal)) W (no_index (Proc.devRef .tc main_arg3)) = W (Proc.devRef .tc main_arg3) := by
  keeps_stretch [s2]
theorem keep2_arg4 (W : Valuation τ sig (Elt Ideal)) : after (s2 (F := Ideal)) W (no_index (Proc.devRef .tc main_arg4)) = W (Proc.devRef .tc main_arg4) := by
  keeps_stretch [s2]
theorem keep2_arg5 (W : Valuation τ sig (Elt Ideal)) : after (s2 (F := Ideal)) W (no_index (Proc.devRef .tc main_arg5)) = W (Proc.devRef .tc main_arg5) := by
  keeps_stretch [s2]
theorem keep2_arg6 (W : Valuation τ sig (Elt Ideal)) : after (s2 (F := Ideal)) W (no_index (Proc.devRef .tc main_arg6)) = W (Proc.devRef .tc main_arg6) := by
  keeps_stretch [s2]
theorem keep2_arg7 (W : Valuation τ sig (Elt Ideal)) : after (s2 (F := Ideal)) W (no_index (Proc.devRef .tc main_arg7)) = W (Proc.devRef .tc main_arg7) := by
  keeps_stretch [s2]
theorem keep2_arg8 (W : Valuation τ sig (Elt Ideal)) : after (s2 (F := Ideal)) W (no_index (Proc.devRef .tc main_arg8)) = W (Proc.devRef .tc main_arg8) := by
  keeps_stretch [s2]
theorem keep2_arg9 (W : Valuation τ sig (Elt Ideal)) : after (s2 (F := Ideal)) W (no_index (Proc.devRef .tc main_arg9)) = W (Proc.devRef .tc main_arg9) := by
  keeps_stretch [s2]
theorem keep2_v38 (W : Valuation τ sig (Elt Ideal)) : after (s2 (F := Ideal)) W (no_index (Proc.devRef .tc main_v38)) = W (Proc.devRef .tc main_v38) := by
  keeps_stretch [s2]
theorem keep3_arg0 (W : Valuation τ sig (Elt Ideal)) : after (s3 (F := Ideal)) W (no_index (Proc.devRef .tc main_arg0)) = W (Proc.devRef .tc main_arg0) := by
  keeps_stretch [s3]
theorem keep3_arg1 (W : Valuation τ sig (Elt Ideal)) : after (s3 (F := Ideal)) W (no_index (Proc.devRef .tc main_arg1)) = W (Proc.devRef .tc main_arg1) := by
  keeps_stretch [s3]
theorem keep3_arg2 (W : Valuation τ sig (Elt Ideal)) : after (s3 (F := Ideal)) W (no_index (Proc.devRef .tc main_arg2)) = W (Proc.devRef .tc main_arg2) := by
  keeps_stretch [s3]
theorem keep3_arg3 (W : Valuation τ sig (Elt Ideal)) : after (s3 (F := Ideal)) W (no_index (Proc.devRef .tc main_arg3)) = W (Proc.devRef .tc main_arg3) := by
  keeps_stretch [s3]
theorem keep3_arg4 (W : Valuation τ sig (Elt Ideal)) : after (s3 (F := Ideal)) W (no_index (Proc.devRef .tc main_arg4)) = W (Proc.devRef .tc main_arg4) := by
  keeps_stretch [s3]
theorem keep3_arg5 (W : Valuation τ sig (Elt Ideal)) : after (s3 (F := Ideal)) W (no_index (Proc.devRef .tc main_arg5)) = W (Proc.devRef .tc main_arg5) := by
  keeps_stretch [s3]
theorem keep3_arg6 (W : Valuation τ sig (Elt Ideal)) : after (s3 (F := Ideal)) W (no_index (Proc.devRef .tc main_arg6)) = W (Proc.devRef .tc main_arg6) := by
  keeps_stretch [s3]
theorem keep3_arg7 (W : Valuation τ sig (Elt Ideal)) : after (s3 (F := Ideal)) W (no_index (Proc.devRef .tc main_arg7)) = W (Proc.devRef .tc main_arg7) := by
  keeps_stretch [s3]
theorem keep3_arg8 (W : Valuation τ sig (Elt Ideal)) : after (s3 (F := Ideal)) W (no_index (Proc.devRef .tc main_arg8)) = W (Proc.devRef .tc main_arg8) := by
  keeps_stretch [s3]
theorem keep3_arg9 (W : Valuation τ sig (Elt Ideal)) : after (s3 (F := Ideal)) W (no_index (Proc.devRef .tc main_arg9)) = W (Proc.devRef .tc main_arg9) := by
  keeps_stretch [s3]
theorem keep3_v38 (W : Valuation τ sig (Elt Ideal)) : after (s3 (F := Ideal)) W (no_index (Proc.devRef .tc main_v38)) = W (Proc.devRef .tc main_v38) := by
  keeps_stretch [s3]
theorem keep4_arg0 (W : Valuation τ sig (Elt Ideal)) : after (s4 (F := Ideal)) W (no_index (Proc.devRef .tc main_arg0)) = W (Proc.devRef .tc main_arg0) := by
  keeps_stretch [s4]
theorem keep4_arg1 (W : Valuation τ sig (Elt Ideal)) : after (s4 (F := Ideal)) W (no_index (Proc.devRef .tc main_arg1)) = W (Proc.devRef .tc main_arg1) := by
  keeps_stretch [s4]
theorem keep4_arg2 (W : Valuation τ sig (Elt Ideal)) : after (s4 (F := Ideal)) W (no_index (Proc.devRef .tc main_arg2)) = W (Proc.devRef .tc main_arg2) := by
  keeps_stretch [s4]
theorem keep4_arg3 (W : Valuation τ sig (Elt Ideal)) : after (s4 (F := Ideal)) W (no_index (Proc.devRef .tc main_arg3)) = W (Proc.devRef .tc main_arg3) := by
  keeps_stretch [s4]
theorem keep4_arg4 (W : Valuation τ sig (Elt Ideal)) : after (s4 (F := Ideal)) W (no_index (Proc.devRef .tc main_arg4)) = W (Proc.devRef .tc main_arg4) := by
  keeps_stretch [s4]
theorem keep4_arg5 (W : Valuation τ sig (Elt Ideal)) : after (s4 (F := Ideal)) W (no_index (Proc.devRef .tc main_arg5)) = W (Proc.devRef .tc main_arg5) := by
  keeps_stretch [s4]
theorem keep4_arg6 (W : Valuation τ sig (Elt Ideal)) : after (s4 (F := Ideal)) W (no_index (Proc.devRef .tc main_arg6)) = W (Proc.devRef .tc main_arg6) := by
  keeps_stretch [s4]
theorem keep4_arg7 (W : Valuation τ sig (Elt Ideal)) : after (s4 (F := Ideal)) W (no_index (Proc.devRef .tc main_arg7)) = W (Proc.devRef .tc main_arg7) := by
  keeps_stretch [s4]
theorem keep4_arg8 (W : Valuation τ sig (Elt Ideal)) : after (s4 (F := Ideal)) W (no_index (Proc.devRef .tc main_arg8)) = W (Proc.devRef .tc main_arg8) := by
  keeps_stretch [s4]
theorem keep4_arg9 (W : Valuation τ sig (Elt Ideal)) : after (s4 (F := Ideal)) W (no_index (Proc.devRef .tc main_arg9)) = W (Proc.devRef .tc main_arg9) := by
  keeps_stretch [s4]
theorem keep4_v38 (W : Valuation τ sig (Elt Ideal)) : after (s4 (F := Ideal)) W (no_index (Proc.devRef .tc main_v38)) = W (Proc.devRef .tc main_v38) := by
  keeps_stretch [s4]
theorem keep5_arg0 (W : Valuation τ sig (Elt Ideal)) : after (s5 (F := Ideal)) W (no_index (Proc.devRef .tc main_arg0)) = W (Proc.devRef .tc main_arg0) := by
  keeps_stretch [s5]
theorem keep5_arg1 (W : Valuation τ sig (Elt Ideal)) : after (s5 (F := Ideal)) W (no_index (Proc.devRef .tc main_arg1)) = W (Proc.devRef .tc main_arg1) := by
  keeps_stretch [s5]
theorem keep5_arg2 (W : Valuation τ sig (Elt Ideal)) : after (s5 (F := Ideal)) W (no_index (Proc.devRef .tc main_arg2)) = W (Proc.devRef .tc main_arg2) := by
  keeps_stretch [s5]
theorem keep5_arg3 (W : Valuation τ sig (Elt Ideal)) : after (s5 (F := Ideal)) W (no_index (Proc.devRef .tc main_arg3)) = W (Proc.devRef .tc main_arg3) := by
  keeps_stretch [s5]
theorem keep5_arg4 (W : Valuation τ sig (Elt Ideal)) : after (s5 (F := Ideal)) W (no_index (Proc.devRef .tc main_arg4)) = W (Proc.devRef .tc main_arg4) := by
  keeps_stretch [s5]
theorem keep5_arg5 (W : Valuation τ sig (Elt Ideal)) : after (s5 (F := Ideal)) W (no_index (Proc.devRef .tc main_arg5)) = W (Proc.devRef .tc main_arg5) := by
  keeps_stretch [s5]
theorem keep5_arg6 (W : Valuation τ sig (Elt Ideal)) : after (s5 (F := Ideal)) W (no_index (Proc.devRef .tc main_arg6)) = W (Proc.devRef .tc main_arg6) := by
  keeps_stretch [s5]
theorem keep5_arg7 (W : Valuation τ sig (Elt Ideal)) : after (s5 (F := Ideal)) W (no_index (Proc.devRef .tc main_arg7)) = W (Proc.devRef .tc main_arg7) := by
  keeps_stretch [s5]
theorem keep5_arg8 (W : Valuation τ sig (Elt Ideal)) : after (s5 (F := Ideal)) W (no_index (Proc.devRef .tc main_arg8)) = W (Proc.devRef .tc main_arg8) := by
  keeps_stretch [s5]
theorem keep5_arg9 (W : Valuation τ sig (Elt Ideal)) : after (s5 (F := Ideal)) W (no_index (Proc.devRef .tc main_arg9)) = W (Proc.devRef .tc main_arg9) := by
  keeps_stretch [s5]
theorem keep5_v146 (W : Valuation τ sig (Elt Ideal)) : after (s5 (F := Ideal)) W (no_index (Proc.devRef .tc main_v146)) = W (Proc.devRef .tc main_v146) := by
  keeps_stretch [s5]
theorem keep6_arg0 (W : Valuation τ sig (Elt Ideal)) : after (s6 (F := Ideal)) W (no_index (Proc.devRef .tc main_arg0)) = W (Proc.devRef .tc main_arg0) := by
  keeps_stretch [s6]
theorem keep6_arg1 (W : Valuation τ sig (Elt Ideal)) : after (s6 (F := Ideal)) W (no_index (Proc.devRef .tc main_arg1)) = W (Proc.devRef .tc main_arg1) := by
  keeps_stretch [s6]
theorem keep6_arg2 (W : Valuation τ sig (Elt Ideal)) : after (s6 (F := Ideal)) W (no_index (Proc.devRef .tc main_arg2)) = W (Proc.devRef .tc main_arg2) := by
  keeps_stretch [s6]
theorem keep6_arg3 (W : Valuation τ sig (Elt Ideal)) : after (s6 (F := Ideal)) W (no_index (Proc.devRef .tc main_arg3)) = W (Proc.devRef .tc main_arg3) := by
  keeps_stretch [s6]
theorem keep6_arg4 (W : Valuation τ sig (Elt Ideal)) : after (s6 (F := Ideal)) W (no_index (Proc.devRef .tc main_arg4)) = W (Proc.devRef .tc main_arg4) := by
  keeps_stretch [s6]
theorem keep6_arg5 (W : Valuation τ sig (Elt Ideal)) : after (s6 (F := Ideal)) W (no_index (Proc.devRef .tc main_arg5)) = W (Proc.devRef .tc main_arg5) := by
  keeps_stretch [s6]
theorem keep6_arg6 (W : Valuation τ sig (Elt Ideal)) : after (s6 (F := Ideal)) W (no_index (Proc.devRef .tc main_arg6)) = W (Proc.devRef .tc main_arg6) := by
  keeps_stretch [s6]
theorem keep6_arg7 (W : Valuation τ sig (Elt Ideal)) : after (s6 (F := Ideal)) W (no_index (Proc.devRef .tc main_arg7)) = W (Proc.devRef .tc main_arg7) := by
  keeps_stretch [s6]
theorem keep6_arg8 (W : Valuation τ sig (Elt Ideal)) : after (s6 (F := Ideal)) W (no_index (Proc.devRef .tc main_arg8)) = W (Proc.devRef .tc main_arg8) := by
  keeps_stretch [s6]
theorem keep6_arg9 (W : Valuation τ sig (Elt Ideal)) : after (s6 (F := Ideal)) W (no_index (Proc.devRef .tc main_arg9)) = W (Proc.devRef .tc main_arg9) := by
  keeps_stretch [s6]
theorem keep6_v146 (W : Valuation τ sig (Elt Ideal)) : after (s6 (F := Ideal)) W (no_index (Proc.devRef .tc main_v146)) = W (Proc.devRef .tc main_v146) := by
  keeps_stretch [s6]
theorem keep6_v175 (W : Valuation τ sig (Elt Ideal)) : after (s6 (F := Ideal)) W (no_index (Proc.devRef .tc main_v175)) = W (Proc.devRef .tc main_v175) := by
  keeps_stretch [s6]
theorem keep7_arg0 (W : Valuation τ sig (Elt Ideal)) : after (s7 (F := Ideal)) W (no_index (Proc.devRef .tc main_arg0)) = W (Proc.devRef .tc main_arg0) := by
  keeps_stretch [s7]
theorem keep7_arg1 (W : Valuation τ sig (Elt Ideal)) : after (s7 (F := Ideal)) W (no_index (Proc.devRef .tc main_arg1)) = W (Proc.devRef .tc main_arg1) := by
  keeps_stretch [s7]
theorem keep7_arg2 (W : Valuation τ sig (Elt Ideal)) : after (s7 (F := Ideal)) W (no_index (Proc.devRef .tc main_arg2)) = W (Proc.devRef .tc main_arg2) := by
  keeps_stretch [s7]
theorem keep7_arg3 (W : Valuation τ sig (Elt Ideal)) : after (s7 (F := Ideal)) W (no_index (Proc.devRef .tc main_arg3)) = W (Proc.devRef .tc main_arg3) := by
  keeps_stretch [s7]
theorem keep7_arg4 (W : Valuation τ sig (Elt Ideal)) : after (s7 (F := Ideal)) W (no_index (Proc.devRef .tc main_arg4)) = W (Proc.devRef .tc main_arg4) := by
  keeps_stretch [s7]
theorem keep7_arg5 (W : Valuation τ sig (Elt Ideal)) : after (s7 (F := Ideal)) W (no_index (Proc.devRef .tc main_arg5)) = W (Proc.devRef .tc main_arg5) := by
  keeps_stretch [s7]
theorem keep7_arg6 (W : Valuation τ sig (Elt Ideal)) : after (s7 (F := Ideal)) W (no_index (Proc.devRef .tc main_arg6)) = W (Proc.devRef .tc main_arg6) := by
  keeps_stretch [s7]
theorem keep7_arg7 (W : Valuation τ sig (Elt Ideal)) : after (s7 (F := Ideal)) W (no_index (Proc.devRef .tc main_arg7)) = W (Proc.devRef .tc main_arg7) := by
  keeps_stretch [s7]
theorem keep7_arg8 (W : Valuation τ sig (Elt Ideal)) : after (s7 (F := Ideal)) W (no_index (Proc.devRef .tc main_arg8)) = W (Proc.devRef .tc main_arg8) := by
  keeps_stretch [s7]
theorem keep7_arg9 (W : Valuation τ sig (Elt Ideal)) : after (s7 (F := Ideal)) W (no_index (Proc.devRef .tc main_arg9)) = W (Proc.devRef .tc main_arg9) := by
  keeps_stretch [s7]
theorem keep7_v146 (W : Valuation τ sig (Elt Ideal)) : after (s7 (F := Ideal)) W (no_index (Proc.devRef .tc main_v146)) = W (Proc.devRef .tc main_v146) := by
  keeps_stretch [s7]
theorem keep7_v214 (W : Valuation τ sig (Elt Ideal)) : after (s7 (F := Ideal)) W (no_index (Proc.devRef .tc main_v214)) = W (Proc.devRef .tc main_v214) := by
  keeps_stretch [s7]
theorem keep8_arg0 (W : Valuation τ sig (Elt Ideal)) : after (s8 (F := Ideal)) W (no_index (Proc.devRef .tc main_arg0)) = W (Proc.devRef .tc main_arg0) := by
  keeps_stretch [s8]
theorem keep8_arg1 (W : Valuation τ sig (Elt Ideal)) : after (s8 (F := Ideal)) W (no_index (Proc.devRef .tc main_arg1)) = W (Proc.devRef .tc main_arg1) := by
  keeps_stretch [s8]
theorem keep8_arg2 (W : Valuation τ sig (Elt Ideal)) : after (s8 (F := Ideal)) W (no_index (Proc.devRef .tc main_arg2)) = W (Proc.devRef .tc main_arg2) := by
  keeps_stretch [s8]
theorem keep8_arg3 (W : Valuation τ sig (Elt Ideal)) : after (s8 (F := Ideal)) W (no_index (Proc.devRef .tc main_arg3)) = W (Proc.devRef .tc main_arg3) := by
  keeps_stretch [s8]
theorem keep8_arg4 (W : Valuation τ sig (Elt Ideal)) : after (s8 (F := Ideal)) W (no_index (Proc.devRef .tc main_arg4)) = W (Proc.devRef .tc main_arg4) := by
  keeps_stretch [s8]
theorem keep8_arg5 (W : Valuation τ sig (Elt Ideal)) : after (s8 (F := Ideal)) W (no_index (Proc.devRef .tc main_arg5)) = W (Proc.devRef .tc main_arg5) := by
  keeps_stretch [s8]
theorem keep8_arg6 (W : Valuation τ sig (Elt Ideal)) : after (s8 (F := Ideal)) W (no_index (Proc.devRef .tc main_arg6)) = W (Proc.devRef .tc main_arg6) := by
  keeps_stretch [s8]
theorem keep8_arg7 (W : Valuation τ sig (Elt Ideal)) : after (s8 (F := Ideal)) W (no_index (Proc.devRef .tc main_arg7)) = W (Proc.devRef .tc main_arg7) := by
  keeps_stretch [s8]
theorem keep8_arg8 (W : Valuation τ sig (Elt Ideal)) : after (s8 (F := Ideal)) W (no_index (Proc.devRef .tc main_arg8)) = W (Proc.devRef .tc main_arg8) := by
  keeps_stretch [s8]
theorem keep8_arg9 (W : Valuation τ sig (Elt Ideal)) : after (s8 (F := Ideal)) W (no_index (Proc.devRef .tc main_arg9)) = W (Proc.devRef .tc main_arg9) := by
  keeps_stretch [s8]
theorem keep8_v214 (W : Valuation τ sig (Elt Ideal)) : after (s8 (F := Ideal)) W (no_index (Proc.devRef .tc main_v214)) = W (Proc.devRef .tc main_v214) := by
  keeps_stretch [s8]
theorem keep9_arg0 (W : Valuation τ sig (Elt Ideal)) : after (s9 (F := Ideal)) W (no_index (Proc.devRef .tc main_arg0)) = W (Proc.devRef .tc main_arg0) := by
  keeps_stretch [s9]
theorem keep9_arg1 (W : Valuation τ sig (Elt Ideal)) : after (s9 (F := Ideal)) W (no_index (Proc.devRef .tc main_arg1)) = W (Proc.devRef .tc main_arg1) := by
  keeps_stretch [s9]
theorem keep9_arg2 (W : Valuation τ sig (Elt Ideal)) : after (s9 (F := Ideal)) W (no_index (Proc.devRef .tc main_arg2)) = W (Proc.devRef .tc main_arg2) := by
  keeps_stretch [s9]
theorem keep9_arg3 (W : Valuation τ sig (Elt Ideal)) : after (s9 (F := Ideal)) W (no_index (Proc.devRef .tc main_arg3)) = W (Proc.devRef .tc main_arg3) := by
  keeps_stretch [s9]
theorem keep9_arg4 (W : Valuation τ sig (Elt Ideal)) : after (s9 (F := Ideal)) W (no_index (Proc.devRef .tc main_arg4)) = W (Proc.devRef .tc main_arg4) := by
  keeps_stretch [s9]
theorem keep9_arg5 (W : Valuation τ sig (Elt Ideal)) : after (s9 (F := Ideal)) W (no_index (Proc.devRef .tc main_arg5)) = W (Proc.devRef .tc main_arg5) := by
  keeps_stretch [s9]
theorem keep9_arg6 (W : Valuation τ sig (Elt Ideal)) : after (s9 (F := Ideal)) W (no_index (Proc.devRef .tc main_arg6)) = W (Proc.devRef .tc main_arg6) := by
  keeps_stretch [s9]
theorem keep9_arg7 (W : Valuation τ sig (Elt Ideal)) : after (s9 (F := Ideal)) W (no_index (Proc.devRef .tc main_arg7)) = W (Proc.devRef .tc main_arg7) := by
  keeps_stretch [s9]
theorem keep9_arg8 (W : Valuation τ sig (Elt Ideal)) : after (s9 (F := Ideal)) W (no_index (Proc.devRef .tc main_arg8)) = W (Proc.devRef .tc main_arg8) := by
  keeps_stretch [s9]
theorem keep9_arg9 (W : Valuation τ sig (Elt Ideal)) : after (s9 (F := Ideal)) W (no_index (Proc.devRef .tc main_arg9)) = W (Proc.devRef .tc main_arg9) := by
  keeps_stretch [s9]
theorem keep9_v214 (W : Valuation τ sig (Elt Ideal)) : after (s9 (F := Ideal)) W (no_index (Proc.devRef .tc main_v214)) = W (Proc.devRef .tc main_v214) := by
  keeps_stretch [s9]
theorem keep10_arg0 (W : Valuation τ sig (Elt Ideal)) : after (s10 (F := Ideal)) W (no_index (Proc.devRef .tc main_arg0)) = W (Proc.devRef .tc main_arg0) := by
  keeps_stretch [s10]
theorem keep10_arg1 (W : Valuation τ sig (Elt Ideal)) : after (s10 (F := Ideal)) W (no_index (Proc.devRef .tc main_arg1)) = W (Proc.devRef .tc main_arg1) := by
  keeps_stretch [s10]
theorem keep10_arg2 (W : Valuation τ sig (Elt Ideal)) : after (s10 (F := Ideal)) W (no_index (Proc.devRef .tc main_arg2)) = W (Proc.devRef .tc main_arg2) := by
  keeps_stretch [s10]
theorem keep10_arg3 (W : Valuation τ sig (Elt Ideal)) : after (s10 (F := Ideal)) W (no_index (Proc.devRef .tc main_arg3)) = W (Proc.devRef .tc main_arg3) := by
  keeps_stretch [s10]
theorem keep10_arg4 (W : Valuation τ sig (Elt Ideal)) : after (s10 (F := Ideal)) W (no_index (Proc.devRef .tc main_arg4)) = W (Proc.devRef .tc main_arg4) := by
  keeps_stretch [s10]
theorem keep10_arg5 (W : Valuation τ sig (Elt Ideal)) : after (s10 (F := Ideal)) W (no_index (Proc.devRef .tc main_arg5)) = W (Proc.devRef .tc main_arg5) := by
  keeps_stretch [s10]
theorem keep10_arg6 (W : Valuation τ sig (Elt Ideal)) : after (s10 (F := Ideal)) W (no_index (Proc.devRef .tc main_arg6)) = W (Proc.devRef .tc main_arg6) := by
  keeps_stretch [s10]
theorem keep10_arg7 (W : Valuation τ sig (Elt Ideal)) : after (s10 (F := Ideal)) W (no_index (Proc.devRef .tc main_arg7)) = W (Proc.devRef .tc main_arg7) := by
  keeps_stretch [s10]
theorem keep10_arg8 (W : Valuation τ sig (Elt Ideal)) : after (s10 (F := Ideal)) W (no_index (Proc.devRef .tc main_arg8)) = W (Proc.devRef .tc main_arg8) := by
  keeps_stretch [s10]
theorem keep10_arg9 (W : Valuation τ sig (Elt Ideal)) : after (s10 (F := Ideal)) W (no_index (Proc.devRef .tc main_arg9)) = W (Proc.devRef .tc main_arg9) := by
  keeps_stretch [s10]
theorem keep10_v322 (W : Valuation τ sig (Elt Ideal)) : after (s10 (F := Ideal)) W (no_index (Proc.devRef .tc main_v322)) = W (Proc.devRef .tc main_v322) := by
  keeps_stretch [s10]

/-! ## The line's results as functions of the arguments -/

/-- The whole line run from a valuation is the ten stretches run one after the other. -/
theorem after_all (V : Valuation τ sig (Elt Ideal)) :
    after (opsAll (F := Ideal)) V = after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V))))))))) := by
  rw [opsAll_eq]; simp only [StableHlo.after_append]

/-- From any valuation the line leaves the two result buffers at the two-layer functions of the arguments' contents and
    the arguments as they were. -/
theorem results (V : Valuation τ sig (Elt Ideal)) :
    after (opsAll (F := Ideal)) V (Proc.devRef .tc main_v322) = Sage.resUsers (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ after (opsAll (F := Ideal)) V (Proc.devRef .tc main_v351) = Sage.resItems (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ after (opsAll (F := Ideal)) V (Proc.devRef .tc main_arg0) = V (Proc.devRef .tc main_arg0)
    ∧ after (opsAll (F := Ideal)) V (Proc.devRef .tc main_arg1) = V (Proc.devRef .tc main_arg1)
    ∧ after (opsAll (F := Ideal)) V (Proc.devRef .tc main_arg2) = V (Proc.devRef .tc main_arg2)
    ∧ after (opsAll (F := Ideal)) V (Proc.devRef .tc main_arg3) = V (Proc.devRef .tc main_arg3)
    ∧ after (opsAll (F := Ideal)) V (Proc.devRef .tc main_arg4) = V (Proc.devRef .tc main_arg4)
    ∧ after (opsAll (F := Ideal)) V (Proc.devRef .tc main_arg5) = V (Proc.devRef .tc main_arg5)
    ∧ after (opsAll (F := Ideal)) V (Proc.devRef .tc main_arg6) = V (Proc.devRef .tc main_arg6)
    ∧ after (opsAll (F := Ideal)) V (Proc.devRef .tc main_arg7) = V (Proc.devRef .tc main_arg7)
    ∧ after (opsAll (F := Ideal)) V (Proc.devRef .tc main_arg8) = V (Proc.devRef .tc main_arg8)
    ∧ after (opsAll (F := Ideal)) V (Proc.devRef .tc main_arg9) = V (Proc.devRef .tc main_arg9) := by
  rw [after_all]
  refine ⟨?_, ?_, ?_, ?_, ?_, ?_, ?_, ?_, ?_, ?_, ?_, ?_⟩
  · simp only [read1, read2, read3, read4, read5, read6, read7, read8, read9, read10, keep1_arg0, keep1_arg1, keep1_arg2, keep1_arg3, keep1_arg4, keep1_arg5, keep1_arg6, keep1_arg7, keep1_arg8, keep1_arg9, keep2_arg0, keep2_arg1, keep2_arg2, keep2_arg3, keep2_arg4, keep2_arg5, keep2_arg6, keep2_arg7, keep2_arg8, keep2_arg9, keep2_v38, keep3_arg0, keep3_arg1, keep3_arg2, keep3_arg3, keep3_arg4, keep3_arg5, keep3_arg6, keep3_arg7, keep3_arg8, keep3_arg9, keep3_v38, keep4_arg0, keep4_arg1, keep4_arg2, keep4_arg3, keep4_arg4, keep4_arg5, keep4_arg6, keep4_arg7, keep4_arg8, keep4_arg9, keep4_v38, keep5_arg0, keep5_arg1, keep5_arg2, keep5_arg3, keep5_arg4, keep5_arg5, keep5_arg6, keep5_arg7, keep5_arg8, keep5_arg9, keep5_v146, keep6_arg0, keep6_arg1, keep6_arg2, keep6_arg3, keep6_arg4, keep6_arg5, keep6_arg6, keep6_arg7, keep6_arg8, keep6_arg9, keep6_v146, keep6_v175, keep7_arg0, keep7_arg1, keep7_arg2, keep7_arg3, keep7_arg4, keep7_arg5, keep7_arg6, keep7_arg7, keep7_arg8, keep7_arg9, keep7_v146, keep7_v214, keep8_arg0, keep8_arg1, keep8_arg2, keep8_arg3, keep8_arg4, keep8_arg5, keep8_arg6, keep8_arg7, keep8_arg8, keep8_arg9, keep8_v214, keep9_arg0, keep9_arg1, keep9_arg2, keep9_arg3, keep9_arg4, keep9_arg5, keep9_arg6, keep9_arg7, keep9_arg8, keep9_arg9, keep9_v214, keep10_arg0, keep10_arg1, keep10_arg2, keep10_arg3, keep10_arg4, keep10_arg5, keep10_arg6, keep10_arg7, keep10_arg8, keep10_arg9, keep10_v322, Ref.item_eq, Ref.user_eq]
    rfl
  · simp only [read1, read2, read3, read4, read5, read6, read7, read8, read9, read10, keep1_arg0, keep1_arg1, keep1_arg2, keep1_arg3, keep1_arg4, keep1_arg5, keep1_arg6, keep1_arg7, keep1_arg8, keep1_arg9, keep2_arg0, keep2_arg1, keep2_arg2, keep2_arg3, keep2_arg4, keep2_arg5, keep2_arg6, keep2_arg7, keep2_arg8, keep2_arg9, keep2_v38, keep3_arg0, keep3_arg1, keep3_arg2, keep3_arg3, keep3_arg4, keep3_arg5, keep3_arg6, keep3_arg7, keep3_arg8, keep3_arg9, keep3_v38, keep4_arg0, keep4_arg1, keep4_arg2, keep4_arg3, keep4_arg4, keep4_arg5, keep4_arg6, keep4_arg7, keep4_arg8, keep4_arg9, keep4_v38, keep5_arg0, keep5_arg1, keep5_arg2, keep5_arg3, keep5_arg4, keep5_arg5, keep5_arg6, keep5_arg7, keep5_arg8, keep5_arg9, keep5_v146, keep6_arg0, keep6_arg1, keep6_arg2, keep6_arg3, keep6_arg4, keep6_arg5, keep6_arg6, keep6_arg7, keep6_arg8, keep6_arg9, keep6_v146, keep6_v175, keep7_arg0, keep7_arg1, keep7_arg2, keep7_arg3, keep7_arg4, keep7_arg5, keep7_arg6, keep7_arg7, keep7_arg8, keep7_arg9, keep7_v146, keep7_v214, keep8_arg0, keep8_arg1, keep8_arg2, keep8_arg3, keep8_arg4, keep8_arg5, keep8_arg6, keep8_arg7, keep8_arg8, keep8_arg9, keep8_v214, keep9_arg0, keep9_arg1, keep9_arg2, keep9_arg3, keep9_arg4, keep9_arg5, keep9_arg6, keep9_arg7, keep9_arg8, keep9_arg9, keep9_v214, keep10_arg0, keep10_arg1, keep10_arg2, keep10_arg3, keep10_arg4, keep10_arg5, keep10_arg6, keep10_arg7, keep10_arg8, keep10_arg9, keep10_v322, Ref.item_eq, Ref.user_eq]
    rfl
  all_goals simp only [keep1_arg0, keep1_arg1, keep1_arg2, keep1_arg3, keep1_arg4, keep1_arg5, keep1_arg6, keep1_arg7, keep1_arg8, keep1_arg9, keep2_arg0, keep2_arg1, keep2_arg2, keep2_arg3, keep2_arg4, keep2_arg5, keep2_arg6, keep2_arg7, keep2_arg8, keep2_arg9, keep3_arg0, keep3_arg1, keep3_arg2, keep3_arg3, keep3_arg4, keep3_arg5, keep3_arg6, keep3_arg7, keep3_arg8, keep3_arg9, keep4_arg0, keep4_arg1, keep4_arg2, keep4_arg3, keep4_arg4, keep4_arg5, keep4_arg6, keep4_arg7, keep4_arg8, keep4_arg9, keep5_arg0, keep5_arg1, keep5_arg2, keep5_arg3, keep5_arg4, keep5_arg5, keep5_arg6, keep5_arg7, keep5_arg8, keep5_arg9, keep6_arg0, keep6_arg1, keep6_arg2, keep6_arg3, keep6_arg4, keep6_arg5, keep6_arg6, keep6_arg7, keep6_arg8, keep6_arg9, keep7_arg0, keep7_arg1, keep7_arg2, keep7_arg3, keep7_arg4, keep7_arg5, keep7_arg6, keep7_arg7, keep7_arg8, keep7_arg9, keep8_arg0, keep8_arg1, keep8_arg2, keep8_arg3, keep8_arg4, keep8_arg5, keep8_arg6, keep8_arg7, keep8_arg8, keep8_arg9, keep9_arg0, keep9_arg1, keep9_arg2, keep9_arg3, keep9_arg4, keep9_arg5, keep9_arg6, keep9_arg7, keep9_arg8, keep9_arg9, keep10_arg0, keep10_arg1, keep10_arg2, keep10_arg3, keep10_arg4, keep10_arg5, keep10_arg6, keep10_arg7, keep10_arg8, keep10_arg9]

/-! ## The run -/

/-- On every device, from any memory with zero counters: every weakly fair execution of the reference terminates with
    its two results at the two-layer functions of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v322) = Sage.resUsers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v351) = Sage.resItems (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have R := results (launchContents m c)
      ⟨(h c main_v322).trans R.1, (h c main_v351).trans R.2.1,
        (h c main_arg0).trans R.2.2.1,
        (h c main_arg1).trans R.2.2.2.1,
        (h c main_arg2).trans R.2.2.2.2.1,
        (h c main_arg3).trans R.2.2.2.2.2.1,
        (h c main_arg4).trans R.2.2.2.2.2.2.1,
        (h c main_arg5).trans R.2.2.2.2.2.2.2.1,
        (h c main_arg6).trans R.2.2.2.2.2.2.2.2.1,
        (h c main_arg7).trans R.2.2.2.2.2.2.2.2.2.1,
        (h c main_arg8).trans R.2.2.2.2.2.2.2.2.2.2.1,
        (h c main_arg9).trans R.2.2.2.2.2.2.2.2.2.2.2⟩)
    (run_seq scopedRefs_eq scopedSems_eq defs main (fun _ => opsAll) main_eq (fun _ => opsAll_sub) m ρ (fun _ => opsAll_fresh))

end Cert.Sage.RefRun

end
-- ==== Proof.lean ====
/-
  Two layers of a heterogeneous graph convolution over users and items, computed by a kernel and by a reference, are the same
  function of the inputs at the exact (extended-real) reading of both programs.

  A layer updates every item row from the mean of the user rows along the user-to-item edges and from the row itself, and
  every user row from the means of the item rows along the item-to-user edges and of the user rows along the user-to-user
  edges and from the row itself: a convolution `mean · Wlᵀ + bl + x · Wrᵀ` per relation, the user's two summed, then layer
  normalisation over the 256 features and a rectifier. The kernel computes the means with host operations and the updates in
  four grid regions of 1000 rows a point, its matrix products fed through a narrower float format; the reference computes
  everything with whole-array host operations. Read exactly, a change of format is the identity, a product against a
  transposed weight is the same sum in either spelling, and a row's update depends on that row only, so each region's result
  array is one whole-array function of its operands (the region modules) and the kernel's two results are the functions
  `resUsers`, `resItems` of the ten inputs (the stage module); the reference's run, taken in the seven windows its program is
  printed in, ends at the same two functions (the reference-run module). No step uses that the inputs are finite: the two
  sides apply the same operations in the same association, and only sums are re-indexed.
  The three frame claims: the kernel's two are the generated frames; the reference's is its run with the results dropped.
  The idealization rewrote no operation, so its claim is trivial.
-/
import proofs.«130044_j40561671143575_1_alg».proof.Defs
import proofs.«130044_j40561671143575_1_alg».proof.Proof.Gen.Kernel
import proofs.«130044_j40561671143575_1_alg».proof.Proof.Gen.Kernel.Skeleton
import proofs.«130044_j40561671143575_1_alg».proof.Proof.Gen.Kernel.Launch
import proofs.«130044_j40561671143575_1_alg».proof.Proof.Gen.Kernel.Points
import proofs.«130044_j40561671143575_1_alg».proof.Proof.Gen.Kernel.Frame
import proofs.«130044_j40561671143575_1_alg».proof.Proof.Gen.KernelIdeal
import proofs.«130044_j40561671143575_1_alg».proof.Proof.Gen.KernelIdeal.Skeleton
import proofs.«130044_j40561671143575_1_alg».proof.Proof.Gen.KernelIdeal.Launch
import proofs.«130044_j40561671143575_1_alg».proof.Proof.Gen.KernelIdeal.Points
import proofs.«130044_j40561671143575_1_alg».proof.Proof.Gen.KernelIdeal.Frame
import proofs.«130044_j40561671143575_1_alg».proof.Proof.Gen.ReferenceIdeal
import proofs.«130044_j40561671143575_1_alg».proof.Proof.Gen.Pre_finite_inputs
import proofs.«130044_j40561671143575_1_alg».proof.Proof.KernelRun
import proofs.«130044_j40561671143575_1_alg».proof.Proof.KernelStages
import proofs.«130044_j40561671143575_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.Sage.RefRun.run m ρ)

theorem preserves : Cert.preserves_Kernel_KernelIdeal := trivial

/-- Both runs end with the user rows at `resUsers` and the item rows at `resItems` of the inputs; the inputs agree. -/
theorem algebraic : Cert.algebraic_KernelIdeal_ReferenceIdeal := by
  intro m ρ m' ρ' _ hagree
  refine ⟨fun c => Cert.Sage.resUsers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Sage.resItems (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Sage.Stages.users_eq m ρ c), (h c).2.1.trans (Cert.Sage.Stages.items_eq m ρ c), (h c).2.2⟩)
      (Cert.KernelIdeal.Results.run m ρ)
  · refine (θ_run Cert.ReferenceIdeal.defs _ _).mono (fun _ h c => ⟨?_, ?_, (h c).2.2⟩) (Cert.Sage.RefRun.run m' ρ')
    · rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    · rw [(h c).2.1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
